-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x2048 .f32 .bf16
  ∧ IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 31
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1, .f32⟩
  | .hbm, ⟨3, _⟩ => ⟨S4096x1, .f32⟩
  | .hbm, ⟨4, _⟩ => ⟨S4096x1, .f32⟩
  | .hbm, ⟨5, _⟩ => ⟨S4096x2048, .bf16⟩
  | .hbm, ⟨6, _⟩ => ⟨S4096x2048, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | .local _ .vmem, ⟨21, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![2, 2, 8], ![false, false, false]⟩

def k1_cond4 (i : grid1.Coords) : BitVec 1 :=
  let arg2 : BitVec 32 := BitVec.ofNat 32 (i 2).val
  let c7_i32_12 : BitVec 32 := 7#32
  let v21 : BitVec 1 := Scalar.cmpi .eq arg2 c7_i32_12
  let arg1 : BitVec 32 := BitVec.ofNat 32 (i 1).val
  let c1_i32 : BitVec 32 := 1#32
  let v22 : BitVec 1 := Scalar.cmpi .eq arg1 c1_i32
  let v23 : BitVec 1 := Scalar.andi v21 v22
  let v24 : BitVec 32 := Scalar.extui v23
  let c0_i32_13 : BitVec 32 := 0#32
  let v25 : BitVec 1 := Scalar.cmpi .ne v24 c0_i32_13
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  reducesTo_S4096x1_S_d0_1 : S4096x1.ReducesTo [0, 1] S_
  h_S_ : 0 < S_.numel
  reducesTo_S4096x2048_S2048_d0 : S4096x2048.ReducesTo [0] S2048
  reducesTo_S2048_S_d0 : S2048.ReducesTo [0] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x1024_S1024 : S1024x1024.Reduces [1] S1024
  shapeCasts_S1024_S1024x1 : S1024.ShapeCasts S1024x1
  reducesTo_S2048x1_S_d0_1 : S2048x1.ReducesTo [0, 1] S_
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .bf16 = 32 ∨ (Rect.block (s := S4096x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S4096x2048.size a
  hwx0_6 : ∀ i : grid0.Coords, EltTy.bits .bf16 = 32 ∨ (Rect.block (s := S4096x2048) S512x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x2048.size a
  hwx1_0 : ∀ i : grid1.Coords, EltTy.bits .bf16 = 32 ∨ (Rect.block (s := S4096x2048) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x2048.size a
  hwx1_1 : ∀ i : grid1.Coords, EltTy.bits .bf16 = 32 ∨ (Rect.block (s := S4096x2048) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .f32 = 32 ∨ (Rect.block (s := S2048x1) S1024x1.size (cc1_transform_2 i) (hinb1_2 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_4) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_3) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S_ : Shape := ⟨0, ![]⟩
abbrev S2048x4096 : Shape := ⟨2, ![2048, 4096]⟩
abbrev S4096x4096 : Shape := ⟨2, ![4096, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S2048x4096, .f32⟩
  | .hbm, ⟨31, _⟩ => ⟨S4096x4096, .f32⟩
  | .hbm, ⟨32, _⟩ => ⟨S2048x4096, .f32⟩
  | .hbm, ⟨33, _⟩ => ⟨S4096x4096, .f32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  reducesTo_S4096x2048_S_d0_1 : S4096x2048.ReducesTo [0, 1] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.FocalRegion.lean ====
import proofs.«180214_j58918361366660_2_alg».proof.Proof.Gen.KernelIdeal.Launch
import proofs.«180214_j58918361366660_2_alg».proof.Proof.Gen.KernelIdeal.Skeleton
import proofs.«180214_j58918361366660_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The focal pass (first pallas_call of @main), at any contents of the TensorCore's buffers

The first region of @main walks eight row blocks of the two f32[4096,2048] arguments (the logits and the
targets).  At each block the kernel body reads the two blocks whole and writes five outputs whole, one store
each: three columns of row sums (the focal-loss terms, the squared probabilities, the squared targets) and two
bf16 roundings (of the probabilities, i.e. the logistic of the logits, and of the targets).  Every output block
is therefore a function of the two input blocks alone.  This file states those five functions, proves that the
body computes them on whole staging buffers, and packages the result as the pipeline's proof data and body
obligation, parametrised by the buffer contents `V` found when the region is entered.
-/

set_option maxRecDepth 16384

noncomputable section

namespace Cert.KernelIdeal.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's current staging buffer holds its block at every point, fetched there or not, for any proof
    data whose array is `V`'s and whose body leaves the block in place: the window is uncut and never idle, and where
    it is not fetched its block index has not moved. -/
theorem logits_before_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the targets window. -/
theorem targets_before_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

/-- A whole 512×2048 block. -/
abbrev rBlock : Rect S512x2048 := Rect.unit (s := S512x2048) ![0, 0] S512x2048.size inb_S512x2048_S512x2048_0_0
/-- A whole 512×1 column. -/
abbrev rCol : Rect S512x1 := Rect.unit (s := S512x1) ![0, 0] S512x1.size inb_S512x1_S512x1_0_0

/-! ## What the body leaves in each output window's buffer, from the two input blocks -/

/-- The focal row sums: per row, the sum over the columns of 0.25·(1 − σ(x))²·(max(x,0) − x·y + log1p(exp(−|x|))),
    `x` the logits block and `y` the targets block. -/
def focalSums (x : Vec F S512x2048 .f32) (y : Vec F S512x2048 .f32) : Vec F S512x1 .f32 :=
  View.canon [⟨rCol, k0_pay2 (View.ld x rBlock) (View.ld y rBlock)⟩]

/-- The squared-probability row sums: per row, the sum over the columns of σ(x)². -/
def probSqSums (x : Vec F S512x2048 .f32) : Vec F S512x1 .f32 :=
  View.canon [⟨rCol, k0_pay5 (View.ld x rBlock)⟩]

/-- The squared-target row sums: per row, the sum over the columns of y². -/
def targetSqSums (y : Vec F S512x2048 .f32) : Vec F S512x1 .f32 :=
  View.canon [⟨rCol, k0_pay6 (View.ld y rBlock)⟩]

/-- The probabilities σ(x) rounded to bf16. -/
def roundedProbs (x : Vec F S512x2048 .f32) : Vec F S512x2048 .bf16 :=
  View.canon [⟨rBlock, k0_pay3 (View.ld x rBlock)⟩]

/-- The targets rounded to bf16. -/
def roundedTargets (y : Vec F S512x2048 .f32) : Vec F S512x2048 .bf16 :=
  View.canon [⟨rBlock, k0_pay4 (View.ld y rBlock)⟩]

/-- One whole-column store covers the column buffer: by the sizes alone. -/
theorem cover_col (p : Vec F S512x1 .f32) (y : S512x1.Idx) :
    ∃ pc ∈ ([⟨rCol, p⟩] : List (View.Piece (Elt F) S512x1 .f32)), y ∈ pc.1.set :=
  View.cover_of_tiled [⟨rCol, p⟩] S512x1.size (by rfl) y

/-- One whole-block store covers the block buffer: by the sizes alone. -/
theorem cover_block (p : Vec F S512x2048 .bf16) (y : S512x2048.Idx) :
    ∃ pc ∈ ([⟨rBlock, p⟩] : List (View.Piece (Elt F) S512x2048 .bf16)), y ∈ pc.1.set :=
  View.cover_of_tiled [⟨rBlock, p⟩] S512x2048.size (by rfl) y

/-! ## The body's triple -/

set_option maxHeartbeats 4000000 in
/-- The kernel body on whole staging memrefs, the two inputs' at read contents `x`, `y` and the five outputs' at
    anything, runs to the continuation holding the inputs' as they were and each output's at its function of the
    inputs'.  The printed function and its printed part are their skeletons of memory operations over payloads;
    each output buffer is loaded once (the value unused) and then stored whole, once. -/
theorem sound_kernel (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S512x1 .f32) (harg3 : arg3.IsWhole) (arg4 : Memref sig .tc .vmem S512x1 .f32) (harg4 : arg4.IsWhole)
    (arg5 : Memref sig .tc .vmem S512x1 .f32) (harg5 : arg5.IsWhole)
    (arg6 : Memref sig .tc .vmem S512x2048 .bf16) (harg6 : arg6.IsWhole) (arg7 : Memref sig .tc .vmem S512x2048 .bf16) (harg7 : arg7.IsWhole)
    (x : Vec F S512x2048 .f32) (y : Vec F S512x2048 .f32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d)
        ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare y
            ∗ owns (c : Thread nD τ) arg3 fullShare (focalSums x y) ∗ owns (c : Thread nD τ) arg4 fullShare (probSqSums x)
            ∗ owns (c : Thread nD τ) arg5 fullShare (targetSqSums y)
            ∗ owns (c : Thread nD τ) arg6 fullShare (roundedProbs x) ∗ owns (c : Thread nD τ) arg7 fullShare (roundedTargets y)) -∗ K ⟨⟩))
      ⊢ wp frame (wpE (defs₀ (F := F)) Variants.none c none) E
          (cc0__focal_kernel i arg1 harg1 arg2 harg2 arg3 harg3 arg4 harg4 arg5 harg5 arg6 harg6 arg7 harg7) K := by
  simp only [cc0__focal_kernel_eq_skeleton]; unfold cc0__focal_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_col _)
  isplitl [H4]
  · iexists _; isplitr
    swap; · iexact H4
    ipureintro
    exact View.read_writes_eq_canon _ _ _ (cover_col _)
  isplitl [H5]
  · iexists _; isplitr
    swap; · iexact H5
    ipureintro
    exact View.read_writes_eq_canon _ _ _ (cover_col _)
  isplitl [H6]
  · iexists _; isplitr
    swap; · iexact H6
    ipureintro
    exact View.read_writes_eq_canon _ _ _ (cover_block _)
  iexists _; isplitr
  swap; · iexact H7
  ipureintro
  exact View.read_writes_eq_canon _ _ _ (cover_block _)

/-! ## The pipeline's proof data -/

/-- The proof data of the focal pass on core `c`: the arrays as the region finds them (`V`); after the body at
    point `t` each input's buffer at its block and each output's at its function of the two input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => focalSums (blk V c 0 t) (blk V c 1 t)
    | ⟨3, _⟩ => probSqSums (blk V c 0 t)
    | ⟨4, _⟩ => targetSqSums (blk V c 1 t)
    | ⟨5, _⟩ => roundedProbs (blk V c 0 t)
    | ⟨6, _⟩ => roundedTargets (blk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = focalSums (blk V c 0 t) (blk V c 1 t) := by dsimp only [dat]
theorem after_3 (c : Dev nD) (t : Fin cfg0.N) : (dat V c).after 3 t = probSqSums (blk V c 0 t) := by dsimp only [dat]
theorem after_4 (c : Dev nD) (t : Fin cfg0.N) : (dat V c).after 4 t = targetSqSums (blk V c 1 t) := by dsimp only [dat]
theorem after_5 (c : Dev nD) (t : Fin cfg0.N) : (dat V c).after 5 t = roundedProbs (blk V c 0 t) := by dsimp only [dat]
theorem after_6 (c : Dev nD) (t : Fin cfg0.N) : (dat V c).after 6 t = roundedTargets (blk V c 1 t) := by dsimp only [dat]

/-- Each input's current staging buffer holds its block at every point, fetched there or not. -/
theorem before_0 (c : Dev nD) (t : Fin cfg0.N) (d) : (dat V c).before 0 t d = blk V c 0 t :=
  logits_before_of V (dat V c) (A_eq V c 0) (after_0 V c) t d
theorem before_1 (c : Dev nD) (t : Fin cfg0.N) (d) : (dat V c).before 1 t d = blk V c 1 t :=
  targets_before_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so `sound_kernel` applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Focal

end
-- ==== Proof.TtpShared.lean ====
import proofs.«180214_j58918361366660_2_alg».proof.Proof.Gen.KernelIdeal.Launch
import proofs.«180214_j58918361366660_2_alg».proof.Proof.Gen.KernelIdeal.Skeleton
import proofs.«180214_j58918361366660_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The second kernel region (the tiled contraction `Tᵀ P` with its running row sums of squares): what its runs
    share. The grid is (i, j, k) ∈ 2 × 2 × 8, point `t = 16 i + 8 j + k`. The body resets the row accumulator when
    `j = 0 ∧ k = 0`, resets the tile accumulator when `k = 0`, adds one 512-row slab's product into the tile
    accumulator at every point, folds the finished tile's row sums of squares into the row accumulator when `k = 7`,
    and copies the row accumulator out when `k = 7 ∧ j = 1`. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, from the grid coordinates, and where they hold -/

/-- `j = 0 ∧ k = 0`: the row accumulator is reset. -/
abbrev condRowReset (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcondRowReset : ∀ t : Fin cfg1.N, condRowReset (grid1.coords t) ↔ t.val % 16 = 0 :=
  (by decide +kernel : ∀ t : Fin grid1.N, condRowReset (grid1.coords t) ↔ t.val % 16 = 0)

/-- `k = 0`: the tile accumulator is reset. -/
abbrev condTileReset (i : grid1.Coords) : Prop :=
  (Scalar.cmpi .ne (Scalar.extui (Scalar.cmpi .eq (BitVec.ofNat 32 (i 2).val) 0#32)) 0#32) = 1#1
theorem hcondTileReset : ∀ t : Fin cfg1.N, condTileReset (grid1.coords t) ↔ t.val % 8 = 0 :=
  (by decide +kernel : ∀ t : Fin grid1.N, condTileReset (grid1.coords t) ↔ t.val % 8 = 0)

/-- `k = 7`: the tile is finished and folded into the row accumulator. -/
abbrev condTileDone (i : grid1.Coords) : Prop :=
  (Scalar.cmpi .ne (Scalar.extui (Scalar.cmpi .eq (BitVec.ofNat 32 (i 2).val) 7#32)) 0#32) = 1#1
theorem hcondTileDone : ∀ t : Fin cfg1.N, condTileDone (grid1.coords t) ↔ t.val % 8 = 7 :=
  (by decide +kernel : ∀ t : Fin grid1.N, condTileDone (grid1.coords t) ↔ t.val % 8 = 7)

/-- `k = 7 ∧ j = 1`: the row accumulator is copied to the output block. -/
abbrev condRowOut (i : grid1.Coords) : Prop := k1_cond4 i = 1#1
theorem hcondRowOut : ∀ t : Fin cfg1.N, condRowOut (grid1.coords t) ↔ t.val % 16 = 15 :=
  (by decide +kernel : ∀ t : Fin grid1.N, condRowOut (grid1.coords t) ↔ t.val % 16 = 15)

/-! ## Where the output window is idle -/

theorem liveIn0 : ∀ t : Fin cfg1.N, cfg1.idle 0 (grid1.coords t) = false := by decide +kernel
theorem liveIn1 : ∀ t : Fin cfg1.N, cfg1.idle 1 (grid1.coords t) = false := by decide +kernel
theorem idleOut : ∀ t : Fin cfg1.N, ¬condRowOut (grid1.coords t) → cfg1.idle 2 (grid1.coords t) = true := by decide +kernel
theorem noFlushOut : ∀ t : Fin cfg1.N, ¬condRowOut (grid1.coords t) → (cfg1.win 2).flush t = false := by decide +kernel
theorem liveOut : ∀ t : Fin cfg1.N, condRowOut (grid1.coords t) → cfg1.idle 2 (grid1.coords t) = false := by decide +kernel

/-! ## The memrefs the body is called with -/

abbrev msT (t : Fin cfg1.N) : Memref sig .tc .vmem S512x1024 .bf16 := win1_0.stage (cfg1.slots t 0)
abbrev hsT (t : Fin cfg1.N) : (msT t).IsWhole := hstage1_0 ((cfg1.slots t 0).cast nbuf1_0)
abbrev msP (t : Fin cfg1.N) : Memref sig .tc .vmem S512x1024 .bf16 := win1_1.stage (cfg1.slots t 1)
abbrev hsP (t : Fin cfg1.N) : (msP t).IsWhole := hstage1_1 ((cfg1.slots t 1).cast nbuf1_1)
abbrev msO (t : Fin cfg1.N) : Memref sig .tc .vmem S1024x1 .f32 := win1_2.stage (cfg1.slots t 2)
abbrev hsO (t : Fin cfg1.N) : (msO t).IsWhole := hstage1_2 ((cfg1.slots t 2).cast nbuf1_2)
/-- The tile accumulator (1024 × 1024) and the row accumulator (1024 × 1): whole scoped buffers of the kernel's own. -/
abbrev scTile : Memref sig .tc .vmem S1024x1024 .f32 := Memref.whole cc1_scratch0
abbrev scRow : Memref sig .tc .vmem S1024x1 .f32 := Memref.whole cc1_scratch1
abbrev VTile : View sig .tc .vmem S1024x1024 .f32 := scTile.view
abbrev VRow : View sig .tc .vmem S1024x1 .f32 := scRow.view
abbrev VOut : View sig .tc .vmem S1024x1 .f32 := (Memref.whole cc1_stg2_0 : Memref sig .tc .vmem S1024x1 .f32).view

/-- The region's scoped buffers that are neither a staging buffer of its windows nor its two accumulators: the first
    region's fourteen staging buffers, each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

end Cert.KernelIdeal.Ttp

end
-- ==== Proof.TtpRunA.lean ====
import proofs.«180214_j58918361366660_2_alg».proof.Proof.TtpShared

/-! The second kernel's body run in one of its five control cases. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A (condRowReset, condTileReset, not condTileDone, not condRowOut): the pieces its stores leave in each buffer it writes, with the body's triple on whole
    memrefs — the two slabs at their contents, a buffer the case does not touch handed back as it was, a buffer it overwrites
    before reading taken at anything, an accumulator it reads taken at what the point before left. -/
noncomputable def runA (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : condRowReset i) (hc1 : condTileReset i) (hc2 : ¬condTileDone i) (hc3 : ¬condRowOut i)
    (x0 : Vec F S512x1024 .bf16) (x1 : Vec F S512x1024 .bf16) :
    Σ' (LS0 : List (View.Piece (Elt F) S1024x1024 .f32)), { LS1 : List (View.Piece (Elt F) S1024x1 .f32) //
      ∀ (xi2 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ttp_kernel i arg3 harg3 arg4 harg4 arg5 harg5 arg6 harg6 arg7 harg7) K } := by
  refine ⟨?_, ?_, fun xi2 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

end Cert.KernelIdeal.Ttp

end
-- ==== Proof.TtpRunB.lean ====
import proofs.«180214_j58918361366660_2_alg».proof.Proof.TtpShared

/-! The second kernel's body run in one of its five control cases. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B (not condRowReset, not condTileReset, not condTileDone, not condRowOut): the pieces its stores leave in each buffer it writes, with the body's triple on whole
    memrefs — the two slabs at their contents, a buffer the case does not touch handed back as it was, a buffer it overwrites
    before reading taken at anything, an accumulator it reads taken at what the point before left. -/
noncomputable def runB (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : ¬condTileReset i) (hc2 : ¬condTileDone i) (hc3 : ¬condRowOut i)
    (x0 : Vec F S512x1024 .bf16) (x1 : Vec F S512x1024 .bf16) (xs0 : Vec F S1024x1024 .f32) :
    { LS0 : List (View.Piece (Elt F) S1024x1024 .f32) //
      ∀ (xi2 : Vec F S1024x1 .f32) (xs1 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc1__ttp_kernel i arg3 harg3 arg4 harg4 arg5 harg5 arg6 harg6 arg7 harg7) K } := by
  refine ⟨?_, fun xi2 xs1 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; isplitr; · ipureintro; exact harg7.read_unread _
    iexact HS1

end Cert.KernelIdeal.Ttp

end
-- ==== Proof.TtpRunC.lean ====
import proofs.«180214_j58918361366660_2_alg».proof.Proof.TtpShared

/-! The second kernel's body run in one of its five control cases. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C (not condRowReset, not condTileReset, condTileDone, not condRowOut): the pieces its stores leave in each buffer it writes, with the body's triple on whole
    memrefs — the two slabs at their contents, a buffer the case does not touch handed back as it was, a buffer it overwrites
    before reading taken at anything, an accumulator it reads taken at what the point before left. -/
noncomputable def runC (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : ¬condTileReset i) (hc2 : condTileDone i) (hc3 : ¬condRowOut i)
    (x0 : Vec F S512x1024 .bf16) (x1 : Vec F S512x1024 .bf16) (xs0 : Vec F S1024x1024 .f32) (xs1 : Vec F S1024x1 .f32) :
    Σ' (LS0 : List (View.Piece (Elt F) S1024x1024 .f32)), { LS1 : List (View.Piece (Elt F) S1024x1 .f32) //
      ∀ (xi2 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ttp_kernel i arg3 harg3 arg4 harg4 arg5 harg5 arg6 harg6 arg7 harg7) K } := by
  refine ⟨?_, ?_, fun xi2 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

end Cert.KernelIdeal.Ttp

end
-- ==== Proof.TtpRunD.lean ====
import proofs.«180214_j58918361366660_2_alg».proof.Proof.TtpShared

/-! The second kernel's body run in one of its five control cases. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case D (not condRowReset, condTileReset, not condTileDone, not condRowOut): the pieces its stores leave in each buffer it writes, with the body's triple on whole
    memrefs — the two slabs at their contents, a buffer the case does not touch handed back as it was, a buffer it overwrites
    before reading taken at anything, an accumulator it reads taken at what the point before left. -/
noncomputable def runD (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : condTileReset i) (hc2 : ¬condTileDone i) (hc3 : ¬condRowOut i)
    (x0 : Vec F S512x1024 .bf16) (x1 : Vec F S512x1024 .bf16) :
    { LS0 : List (View.Piece (Elt F) S1024x1024 .f32) //
      ∀ (xi2 : Vec F S1024x1 .f32) (xs1 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc1__ttp_kernel i arg3 harg3 arg4 harg4 arg5 harg5 arg6 harg6 arg7 harg7) K } := by
  refine ⟨?_, fun xi2 xs1 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; isplitr; · ipureintro; exact harg7.read_unread _
    iexact HS1

end Cert.KernelIdeal.Ttp

end
-- ==== Proof.TtpRunE.lean ====
import proofs.«180214_j58918361366660_2_alg».proof.Proof.TtpShared

/-! The second kernel's body run in one of its five control cases. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case E (not condRowReset, not condTileReset, condTileDone, condRowOut): the pieces its stores leave in each buffer it writes, with the body's triple on whole
    memrefs — the two slabs at their contents, a buffer the case does not touch handed back as it was, a buffer it overwrites
    before reading taken at anything, an accumulator it reads taken at what the point before left. -/
noncomputable def runE (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : ¬condTileReset i) (hc2 : condTileDone i) (hc3 : condRowOut i)
    (x0 : Vec F S512x1024 .bf16) (x1 : Vec F S512x1024 .bf16) (xs0 : Vec F S1024x1024 .f32) (xs1 : Vec F S1024x1 .f32) :
    Σ' (L2 : List (View.Piece (Elt F) S1024x1 .f32)), Σ' (LS0 : List (View.Piece (Elt F) S1024x1024 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ttp_kernel i arg3 harg3 arg4 harg4 arg5 harg5 arg6 harg6 arg7 harg7) K } := by
  refine ⟨?_, ?_, ?_, fun E K => ?run⟩
  case run =>
    simp only [cc1__ttp_kernel_eq_skeleton]; unfold cc1__ttp_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg3.eq_unread hf0; obtain rfl := harg4.eq_unread hf1; obtain rfl := harg6.eq_unread hfs0; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [HS0]
    · iexists _; iexact HS0
    iexists _; iexact HS1

end Cert.KernelIdeal.Ttp

end
-- ==== Proof.TtpRegion.lean ====
import proofs.«180214_j58918361366660_2_alg».proof.Proof.TtpRunA
import proofs.«180214_j58918361366660_2_alg».proof.Proof.TtpRunB
import proofs.«180214_j58918361366660_2_alg».proof.Proof.TtpRunC
import proofs.«180214_j58918361366660_2_alg».proof.Proof.TtpRunD
import proofs.«180214_j58918361366660_2_alg».proof.Proof.TtpRunE

/-! The second kernel region: what its output block, its tile accumulator and its row accumulator hold after each grid
    point (by recursion on the point, one step function per control case), the pipeline's proof data, and the body
    obligation at every point. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The control case at a point, from its position modulo 16 -/
theorem condsA (t : Fin cfg1.N) (h : t.val % 16 = 0) : condRowReset (grid1.coords t) ∧ condTileReset (grid1.coords t) ∧ ¬condTileDone (grid1.coords t) ∧ ¬condRowOut (grid1.coords t) :=
  ⟨(hcondRowReset t).mpr (by omega), (hcondTileReset t).mpr (by omega), fun h' => absurd ((hcondTileDone t).mp h') (by omega), fun h' => absurd ((hcondRowOut t).mp h') (by omega)⟩
theorem condsB (t : Fin cfg1.N) (h0 : t.val % 8 ≠ 0) (h7 : t.val % 8 ≠ 7) : ¬condRowReset (grid1.coords t) ∧ ¬condTileReset (grid1.coords t) ∧ ¬condTileDone (grid1.coords t) ∧ ¬condRowOut (grid1.coords t) :=
  ⟨fun h' => absurd ((hcondRowReset t).mp h') (by omega), fun h' => absurd ((hcondTileReset t).mp h') (by omega), fun h' => absurd ((hcondTileDone t).mp h') (by omega), fun h' => absurd ((hcondRowOut t).mp h') (by omega)⟩
theorem condsC (t : Fin cfg1.N) (h : t.val % 16 = 7) : ¬condRowReset (grid1.coords t) ∧ ¬condTileReset (grid1.coords t) ∧ condTileDone (grid1.coords t) ∧ ¬condRowOut (grid1.coords t) :=
  ⟨fun h' => absurd ((hcondRowReset t).mp h') (by omega), fun h' => absurd ((hcondTileReset t).mp h') (by omega), (hcondTileDone t).mpr (by omega), fun h' => absurd ((hcondRowOut t).mp h') (by omega)⟩
theorem condsD (t : Fin cfg1.N) (h : t.val % 16 = 8) : ¬condRowReset (grid1.coords t) ∧ condTileReset (grid1.coords t) ∧ ¬condTileDone (grid1.coords t) ∧ ¬condRowOut (grid1.coords t) :=
  ⟨fun h' => absurd ((hcondRowReset t).mp h') (by omega), (hcondTileReset t).mpr (by omega), fun h' => absurd ((hcondTileDone t).mp h') (by omega), fun h' => absurd ((hcondRowOut t).mp h') (by omega)⟩
theorem condsE (t : Fin cfg1.N) (h : t.val % 16 = 15) : ¬condRowReset (grid1.coords t) ∧ ¬condTileReset (grid1.coords t) ∧ condTileDone (grid1.coords t) ∧ condRowOut (grid1.coords t) :=
  ⟨fun h' => absurd ((hcondRowReset t).mp h') (by omega), fun h' => absurd ((hcondTileReset t).mp h') (by omega), (hcondTileDone t).mpr (by omega), (hcondRowOut t).mpr (by omega)⟩

/-! ## One step per case: (output block, tile accumulator, row accumulator) after the body -/
def stepA (c : Dev nD) (t : Fin cfg1.N) (h : t.val % 16 = 0) : Vec F S1024x1 .f32 × Vec F S1024x1024 .f32 × Vec F S1024x1 .f32 :=
  (VOut.read (Elt F) VOut.junk,
   VTile.read (Elt F) (VTile.writes (Elt F) VTile.junk (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).1),
   VRow.read (Elt F) (VRow.writes (Elt F) VRow.junk (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).2.1))
theorem coverTileA (c : Dev nD) (t : Fin cfg1.N) (h : t.val % 16 = 0) (y : S1024x1024.Idx) :
    ∃ pc ∈ (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).1, y ∈ pc.1.set :=
  View.cover_of_tiledL (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).1 S1024x1024.size (by sl_kernel_rfl) y
theorem coverRowA (c : Dev nD) (t : Fin cfg1.N) (h : t.val % 16 = 0) (y : S1024x1.Idx) :
    ∃ pc ∈ (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).2.1, y ∈ pc.1.set :=
  View.cover_of_tiledL (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).2.1 S1024x1.size (by sl_kernel_rfl) y
def stepB (c : Dev nD) (t : Fin cfg1.N) (h0 : t.val % 8 ≠ 0) (h7 : t.val % 8 ≠ 7) (pM : Vec F S1024x1024 .f32) (pJ : Vec F S1024x1 .f32) : Vec F S1024x1 .f32 × Vec F S1024x1024 .f32 × Vec F S1024x1 .f32 :=
  (VOut.read (Elt F) VOut.junk,
   VTile.read (Elt F) (VTile.writes (Elt F) VTile.junk (runB c (grid1.coords t) (msT t) (hsT t) (msP t) (hsP t) (msO t) (hsO t) scTile (Memref.isWhole_whole _) scRow (Memref.isWhole_whole _) (condsB t h0 h7).1 (condsB t h0 h7).2.1 (condsB t h0 h7).2.2.1 (condsB t h0 h7).2.2.2 (blk V c 0 t) (blk V c 1 t) pM).1),
   pJ)
theorem coverTileB (c : Dev nD) (t : Fin cfg1.N) (h0 : t.val % 8 ≠ 0) (h7 : t.val % 8 ≠ 7) (pM : Vec F S1024x1024 .f32) (y : S1024x1024.Idx) :
    ∃ pc ∈ (runB c (grid1.coords t) (msT t) (hsT t) (msP t) (hsP t) (msO t) (hsO t) scTile (Memref.isWhole_whole _) scRow (Memref.isWhole_whole _) (condsB t h0 h7).1 (condsB t h0 h7).2.1 (condsB t h0 h7).2.2.1 (condsB t h0 h7).2.2.2 (blk V c 0 t) (blk V c 1 t) pM).1, y ∈ pc.1.set :=
  View.cover_of_tiledL (runB c (grid1.coords t) (msT t) (hsT t) (msP t) (hsP t) (msO t) (hsO t) scTile (Memref.isWhole_whole _) scRow (Memref.isWhole_whole _) (condsB t h0 h7).1 (condsB t h0 h7).2.1 (condsB t h0 h7).2.2.1 (condsB t h0 h7).2.2.2 (blk V c 0 t) (blk V c 1 t) pM).1 S1024x1024.size (by sl_kernel_rfl) y
def stepC (c : Dev nD) (t : Fin cfg1.N) (h : t.val % 16 = 7) (pM : Vec F S1024x1024 .f32) (pJ : Vec F S1024x1 .f32) : Vec F S1024x1 .f32 × Vec F S1024x1024 .f32 × Vec F S1024x1 .f32 :=
  (VOut.read (Elt F) VOut.junk,
   VTile.read (Elt F) (VTile.writes (Elt F) VTile.junk (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).1),
   VRow.read (Elt F) (VRow.writes (Elt F) VRow.junk (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).2.1))
theorem coverTileC (c : Dev nD) (t : Fin cfg1.N) (h : t.val % 16 = 7) (pM : Vec F S1024x1024 .f32) (pJ : Vec F S1024x1 .f32) (y : S1024x1024.Idx) :
    ∃ pc ∈ (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).1, y ∈ pc.1.set :=
  View.cover_of_tiledL (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).1 S1024x1024.size (by sl_kernel_rfl) y
theorem coverRowC (c : Dev nD) (t : Fin cfg1.N) (h : t.val % 16 = 7) (pM : Vec F S1024x1024 .f32) (pJ : Vec F S1024x1 .f32) (y : S1024x1.Idx) :
    ∃ pc ∈ (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).2.1, y ∈ pc.1.set :=
  View.cover_of_tiledL (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).2.1 S1024x1.size (by sl_kernel_rfl) y
def stepD (c : Dev nD) (t : Fin cfg1.N) (h : t.val % 16 = 8) (pJ : Vec F S1024x1 .f32) : Vec F S1024x1 .f32 × Vec F S1024x1024 .f32 × Vec F S1024x1 .f32 :=
  (VOut.read (Elt F) VOut.junk,
   VTile.read (Elt F) (VTile.writes (Elt F) VTile.junk (runD c (grid1.coords t) (msT t) (hsT t) (msP t) (hsP t) (msO t) (hsO t) scTile (Memref.isWhole_whole _) scRow (Memref.isWhole_whole _) (condsD t h).1 (condsD t h).2.1 (condsD t h).2.2.1 (condsD t h).2.2.2 (blk V c 0 t) (blk V c 1 t)).1),
   pJ)
theorem coverTileD (c : Dev nD) (t : Fin cfg1.N) (h : t.val % 16 = 8) (y : S1024x1024.Idx) :
    ∃ pc ∈ (runD c (grid1.coords t) (msT t) (hsT t) (msP t) (hsP t) (msO t) (hsO t) scTile (Memref.isWhole_whole _) scRow (Memref.isWhole_whole _) (condsD t h).1 (condsD t h).2.1 (condsD t h).2.2.1 (condsD t h).2.2.2 (blk V c 0 t) (blk V c 1 t)).1, y ∈ pc.1.set :=
  View.cover_of_tiledL (runD c (grid1.coords t) (msT t) (hsT t) (msP t) (hsP t) (msO t) (hsO t) scTile (Memref.isWhole_whole _) scRow (Memref.isWhole_whole _) (condsD t h).1 (condsD t h).2.1 (condsD t h).2.2.1 (condsD t h).2.2.2 (blk V c 0 t) (blk V c 1 t)).1 S1024x1024.size (by sl_kernel_rfl) y
def stepE (c : Dev nD) (t : Fin cfg1.N) (h : t.val % 16 = 15) (pM : Vec F S1024x1024 .f32) (pJ : Vec F S1024x1 .f32) : Vec F S1024x1 .f32 × Vec F S1024x1024 .f32 × Vec F S1024x1 .f32 :=
  (VOut.read (Elt F) (VOut.writes (Elt F) VOut.junk (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).1),
   VTile.read (Elt F) (VTile.writes (Elt F) VTile.junk (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.1),
   VRow.read (Elt F) (VRow.writes (Elt F) VRow.junk (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.2.1))
theorem coverTileE (c : Dev nD) (t : Fin cfg1.N) (h : t.val % 16 = 15) (pM : Vec F S1024x1024 .f32) (pJ : Vec F S1024x1 .f32) (y : S1024x1024.Idx) :
    ∃ pc ∈ (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.1, y ∈ pc.1.set :=
  View.cover_of_tiledL (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.1 S1024x1024.size (by sl_kernel_rfl) y
theorem coverRowE (c : Dev nD) (t : Fin cfg1.N) (h : t.val % 16 = 15) (pM : Vec F S1024x1024 .f32) (pJ : Vec F S1024x1 .f32) (y : S1024x1.Idx) :
    ∃ pc ∈ (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.2.1, y ∈ pc.1.set :=
  View.cover_of_tiledL (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.2.1 S1024x1.size (by sl_kernel_rfl) y
theorem coverOutE (c : Dev nD) (t : Fin cfg1.N) (h : t.val % 16 = 15) (pM : Vec F S1024x1024 .f32) (pJ : Vec F S1024x1 .f32) (y : S1024x1.Idx) :
    ∃ pc ∈ (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).1, y ∈ pc.1.set :=
  View.cover_of_tiledL (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).1 S1024x1.size (by sl_kernel_rfl) y

/-! ## What the three buffers hold after each point -/

/-- By recursion on the point: the step of the case the position selects, over what the point before left. -/
def outsAt (c : Dev nD) : (n : ℕ) → n < cfg1.N → Vec F S1024x1 .f32 × Vec F S1024x1024 .f32 × Vec F S1024x1 .f32
  | 0, hn => stepA V c ⟨0, hn⟩ (Nat.zero_mod _)
  | n + 1, hn =>
    if hA : (n + 1) % 16 = 0 then stepA V c ⟨n + 1, hn⟩ hA
    else if hD : (n + 1) % 16 = 8 then stepD V c ⟨n + 1, hn⟩ hD (outsAt c n (Nat.lt_of_succ_lt hn)).2.2
    else if hC : (n + 1) % 16 = 7 then stepC V c ⟨n + 1, hn⟩ hC (outsAt c n (Nat.lt_of_succ_lt hn)).2.1 (outsAt c n (Nat.lt_of_succ_lt hn)).2.2
    else if hE : (n + 1) % 16 = 15 then stepE V c ⟨n + 1, hn⟩ hE (outsAt c n (Nat.lt_of_succ_lt hn)).2.1 (outsAt c n (Nat.lt_of_succ_lt hn)).2.2
    else stepB V c ⟨n + 1, hn⟩ (by show (n + 1) % 8 ≠ 0; omega) (by show (n + 1) % 8 ≠ 7; omega) (outsAt c n (Nat.lt_of_succ_lt hn)).2.1 (outsAt c n (Nat.lt_of_succ_lt hn)).2.2

theorem outsAt_A (c : Dev nD) (t : Fin cfg1.N) (h : t.val % 16 = 0) : outsAt V c t.val t.isLt = stepA V c t h := by
  obtain ⟨n, hn⟩ := t
  cases n with
  | zero => rfl
  | succ n => exact (dif_pos h).trans rfl
theorem outsAt_B (c : Dev nD) (t : Fin cfg1.N) (h0 : t.val % 8 ≠ 0) (h7 : t.val % 8 ≠ 7) : outsAt V c t.val t.isLt = stepB V c t h0 h7 (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd (Nat.zero_mod 8) h0
  | succ n =>
    have hN : n + 1 < 32 := lt_of_lt_of_eq hn (show cfg1.N = 32 from N_1)
    have h0' : (n + 1) % 8 ≠ 0 := h0
    have h7' : (n + 1) % 8 ≠ 7 := h7
    exact (dif_neg (by omega : ¬ (n + 1) % 16 = 0)).trans ((dif_neg (by omega : ¬ (n + 1) % 16 = 8)).trans ((dif_neg (by omega : ¬ (n + 1) % 16 = 7)).trans ((dif_neg (by omega : ¬ (n + 1) % 16 = 15)).trans rfl)))
theorem outsAt_C (c : Dev nD) (t : Fin cfg1.N) (h : t.val % 16 = 7) : outsAt V c t.val t.isLt = stepC V c t h (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd h (by show ¬ (0 % 16 = 7); decide)
  | succ n =>
    have hN : n + 1 < 32 := lt_of_lt_of_eq hn (show cfg1.N = 32 from N_1)
    have h' : (n + 1) % 16 = 7 := h
    exact (dif_neg (by omega : ¬ (n + 1) % 16 = 0)).trans ((dif_neg (by omega : ¬ (n + 1) % 16 = 8)).trans ((dif_pos h').trans rfl))
theorem outsAt_D (c : Dev nD) (t : Fin cfg1.N) (h : t.val % 16 = 8) : outsAt V c t.val t.isLt = stepD V c t h (outsAt V c (t.val - 1) (Nat.lt_of_le_of_lt (Nat.sub_le _ _) t.isLt)).2.2 := by
  obtain ⟨n, hn⟩ := t
  cases n with
  | zero => exact absurd h (by show ¬ (0 % 16 = 8); decide)
  | succ n =>
    have hN : n + 1 < 32 := lt_of_lt_of_eq hn (show cfg1.N = 32 from N_1)
    have h' : (n + 1) % 16 = 8 := h
    exact (dif_neg (by omega : ¬ (n + 1) % 16 = 0)).trans ((dif_pos h').trans rfl)
theorem outsAt_E (c : Dev nD) (t : Fin cfg1.N) (h : t.val % 16 = 15) : outsAt V c t.val t.isLt = stepE V c t h (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd h (by show ¬ (0 % 16 = 15); decide)
  | succ n =>
    have hN : n + 1 < 32 := lt_of_lt_of_eq hn (show cfg1.N = 32 from N_1)
    have h' : (n + 1) % 16 = 15 := h
    exact (dif_neg (by omega : ¬ (n + 1) % 16 = 0)).trans ((dif_neg (by omega : ¬ (n + 1) % 16 = 8)).trans ((dif_neg (by omega : ¬ (n + 1) % 16 = 7)).trans ((dif_pos h').trans rfl)))

/-! ## The region invariant: the other scoped buffers, the two accumulators, the generator register -/

/-- Before position `n`: at the first point both accumulators at anything; afterwards at what the point before left. -/
def PhiS (c : Dev nD) : (n : ℕ) → n ≤ cfg1.N → sProp 𝕄
  | 0, _ => iprop(iprop(otherScoped c ∗ (∃ d, owns (c : Thread nD τ) scTile fullShare d) ∗ (∃ d, owns (c : Thread nD τ) scRow fullShare d)) ∗ (∃ r, prngReg c r))
  | n + 1, hn => iprop(iprop(otherScoped c ∗ owns (c : Thread nD τ) scTile fullShare ((outsAt V c n hn).2.1) ∗ owns (c : Thread nD τ) scRow fullShare ((outsAt V c n hn).2.2)) ∗ (∃ r, prngReg c r))

theorem PhiS_zero (c : Dev nD) (n : ℕ) (h : n ≤ cfg1.N) (hz : n = 0) :
    PhiS V c n h = iprop(iprop(otherScoped c ∗ (∃ d, owns (c : Thread nD τ) scTile fullShare d) ∗ (∃ d, owns (c : Thread nD τ) scRow fullShare d)) ∗ (∃ r, prngReg c r)) := by
  subst hz; rfl
theorem PhiS_succ (c : Dev nD) (n : ℕ) (hn : n < cfg1.N) :
    PhiS V c (n + 1) hn = iprop(iprop(otherScoped c ∗ owns (c : Thread nD τ) scTile fullShare ((outsAt V c n hn).2.1) ∗ owns (c : Thread nD τ) scRow fullShare ((outsAt V c n hn).2.2)) ∗ (∃ r, prngReg c r)) := rfl
theorem PhiS_pos (c : Dev nD) (n : ℕ) (h : n ≤ cfg1.N) (hz : n ≠ 0) :
    PhiS V c n h = iprop(iprop(otherScoped c ∗ owns (c : Thread nD τ) scTile fullShare ((outsAt V c (n - 1) (by omega)).2.1) ∗ owns (c : Thread nD τ) scRow fullShare ((outsAt V c (n - 1) (by omega)).2.2)) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = (outsAt V c t.val t.isLt).1 := by dsimp only [dat]
theorem before_0 (c : Dev nD) (t : Fin cfg1.N) (d) : (dat V c).before 0 t d = blk V c 0 t :=
  before_in0_of V (dat V c) (A_eq V c 0) (after_0 V c) t d
theorem before_1 (c : Dev nD) (t : Fin cfg1.N) (d) : (dat V c).before 1 t d = blk V c 1 t :=
  before_in1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (msT t) fullShare ((dat V c).before 0 t d))
    ∗ (∃ d, owns (c : Thread nD τ) (msP t) fullShare ((dat V c).before 1 t d))
    ∗ (∃ d, owns (c : Thread nD τ) (msO t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases hA : t.val % 16 = 0
  · have h := hA
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsA t h).2.2.2) (noFlushOut t (condsA t h).2.2.2)]
    rw [outsAt_A V c t h]
    unfold stepA; (try dsimp only)
    by_cases hz : t.val = 0
    · rw [PhiS_castSucc V c t, PhiS_zero V c _ _ hz]
      iintro ⟨⟨⟨Hoth, HS0, HS1⟩, Hg⟩, Ho, ⟨%d0, H0⟩, ⟨%d1, H1⟩, ⟨%d2, H2⟩⟩
      iapply ((runA c (grid1.coords t) _ _ _ _ _ _ _ _ _ _ (condsA t h).1 (condsA t h).2.1 (condsA t h).2.2.1 (condsA t h).2.2.2 (blk V c 0 t) (blk V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hoth HS0 HS1 Hg]
      · isplitl [Hoth HS0 HS1]
        · isplitl [Hoth]; · iexact Hoth
          isplitl [HS0]
          · icases HS0 with ⟨%es0, HS0⟩
            unfold owns; iexists _; isplitr
            swap; · iexact HS0
            ipureintro; exact View.read_writes_of_cover _ _ _ _ _ (coverTileA V c t h)
          icases HS1 with ⟨%es1, HS1⟩
          unfold owns; iexists _; isplitr
          swap; · iexact HS1
          ipureintro; exact View.read_writes_of_cover _ _ _ _ _ (coverRowA V c t h)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Hoth, HS0, HS1⟩, Hg⟩, Ho, ⟨%d0, H0⟩, ⟨%d1, H1⟩, ⟨%d2, H2⟩⟩
      iapply ((runA c (grid1.coords t) _ _ _ _ _ _ _ _ _ _ (condsA t h).1 (condsA t h).2.1 (condsA t h).2.2.1 (condsA t h).2.2.2 (blk V c 0 t) (blk V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [Hoth HS0 HS1 Hg]
      · isplitl [Hoth HS0 HS1]
        · isplitl [Hoth]; · iexact Hoth
          isplitl [HS0]
          · icases HS0 with ⟨%es0, HS0⟩
            unfold owns; iexists _; isplitr
            swap; · iexact HS0
            ipureintro; exact View.read_writes_of_cover _ _ _ _ _ (coverTileA V c t h)
          icases HS1 with ⟨%es1, HS1⟩
          unfold owns; iexists _; isplitr
          swap; · iexact HS1
          ipureintro; exact View.read_writes_of_cover _ _ _ _ _ (coverRowA V c t h)
        iexact Hg
      isplitl [Ho]; · iexact Ho
      isplitl [H0]; · iexact H0
      isplitl [H1]; · iexact H1
      iexists _; iexact H2
  by_cases hD : t.val % 16 = 8
  · have h := hD
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsD t h).2.2.2) (noFlushOut t (condsD t h).2.2.2)]
    rw [outsAt_D V c t h]
    unfold stepD; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runD c (grid1.coords t) _ _ _ _ _ _ _ _ _ _ (condsD t h).1 (condsD t h).2.1 (condsD t h).2.2.1 (condsD t h).2.2.2 (blk V c 0 t) (blk V c 1 t)).2 _ _ Set.univ _)
    isplitl [H0]; · iexact H0
    isplitl [H1]; · iexact H1
    isplitl [H2]; · iexact H2
    isplitl [HS0]; · iexists _; iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileD V c t h)
        iexact HS1
      iexact Hg
    isplitl [Ho]; · iexact Ho
    isplitl [H0]; · iexact H0
    isplitl [H1]; · iexact H1
    iexists _; iexact H2
  by_cases hC : t.val % 16 = 7
  · have h := hC
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsC t h).2.2.2) (noFlushOut t (condsC t h).2.2.2)]
    rw [outsAt_C V c t h]
    unfold stepC; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runC c (grid1.coords t) _ _ _ _ _ _ _ _ _ _ (condsC t h).1 (condsC t h).2.1 (condsC t h).2.2.1 (condsC t h).2.2.2 (blk V c 0 t) (blk V c 1 t) _ _).2.2 _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileC V c t h _ _)
        icases HS1 with ⟨%es1, HS1⟩
        unfold owns; iexists _; isplitr
        swap; · iexact HS1
        ipureintro; exact View.read_writes_of_cover _ _ _ _ _ (coverRowC V c t h _ _)
      iexact Hg
    isplitl [Ho]; · iexact Ho
    isplitl [H0]; · iexact H0
    isplitl [H1]; · iexact H1
    iexists _; iexact H2
  by_cases hE : t.val % 16 = 15
  · have h := hE
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [show (dat V c).leavesExact 2 t = owns (c : Thread nD τ) (msO t) fullShare ((dat V c).after 2 t) from by
      unfold Dat.leavesExact; rw [liveOut t (condsE t h).2.2.2], after_2]
    rw [outsAt_E V c t h]
    unfold stepE; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runE c (grid1.coords t) _ _ _ _ _ _ _ _ _ _ (condsE t h).1 (condsE t h).2.1 (condsE t h).2.2.1 (condsE t h).2.2.2 (blk V c 0 t) (blk V c 1 t) _ _).2.2.2  Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileE V c t h _ _)
        icases HS1 with ⟨%es1, HS1⟩
        unfold owns; iexists _; isplitr
        swap; · iexact HS1
        ipureintro; exact View.read_writes_of_cover _ _ _ _ _ (coverRowE V c t h _ _)
      iexact Hg
    isplitl [Ho]; · iexact Ho
    isplitl [H0]; · iexact H0
    isplitl [H1]; · iexact H1
    icases H2 with ⟨%e2, H2⟩
    unfold owns; iexists _; isplitr
    swap; · iexact H2
    ipureintro; exact View.read_writes_of_cover _ _ _ _ _ (coverOutE V c t h _ _)
  · have h0 : t.val % 8 ≠ 0 := by omega
    have h7 : t.val % 8 ≠ 7 := by omega
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsB t h0 h7).2.2.2) (noFlushOut t (condsB t h0 h7).2.2.2)]
    rw [outsAt_B V c t h0 h7]
    unfold stepB; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runB c (grid1.coords t) _ _ _ _ _ _ _ _ _ _ (condsB t h0 h7).1 (condsB t h0 h7).2.1 (condsB t h0 h7).2.2.1 (condsB t h0 h7).2.2.2 (blk V c 0 t) (blk V c 1 t) _).2 _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileB V c t h0 h7 _)
        iexact HS1
      iexact Hg
    isplitl [Ho]; · iexact Ho
    isplitl [H0]; · iexact H0
    isplitl [H1]; · iexact H1
    iexists _; iexact H2

theorem body_obligation (c : Dev nD) : BodyObligation (dat (F := F) V c) (defs₀ (F := F)) Variants.none () Set.univ := fun t => by
  rw [bigSep_W1, bigSep_W1]
  exact sound_body V c t

/-! ## Entering and leaving the invariant -/

/-- The scoped buffers no window of this region stages are the first region's staging buffers and the two accumulators. -/
theorem scopedRest_split (c : Dev nD) :
    (Pipeline.scopedRest spec1 c : sProp 𝕄) ⊢ iprop(otherScoped c ∗ (∃ d, owns (c : Thread nD τ) scTile fullShare d) ∗ (∃ d, owns (c : Thread nD τ) scRow fullShare d)) := by
  rw [scopedRest1_eq]; unfold otherScoped; simp only [scTile, scRow, owns_whole]
  iintro ⟨H1, H2, H3, H4, H5, H6, H7, H8, H9, H10, H11, H12, H13, H14, H15, H16⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexact H15
  iexact H16

theorem scopedRest_join (c : Dev nD) :
    iprop(otherScoped c ∗ (∃ d, owns (c : Thread nD τ) scTile fullShare d) ∗ (∃ d, owns (c : Thread nD τ) scRow fullShare d)) ⊢ (Pipeline.scopedRest spec1 c : sProp 𝕄) := by
  rw [scopedRest1_eq]; unfold otherScoped; simp only [scTile, scRow, owns_whole]
  iintro ⟨⟨H1, H2, H3, H4, H5, H6, H7, H8, H9, H10, H11, H12, H13, H14⟩, H15, H16⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- What the launch hands the region (the scoped rest and the generator register) is the invariant before the first point. -/
theorem hin (c : Dev nD) : iprop((Pipeline.scopedRest spec1 c : sProp 𝕄) ∗ (∃ r, prngReg c r)) ⊢ (dat V c).Φ 0 := by
  rw [show (dat V c).Φ 0 = PhiS V c 0 (Nat.zero_le _) from rfl, PhiS_zero V c 0 _ rfl]
  iintro ⟨Hr, Hg⟩
  isplitl [Hr]
  · iapply (scopedRest_split c); iexact Hr
  iexact Hg

/-- After the last point the invariant gives them back, the accumulators' contents forgotten. -/
theorem hout (c : Dev nD) : (dat V c).Φ (Fin.last cfg1.N) ⊢ iprop((Pipeline.scopedRest spec1 c : sProp 𝕄) ∗ (∃ r, prngReg c r)) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨⟨Hoth, HS0, HS1⟩, Hg⟩
  isplitl [Hoth HS0 HS1]
  · iapply (scopedRest_join c)
    isplitl [Hoth]; · iexact Hoth
    isplitl [HS0]; · iexists _; iexact HS0
    iexists _; iexact HS1
  iexact Hg

end Cert.KernelIdeal.Ttp

end
-- ==== Proof.Run.lean ====
import proofs.«180214_j58918361366660_2_alg».proof.Proof.FocalRegion
import proofs.«180214_j58918361366660_2_alg».proof.Proof.TtpRegion
import proofs.«180214_j58918361366660_2_alg».proof.Proof.Gen.KernelIdeal.Launch
import proofs.«180214_j58918361366660_2_alg».proof.Proof.Gen.KernelIdeal.Skeleton
import proofs.«180214_j58918361366660_2_alg».proof.Proof.Gen.KernelIdeal.Points
import proofs.«180214_j58918361366660_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
# @main from the launch to the return

@main is four segments: the focal pass (first pallas_call), a stretch of sixteen host operations, the
transposed-product pass (second pallas_call), and a stretch of seven host operations that writes the result.
This file folds the TensorCore's buffer contents through the four segments, from the launch memory to the
return, shows that every weakly fair execution terminates without fault with every unscoped buffer holding the
folded contents, and reads the two arguments back through the fold: nothing writes them.
-/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch: what the focal pass is entered from. -/
abbrev atLaunch : Dev nD → Valuation τ sig (Elt F) := fun c b => (s₀ m ρ).mem ((c : Dev nD), b)
/-- The same read at the TensorCore's references (what the focal pass's proof data take). -/
abbrev focalEntry : (c : Dev nD) → (b : Ref sig .tc) → Buf (Elt F) ((c : Thread nD τ).loc b) := fun c b => atLaunch m ρ c b
/-- After the focal pass: its arrays at what the pipeline leaves (the inputs as entered, each output's write-backs
    folded), every other buffer as entered. -/
def afterFocal (c : Dev nD) : Valuation τ sig (Elt F) :=
  Pipeline.withArrays spec0 c (atLaunch m ρ c) fun w => (Focal.dat (focalEntry m ρ) c).arrAt w cfg0.N
theorem afterFocal_arr (c : Dev nD) (w : Fin cfg0.W) :
    afterFocal m ρ c (Proc.devRef .tc (Pipeline.arrRef spec0 w)) = (Focal.dat (focalEntry m ρ) c).arrAt w cfg0.N := by
  unfold afterFocal; exact Pipeline.withArrays_arr spec0 launch0.win.arr_inj c _ _ w
theorem afterFocal_of_ne (c : Dev nD) (b : Ref sig .tc) (hb : ∀ w, Pipeline.arrRef spec0 w ≠ b) :
    afterFocal m ρ c (Proc.devRef .tc b) = atLaunch m ρ c (Proc.devRef .tc b) := by
  unfold afterFocal; exact Pipeline.withArrays_of_ne spec0 c _ _ b hb
/-- The same read at the TensorCore's references (the focal pass's exit contents). -/
abbrev focalExit : (c : Dev nD) → (b : Ref sig .tc) → Buf (Elt F) ((c : Thread nD τ).loc b) := fun c b => afterFocal m ρ c b
/-- At the focal pass's exit each of its arrays holds what the pipeline leaves and every other buffer what it held
    at entry. -/
theorem focal_arrays (c : Dev nD) (w : Fin cfg0.W) :
    (Focal.dat (focalEntry m ρ) c).arrAt w cfg0.N = focalExit m ρ c (Pipeline.arrRef spec0 w) :=
  (afterFocal_arr m ρ c w).symm
theorem focal_rest (c : Dev nD) : ∀ b, b ∉ Finset.univ.image (Pipeline.arrRef spec0) → focalExit m ρ c b = focalEntry m ρ c b :=
  fun b hb => afterFocal_of_ne m ρ c b fun w e => hb (Finset.mem_image.mpr ⟨w, Finset.mem_univ _, e⟩)

/-- After the first host stretch: what the transposed-product pass is entered from. -/
abbrev atTtpEntry : Dev nD → Valuation τ sig (Elt F) := fun c => StableHlo.after hostOps1 (afterFocal m ρ c)
/-- The same read at the TensorCore's references (what the second pass's proof data take). -/
abbrev ttpEntry : (c : Dev nD) → (b : Ref sig .tc) → Buf (Elt F) ((c : Thread nD τ).loc b) := fun c b => atTtpEntry m ρ c b
/-- After the transposed-product pass: its arrays at what the pipeline leaves, every other buffer as entered. -/
def afterTtp (c : Dev nD) : Valuation τ sig (Elt F) :=
  Pipeline.withArrays spec1 c (atTtpEntry m ρ c) fun w => (Ttp.dat (ttpEntry m ρ) c).arrAt w cfg1.N
theorem afterTtp_arr (c : Dev nD) (w : Fin cfg1.W) :
    afterTtp m ρ c (Proc.devRef .tc (Pipeline.arrRef spec1 w)) = (Ttp.dat (ttpEntry m ρ) c).arrAt w cfg1.N := by
  unfold afterTtp; exact Pipeline.withArrays_arr spec1 launch1.win.arr_inj c _ _ w
theorem afterTtp_of_ne (c : Dev nD) (b : Ref sig .tc) (hb : ∀ w, Pipeline.arrRef spec1 w ≠ b) :
    afterTtp m ρ c (Proc.devRef .tc b) = atTtpEntry m ρ c (Proc.devRef .tc b) := by
  unfold afterTtp; exact Pipeline.withArrays_of_ne spec1 c _ _ b hb
/-- The same read at the TensorCore's references (the second pass's exit contents). -/
abbrev ttpExit : (c : Dev nD) → (b : Ref sig .tc) → Buf (Elt F) ((c : Thread nD τ).loc b) := fun c b => afterTtp m ρ c b
theorem ttp_arrays (c : Dev nD) (w : Fin cfg1.W) :
    (Ttp.dat (ttpEntry m ρ) c).arrAt w cfg1.N = ttpExit m ρ c (Pipeline.arrRef spec1 w) :=
  (afterTtp_arr m ρ c w).symm
theorem ttp_rest (c : Dev nD) : ∀ b, b ∉ Finset.univ.image (Pipeline.arrRef spec1) → ttpExit m ρ c b = ttpEntry m ρ c b :=
  fun b hb => afterTtp_of_ne m ρ c b fun w e => hb (Finset.mem_image.mpr ⟨w, Finset.mem_univ _, e⟩)

/-- After the second host stretch: the contents at the return (the result is its reading at `main_v16`). -/
abbrev atReturn : Dev nD → Valuation τ sig (Elt F) := fun c => StableHlo.after hostOps2 (afterTtp m ρ c)

/-! ### The arguments end as launched: no host operation writes one and each pass reads it through an input window -/

theorem atReturn_main_arg0 (c : Dev nD) : atReturn m ρ c (Proc.devRef .tc main_arg0) = m ((c : Thread nD τ).loc main_arg0) :=
  calc atReturn m ρ c (Proc.devRef .tc main_arg0)
    _ = afterTtp m ρ c (Proc.devRef .tc main_arg0) := StableHlo.after_of_writes_sub hostOps2 _ hostOps2_writes (by decide)
    _ = atTtpEntry m ρ c (Proc.devRef .tc main_arg0) := afterTtp_of_ne m ρ c main_arg0 (by decide)
    _ = afterFocal m ρ c (Proc.devRef .tc main_arg0) := StableHlo.after_of_writes_sub hostOps1 _ hostOps1_writes (by decide)
    _ = atLaunch m ρ c (Proc.devRef .tc main_arg0) :=
          (afterFocal_arr m ρ c 0).trans (((Focal.dat (focalEntry m ρ) c).arrAt_in 0 rfl _).trans (Focal.A_eq (focalEntry m ρ) c 0))
    _ = m ((c : Thread nD τ).loc main_arg0) := rfl

theorem atReturn_main_arg1 (c : Dev nD) : atReturn m ρ c (Proc.devRef .tc main_arg1) = m ((c : Thread nD τ).loc main_arg1) :=
  calc atReturn m ρ c (Proc.devRef .tc main_arg1)
    _ = afterTtp m ρ c (Proc.devRef .tc main_arg1) := StableHlo.after_of_writes_sub hostOps2 _ hostOps2_writes (by decide)
    _ = atTtpEntry m ρ c (Proc.devRef .tc main_arg1) := afterTtp_of_ne m ρ c main_arg1 (by decide)
    _ = afterFocal m ρ c (Proc.devRef .tc main_arg1) := StableHlo.after_of_writes_sub hostOps1 _ hostOps1_writes (by decide)
    _ = atLaunch m ρ c (Proc.devRef .tc main_arg1) :=
          (afterFocal_arr m ρ c 1).trans (((Focal.dat (focalEntry m ρ) c).arrAt_in 1 rfl _).trans (Focal.A_eq (focalEntry m ρ) c 1))
    _ = m ((c : Thread nD τ).loc main_arg1) := rfl

/-! ## The proof data family and the thread state -/

/-- Every pipeline's proof data, each at its pass's entry contents. -/
def pdats : (p : Fin 2) → (c : Dev nD) → Dat τ (Elt F) Unit ℕ (UR sig nD τ) ℕ (Pipeline.pin (pcfgs (F := F)) adm p) c
  | ⟨0, _⟩ => fun c => Focal.dat (focalEntry m ρ) c
  | ⟨1, _⟩ => fun c => Ttp.dat (ttpEntry m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the return contents, the generator register
    at some state. -/
abbrev Tₙ (c : Dev nD) : sProp 𝕄 := iprop(StableHlo.held (c : Thread nD τ) (Pipeline.ucRefs τ sig) (atReturn m ρ c) ∗ ∃ r, prngReg c r)

/-! ## The passes as segments -/

set_option backward.isDefEq.respectTransparency.types false in
/-- The focal pass over the thread state: entered from every unscoped buffer at the launch contents, left at
    `afterFocal`.  Its arrays split out of the unscoped buffers and put back at the exit contents; the generator
    register into the invariant and out; nothing owed; no semaphore of the kernel's own. -/
def focalSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Focal.body_obligation (focalEntry m ρ) c).loose
  hwaits := Pipeline.hwaits_of_owed_zero _ _ _ _ L lv 0 fun _ _ => rfl
  pre c := iprop(StableHlo.held (c : Thread nD τ) (Pipeline.ucRefs τ sig) (atLaunch m ρ c) ∗ R c)
  post c := iprop(StableHlo.held (c : Thread nD τ) (Pipeline.ucRefs τ sig) (afterFocal m ρ c) ∗ R c)
  X c := iprop(∃ r, prngReg c r)
  Y c := iprop(∃ r, prngReg c r)
  Z c := Pipeline.unscopedRest (Ix := Unit) (Name := ℕ) (U := UR sig nD τ) (Lvl := ℕ) spec0 c (focalEntry m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (focalEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (focalEntry m ρ c) (focalExit m ρ c) ((pdats m ρ 0 c).arrAt · cfg0.N) (focal_arrays m ρ c) (focal_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The transposed-product pass over the thread state: entered from every unscoped buffer at `atTtpEntry`, left
    at `afterTtp`.  Its invariant carries the kernel's two scratch accumulators: it is made from the scoped rest and
    the generator register at the first point and gives them back at the last. -/
def ttpSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Ttp.body_obligation (ttpEntry m ρ) c).loose
  hwaits := Pipeline.hwaits_of_owed_zero _ _ _ _ L lv 1 fun _ _ => rfl
  pre c := iprop(StableHlo.held (c : Thread nD τ) (Pipeline.ucRefs τ sig) (atTtpEntry m ρ c) ∗ R c)
  post c := iprop(StableHlo.held (c : Thread nD τ) (Pipeline.ucRefs τ sig) (afterTtp m ρ c) ∗ R c)
  X c := iprop(∃ r, prngReg c r)
  Y c := iprop(∃ r, prngReg c r)
  Z c := Pipeline.unscopedRest (Ix := Unit) (Name := ℕ) (U := UR sig nD τ) (Lvl := ℕ) spec1 c (ttpEntry m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (ttpEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Ttp.dat (ttpEntry m ρ) c).Φ 0 from rfl]
    iintro ⟨Hp, -, Hr⟩
    iapply (Ttp.hin (ttpEntry m ρ) c)
    isplitl [Hr]; · iexact Hr
    iexact Hp
  hout c := by
    rw [Pipeline.ownSems0_none, show (pdats m ρ 1 c).Φ (Fin.last _) = (Ttp.dat (ttpEntry m ρ) c).Φ (Fin.last cfg1.N) from rfl]
    iintro HΦ
    ihave H := (Ttp.hout (ttpEntry m ρ) c) $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (ttpEntry m ρ c) (ttpExit m ρ c) ((pdats m ρ 1 c).arrAt · cfg1.N) (ttp_arrays m ρ c) (ttp_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev mainSegs : List (Pipeline.Seg (pcfgs (F := F)) adm (pdats m ρ) () defs₀ 𝒱₀ L lv) :=
  [ .region (focalSeg m ρ),
    .host (hseg hostOps1 hostOps1_sub hostOps1_fresh (afterFocal m ρ)),
    .region (ttpSeg m ρ),
    .host (hseg hostOps2 hostOps2_sub hostOps2_fresh (afterTtp m ρ)) ]
/-- @main is the run of the segments. -/
theorem main_run (c : Dev nD) : main (F := F) c = Pipeline.Seg.run (mainSegs m ρ) := (main_chain c).trans (by chain_rfl)

set_option backward.isDefEq.respectTransparency.types false in
/-- From any memory with zero counters, every weakly fair execution of @main on the TensorCores terminates,
    nothing faulting, and every final state holds every unscoped buffer at the return contents `atReturn`. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = atReturn m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl, fun c => show iprop(StableHlo.held (c : Thread nD τ) (Pipeline.ucRefs τ sig) (atReturn m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atReturn m ρ c b)
    (hfin := fun c s' => by
      iintro ⟨⟨Hh, -⟩, HSI⟩
      unfold StableHlo.held
      imodintro
      iapply (pointsTo_read_all (Pipeline.ucRefs τ sig) (fun b => (((c : Thread nD τ)).1, b)) (atReturn m ρ c) s')
      isplitl [Hh] <;> iassumption)
    (hQ := fun _ h => h)

/-- The frame: every weakly fair execution of @main terminates, nothing faulting, and every final state has both
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_vals m ρ).mono fun r h c =>
    ⟨(h c _ (mem_uc main_arg0 (by decide))).trans (atReturn_main_arg0 m ρ c),
     (h c _ (mem_uc main_arg1 (by decide))).trans (atReturn_main_arg1 m ρ c)⟩

end Cert.KernelIdeal.Run

end
-- ==== Proof.FocalRegionBits.lean ====
import proofs.«180214_j58918361366660_2_alg».proof.Proof.Gen.Kernel.Launch
import proofs.«180214_j58918361366660_2_alg».proof.Proof.Gen.Kernel.Skeleton
import proofs.«180214_j58918361366660_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The focal pass (first pallas_call of @main), at any contents of the TensorCore's buffers

The first region of @main walks eight row blocks of the two f32[4096,2048] arguments (the logits and the
targets).  At each block the kernel body reads the two blocks whole and writes five outputs whole, one store
each: three columns of row sums (the focal-loss terms, the squared probabilities, the squared targets) and two
bf16 roundings (of the probabilities, i.e. the logistic of the logits, and of the targets).  Every output block
is therefore a function of the two input blocks alone (at the word level the two sums of squares are taken over
the roundings widened back to f32, not over the unrounded values).  This file states those five functions, proves that the
body computes them on whole staging buffers, and packages the result as the pipeline's proof data and body
obligation, parametrised by the buffer contents `V` found when the region is entered.
-/

set_option maxRecDepth 16384

noncomputable section

namespace Cert.Kernel.Focal

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's current staging buffer holds its block at every point, fetched there or not, for any proof
    data whose array is `V`'s and whose body leaves the block in place: the window is uncut and never idle, and where
    it is not fetched its block index has not moved. -/
theorem logits_before_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the targets window. -/
theorem targets_before_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

/-- A whole 512×2048 block. -/
abbrev rBlock : Rect S512x2048 := Rect.unit (s := S512x2048) ![0, 0] S512x2048.size inb_S512x2048_S512x2048_0_0
/-- A whole 512×1 column. -/
abbrev rCol : Rect S512x1 := Rect.unit (s := S512x1) ![0, 0] S512x1.size inb_S512x1_S512x1_0_0

/-! ## What the body leaves in each output window's buffer, from the two input blocks -/

/-- The focal row sums: per row, the sum over the columns of 0.25·(1 − σ(x))²·(max(x,0) − x·y + log1p(exp(−|x|))),
    `x` the logits block and `y` the targets block. -/
def focalSums (x : Vec F S512x2048 .f32) (y : Vec F S512x2048 .f32) : Vec F S512x1 .f32 :=
  View.canon [⟨rCol, k0_pay2 (View.ld x rBlock) (View.ld y rBlock)⟩]

/-- The squared-probability row sums: per row, the sum over the columns of p², `p` the probability σ(x) rounded to
    bf16 and widened back to f32. -/
def probSqSums (x : Vec F S512x2048 .f32) : Vec F S512x1 .f32 :=
  View.canon [⟨rCol, k0_pay5 (View.ld x rBlock)⟩]

/-- The squared-target row sums: per row, the sum over the columns of q², `q` the target y rounded to bf16 and
    widened back to f32. -/
def targetSqSums (y : Vec F S512x2048 .f32) : Vec F S512x1 .f32 :=
  View.canon [⟨rCol, k0_pay6 (View.ld y rBlock)⟩]

/-- The probabilities σ(x) rounded to bf16. -/
def roundedProbs (x : Vec F S512x2048 .f32) : Vec F S512x2048 .bf16 :=
  View.canon [⟨rBlock, k0_pay3 (View.ld x rBlock)⟩]

/-- The targets rounded to bf16. -/
def roundedTargets (y : Vec F S512x2048 .f32) : Vec F S512x2048 .bf16 :=
  View.canon [⟨rBlock, k0_pay4 (View.ld y rBlock)⟩]

/-- One whole-column store covers the column buffer: by the sizes alone. -/
theorem cover_col (p : Vec F S512x1 .f32) (y : S512x1.Idx) :
    ∃ pc ∈ ([⟨rCol, p⟩] : List (View.Piece (Elt F) S512x1 .f32)), y ∈ pc.1.set :=
  View.cover_of_tiled [⟨rCol, p⟩] S512x1.size (by rfl) y

/-- One whole-block store covers the block buffer: by the sizes alone. -/
theorem cover_block (p : Vec F S512x2048 .bf16) (y : S512x2048.Idx) :
    ∃ pc ∈ ([⟨rBlock, p⟩] : List (View.Piece (Elt F) S512x2048 .bf16)), y ∈ pc.1.set :=
  View.cover_of_tiled [⟨rBlock, p⟩] S512x2048.size (by rfl) y

/-! ## The body's triple -/

set_option maxHeartbeats 4000000 in
/-- The kernel body on whole staging memrefs, the two inputs' at read contents `x`, `y` and the five outputs' at
    anything, runs to the continuation holding the inputs' as they were and each output's at its function of the
    inputs'.  The printed function and its printed part are their skeletons of memory operations over payloads;
    each output buffer is loaded once (the value unused) and then stored whole, once. -/
theorem sound_kernel (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S512x1 .f32) (harg3 : arg3.IsWhole) (arg4 : Memref sig .tc .vmem S512x1 .f32) (harg4 : arg4.IsWhole)
    (arg5 : Memref sig .tc .vmem S512x1 .f32) (harg5 : arg5.IsWhole)
    (arg6 : Memref sig .tc .vmem S512x2048 .bf16) (harg6 : arg6.IsWhole) (arg7 : Memref sig .tc .vmem S512x2048 .bf16) (harg7 : arg7.IsWhole)
    (x : Vec F S512x2048 .f32) (y : Vec F S512x2048 .f32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d)
        ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare y
            ∗ owns (c : Thread nD τ) arg3 fullShare (focalSums x y) ∗ owns (c : Thread nD τ) arg4 fullShare (probSqSums x)
            ∗ owns (c : Thread nD τ) arg5 fullShare (targetSqSums y)
            ∗ owns (c : Thread nD τ) arg6 fullShare (roundedProbs x) ∗ owns (c : Thread nD τ) arg7 fullShare (roundedTargets y)) -∗ K ⟨⟩))
      ⊢ wp frame (wpE (defs₀ (F := F)) Variants.none c none) E
          (cc0__focal_kernel i arg1 harg1 arg2 harg2 arg3 harg3 arg4 harg4 arg5 harg5 arg6 harg6 arg7 harg7) K := by
  simp only [cc0__focal_kernel_eq_skeleton]; unfold cc0__focal_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_col _)
  isplitl [H4]
  · iexists _; isplitr
    swap; · iexact H4
    ipureintro
    exact View.read_writes_eq_canon _ _ _ (cover_col _)
  isplitl [H5]
  · iexists _; isplitr
    swap; · iexact H5
    ipureintro
    exact View.read_writes_eq_canon _ _ _ (cover_col _)
  isplitl [H6]
  · iexists _; isplitr
    swap; · iexact H6
    ipureintro
    exact View.read_writes_eq_canon _ _ _ (cover_block _)
  iexists _; isplitr
  swap; · iexact H7
  ipureintro
  exact View.read_writes_eq_canon _ _ _ (cover_block _)

/-! ## The pipeline's proof data -/

/-- The proof data of the focal pass on core `c`: the arrays as the region finds them (`V`); after the body at
    point `t` each input's buffer at its block and each output's at its function of the two input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => focalSums (blk V c 0 t) (blk V c 1 t)
    | ⟨3, _⟩ => probSqSums (blk V c 0 t)
    | ⟨4, _⟩ => targetSqSums (blk V c 1 t)
    | ⟨5, _⟩ => roundedProbs (blk V c 0 t)
    | ⟨6, _⟩ => roundedTargets (blk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = focalSums (blk V c 0 t) (blk V c 1 t) := by dsimp only [dat]
theorem after_3 (c : Dev nD) (t : Fin cfg0.N) : (dat V c).after 3 t = probSqSums (blk V c 0 t) := by dsimp only [dat]
theorem after_4 (c : Dev nD) (t : Fin cfg0.N) : (dat V c).after 4 t = targetSqSums (blk V c 1 t) := by dsimp only [dat]
theorem after_5 (c : Dev nD) (t : Fin cfg0.N) : (dat V c).after 5 t = roundedProbs (blk V c 0 t) := by dsimp only [dat]
theorem after_6 (c : Dev nD) (t : Fin cfg0.N) : (dat V c).after 6 t = roundedTargets (blk V c 1 t) := by dsimp only [dat]

/-- Each input's current staging buffer holds its block at every point, fetched there or not. -/
theorem before_0 (c : Dev nD) (t : Fin cfg0.N) (d) : (dat V c).before 0 t d = blk V c 0 t :=
  logits_before_of V (dat V c) (A_eq V c 0) (after_0 V c) t d
theorem before_1 (c : Dev nD) (t : Fin cfg0.N) (d) : (dat V c).before 1 t d = blk V c 1 t :=
  targets_before_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so `sound_kernel` applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Focal

end
-- ==== Proof.TtpSharedBits.lean ====
import proofs.«180214_j58918361366660_2_alg».proof.Proof.Gen.Kernel.Launch
import proofs.«180214_j58918361366660_2_alg».proof.Proof.Gen.Kernel.Skeleton
import proofs.«180214_j58918361366660_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The second kernel region (the tiled contraction `Tᵀ P` with its running row sums of squares): what its runs
    share. The grid is (i, j, k) ∈ 2 × 2 × 8, point `t = 16 i + 8 j + k`. The body resets the row accumulator when
    `j = 0 ∧ k = 0`, resets the tile accumulator when `k = 0`, adds one 512-row slab's product into the tile
    accumulator at every point, folds the finished tile's row sums of squares into the row accumulator when `k = 7`,
    and copies the row accumulator out when `k = 7 ∧ j = 1`. -/

set_option maxRecDepth 16384

noncomputable section

namespace Cert.Kernel.Ttp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, from the grid coordinates, and where they hold -/

/-- `j = 0 ∧ k = 0`: the row accumulator is reset. -/
abbrev condRowReset (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcondRowReset : ∀ t : Fin cfg1.N, condRowReset (grid1.coords t) ↔ t.val % 16 = 0 :=
  (by decide +kernel : ∀ t : Fin grid1.N, condRowReset (grid1.coords t) ↔ t.val % 16 = 0)

/-- `k = 0`: the tile accumulator is reset. -/
abbrev condTileReset (i : grid1.Coords) : Prop :=
  (Scalar.cmpi .ne (Scalar.extui (Scalar.cmpi .eq (BitVec.ofNat 32 (i 2).val) 0#32)) 0#32) = 1#1
theorem hcondTileReset : ∀ t : Fin cfg1.N, condTileReset (grid1.coords t) ↔ t.val % 8 = 0 :=
  (by decide +kernel : ∀ t : Fin grid1.N, condTileReset (grid1.coords t) ↔ t.val % 8 = 0)

/-- `k = 7`: the tile is finished and folded into the row accumulator. -/
abbrev condTileDone (i : grid1.Coords) : Prop :=
  (Scalar.cmpi .ne (Scalar.extui (Scalar.cmpi .eq (BitVec.ofNat 32 (i 2).val) 7#32)) 0#32) = 1#1
theorem hcondTileDone : ∀ t : Fin cfg1.N, condTileDone (grid1.coords t) ↔ t.val % 8 = 7 :=
  (by decide +kernel : ∀ t : Fin grid1.N, condTileDone (grid1.coords t) ↔ t.val % 8 = 7)

/-- `k = 7 ∧ j = 1`: the row accumulator is copied to the output block. -/
abbrev condRowOut (i : grid1.Coords) : Prop := k1_cond4 i = 1#1
theorem hcondRowOut : ∀ t : Fin cfg1.N, condRowOut (grid1.coords t) ↔ t.val % 16 = 15 :=
  (by decide +kernel : ∀ t : Fin grid1.N, condRowOut (grid1.coords t) ↔ t.val % 16 = 15)

/-! ## Where the output window is idle -/

theorem liveIn0 : ∀ t : Fin cfg1.N, cfg1.idle 0 (grid1.coords t) = false := by decide +kernel
theorem liveIn1 : ∀ t : Fin cfg1.N, cfg1.idle 1 (grid1.coords t) = false := by decide +kernel
theorem idleOut : ∀ t : Fin cfg1.N, ¬condRowOut (grid1.coords t) → cfg1.idle 2 (grid1.coords t) = true := by decide +kernel
theorem noFlushOut : ∀ t : Fin cfg1.N, ¬condRowOut (grid1.coords t) → (cfg1.win 2).flush t = false := by decide +kernel
theorem liveOut : ∀ t : Fin cfg1.N, condRowOut (grid1.coords t) → cfg1.idle 2 (grid1.coords t) = false := by decide +kernel

/-! ## The memrefs the body is called with -/

abbrev msT (t : Fin cfg1.N) : Memref sig .tc .vmem S512x1024 .bf16 := win1_0.stage (cfg1.slots t 0)
abbrev hsT (t : Fin cfg1.N) : (msT t).IsWhole := hstage1_0 ((cfg1.slots t 0).cast nbuf1_0)
abbrev msP (t : Fin cfg1.N) : Memref sig .tc .vmem S512x1024 .bf16 := win1_1.stage (cfg1.slots t 1)
abbrev hsP (t : Fin cfg1.N) : (msP t).IsWhole := hstage1_1 ((cfg1.slots t 1).cast nbuf1_1)
abbrev msO (t : Fin cfg1.N) : Memref sig .tc .vmem S1024x1 .f32 := win1_2.stage (cfg1.slots t 2)
abbrev hsO (t : Fin cfg1.N) : (msO t).IsWhole := hstage1_2 ((cfg1.slots t 2).cast nbuf1_2)
/-- The tile accumulator (1024 × 1024) and the row accumulator (1024 × 1): whole scoped buffers of the kernel's own. -/
abbrev scTile : Memref sig .tc .vmem S1024x1024 .f32 := Memref.whole cc1_scratch0
abbrev scRow : Memref sig .tc .vmem S1024x1 .f32 := Memref.whole cc1_scratch1
abbrev VTile : View sig .tc .vmem S1024x1024 .f32 := scTile.view
abbrev VRow : View sig .tc .vmem S1024x1 .f32 := scRow.view
abbrev VOut : View sig .tc .vmem S1024x1 .f32 := (Memref.whole cc1_stg2_0 : Memref sig .tc .vmem S1024x1 .f32).view

/-- The region's scoped buffers that are neither a staging buffer of its windows nor its two accumulators: the first
    region's fourteen staging buffers, each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

end Cert.Kernel.Ttp

end
-- ==== Proof.TtpRunABits.lean ====
import proofs.«180214_j58918361366660_2_alg».proof.Proof.TtpSharedBits

/-! The second kernel's body run in one of its five control cases. -/

set_option maxRecDepth 16384

noncomputable section

namespace Cert.Kernel.Ttp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A (condRowReset, condTileReset, not condTileDone, not condRowOut): the pieces its stores leave in each buffer it writes, with the body's triple on whole
    memrefs — the two slabs at their contents, a buffer the case does not touch handed back as it was, a buffer it overwrites
    before reading taken at anything, an accumulator it reads taken at what the point before left. -/
noncomputable def runA (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : condRowReset i) (hc1 : condTileReset i) (hc2 : ¬condTileDone i) (hc3 : ¬condRowOut i)
    (x0 : Vec F S512x1024 .bf16) (x1 : Vec F S512x1024 .bf16) :
    Σ' (LS0 : List (View.Piece (Elt F) S1024x1024 .f32)), { LS1 : List (View.Piece (Elt F) S1024x1 .f32) //
      ∀ (xi2 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ttp_kernel i arg3 harg3 arg4 harg4 arg5 harg5 arg6 harg6 arg7 harg7) K } := by
  refine ⟨?_, ?_, fun xi2 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

end Cert.Kernel.Ttp

end
-- ==== Proof.TtpRunBBits.lean ====
import proofs.«180214_j58918361366660_2_alg».proof.Proof.TtpSharedBits

/-! The second kernel's body run in one of its five control cases. -/

set_option maxRecDepth 16384

noncomputable section

namespace Cert.Kernel.Ttp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B (not condRowReset, not condTileReset, not condTileDone, not condRowOut): the pieces its stores leave in each buffer it writes, with the body's triple on whole
    memrefs — the two slabs at their contents, a buffer the case does not touch handed back as it was, a buffer it overwrites
    before reading taken at anything, an accumulator it reads taken at what the point before left. -/
noncomputable def runB (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : ¬condTileReset i) (hc2 : ¬condTileDone i) (hc3 : ¬condRowOut i)
    (x0 : Vec F S512x1024 .bf16) (x1 : Vec F S512x1024 .bf16) (xs0 : Vec F S1024x1024 .f32) :
    { LS0 : List (View.Piece (Elt F) S1024x1024 .f32) //
      ∀ (xi2 : Vec F S1024x1 .f32) (xs1 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc1__ttp_kernel i arg3 harg3 arg4 harg4 arg5 harg5 arg6 harg6 arg7 harg7) K } := by
  refine ⟨?_, fun xi2 xs1 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; isplitr; · ipureintro; exact harg7.read_unread _
    iexact HS1

end Cert.Kernel.Ttp

end
-- ==== Proof.TtpRunCBits.lean ====
import proofs.«180214_j58918361366660_2_alg».proof.Proof.TtpSharedBits

/-! The second kernel's body run in one of its five control cases. -/

set_option maxRecDepth 16384

noncomputable section

namespace Cert.Kernel.Ttp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C (not condRowReset, not condTileReset, condTileDone, not condRowOut): the pieces its stores leave in each buffer it writes, with the body's triple on whole
    memrefs — the two slabs at their contents, a buffer the case does not touch handed back as it was, a buffer it overwrites
    before reading taken at anything, an accumulator it reads taken at what the point before left. -/
noncomputable def runC (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : ¬condTileReset i) (hc2 : condTileDone i) (hc3 : ¬condRowOut i)
    (x0 : Vec F S512x1024 .bf16) (x1 : Vec F S512x1024 .bf16) (xs0 : Vec F S1024x1024 .f32) (xs1 : Vec F S1024x1 .f32) :
    Σ' (LS0 : List (View.Piece (Elt F) S1024x1024 .f32)), { LS1 : List (View.Piece (Elt F) S1024x1 .f32) //
      ∀ (xi2 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ttp_kernel i arg3 harg3 arg4 harg4 arg5 harg5 arg6 harg6 arg7 harg7) K } := by
  refine ⟨?_, ?_, fun xi2 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

end Cert.Kernel.Ttp

end
-- ==== Proof.TtpRunDBits.lean ====
import proofs.«180214_j58918361366660_2_alg».proof.Proof.TtpSharedBits

/-! The second kernel's body run in one of its five control cases. -/

set_option maxRecDepth 16384

noncomputable section

namespace Cert.Kernel.Ttp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case D (not condRowReset, condTileReset, not condTileDone, not condRowOut): the pieces its stores leave in each buffer it writes, with the body's triple on whole
    memrefs — the two slabs at their contents, a buffer the case does not touch handed back as it was, a buffer it overwrites
    before reading taken at anything, an accumulator it reads taken at what the point before left. -/
noncomputable def runD (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : condTileReset i) (hc2 : ¬condTileDone i) (hc3 : ¬condRowOut i)
    (x0 : Vec F S512x1024 .bf16) (x1 : Vec F S512x1024 .bf16) :
    { LS0 : List (View.Piece (Elt F) S1024x1024 .f32) //
      ∀ (xi2 : Vec F S1024x1 .f32) (xs1 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc1__ttp_kernel i arg3 harg3 arg4 harg4 arg5 harg5 arg6 harg6 arg7 harg7) K } := by
  refine ⟨?_, fun xi2 xs1 E K => ?run⟩
  case run =>
    simp only [cc1__ttp_kernel_eq_skeleton]; unfold cc1__ttp_kernel_skel
    unfold owns
    iintro ⟨⟨%f0, %hf0, H0⟩, ⟨%f1, %hf1, H1⟩, ⟨%f2, %hf2, H2⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; isplitr; · ipureintro; exact harg7.read_unread _
    iexact HS1

end Cert.Kernel.Ttp

end
-- ==== Proof.TtpRunEBits.lean ====
import proofs.«180214_j58918361366660_2_alg».proof.Proof.TtpSharedBits

/-! The second kernel's body run in one of its five control cases. -/

set_option maxRecDepth 16384

noncomputable section

namespace Cert.Kernel.Ttp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case E (not condRowReset, not condTileReset, condTileDone, condRowOut): the pieces its stores leave in each buffer it writes, with the body's triple on whole
    memrefs — the two slabs at their contents, a buffer the case does not touch handed back as it was, a buffer it overwrites
    before reading taken at anything, an accumulator it reads taken at what the point before left. -/
noncomputable def runE (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1 .f32) (harg5 : arg5.IsWhole) (arg6 : Memref sig .tc .vmem S1024x1024 .f32) (harg6 : arg6.IsWhole) (arg7 : Memref sig .tc .vmem S1024x1 .f32) (harg7 : arg7.IsWhole)
    (hc0 : ¬condRowReset i) (hc1 : ¬condTileReset i) (hc2 : condTileDone i) (hc3 : condRowOut i)
    (x0 : Vec F S512x1024 .bf16) (x1 : Vec F S512x1024 .bf16) (xs0 : Vec F S1024x1024 .f32) (xs1 : Vec F S1024x1 .f32) :
    Σ' (L2 : List (View.Piece (Elt F) S1024x1 .f32)), Σ' (LS0 : List (View.Piece (Elt F) S1024x1024 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__ttp_kernel i arg3 harg3 arg4 harg4 arg5 harg5 arg6 harg6 arg7 harg7) K } := by
  refine ⟨?_, ?_, ?_, fun E K => ?run⟩
  case run =>
    simp only [cc1__ttp_kernel_eq_skeleton]; unfold cc1__ttp_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg3.eq_unread hf0; obtain rfl := harg4.eq_unread hf1; obtain rfl := harg6.eq_unread hfs0; obtain rfl := harg7.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [HS0]
    · iexists _; iexact HS0
    iexists _; iexact HS1

end Cert.Kernel.Ttp

end
-- ==== Proof.TtpRegionBits.lean ====
import proofs.«180214_j58918361366660_2_alg».proof.Proof.TtpRunABits
import proofs.«180214_j58918361366660_2_alg».proof.Proof.TtpRunBBits
import proofs.«180214_j58918361366660_2_alg».proof.Proof.TtpRunCBits
import proofs.«180214_j58918361366660_2_alg».proof.Proof.TtpRunDBits
import proofs.«180214_j58918361366660_2_alg».proof.Proof.TtpRunEBits

/-! The second kernel region: what its output block, its tile accumulator and its row accumulator hold after each grid
    point (by recursion on the point, one step function per control case), the pipeline's proof data, and the body
    obligation at every point. -/

set_option maxRecDepth 16384

noncomputable section

namespace Cert.Kernel.Ttp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The control case at a point, from its position modulo 16 -/
theorem condsA (t : Fin cfg1.N) (h : t.val % 16 = 0) : condRowReset (grid1.coords t) ∧ condTileReset (grid1.coords t) ∧ ¬condTileDone (grid1.coords t) ∧ ¬condRowOut (grid1.coords t) :=
  ⟨(hcondRowReset t).mpr (by omega), (hcondTileReset t).mpr (by omega), fun h' => absurd ((hcondTileDone t).mp h') (by omega), fun h' => absurd ((hcondRowOut t).mp h') (by omega)⟩
theorem condsB (t : Fin cfg1.N) (h0 : t.val % 8 ≠ 0) (h7 : t.val % 8 ≠ 7) : ¬condRowReset (grid1.coords t) ∧ ¬condTileReset (grid1.coords t) ∧ ¬condTileDone (grid1.coords t) ∧ ¬condRowOut (grid1.coords t) :=
  ⟨fun h' => absurd ((hcondRowReset t).mp h') (by omega), fun h' => absurd ((hcondTileReset t).mp h') (by omega), fun h' => absurd ((hcondTileDone t).mp h') (by omega), fun h' => absurd ((hcondRowOut t).mp h') (by omega)⟩
theorem condsC (t : Fin cfg1.N) (h : t.val % 16 = 7) : ¬condRowReset (grid1.coords t) ∧ ¬condTileReset (grid1.coords t) ∧ condTileDone (grid1.coords t) ∧ ¬condRowOut (grid1.coords t) :=
  ⟨fun h' => absurd ((hcondRowReset t).mp h') (by omega), fun h' => absurd ((hcondTileReset t).mp h') (by omega), (hcondTileDone t).mpr (by omega), fun h' => absurd ((hcondRowOut t).mp h') (by omega)⟩
theorem condsD (t : Fin cfg1.N) (h : t.val % 16 = 8) : ¬condRowReset (grid1.coords t) ∧ condTileReset (grid1.coords t) ∧ ¬condTileDone (grid1.coords t) ∧ ¬condRowOut (grid1.coords t) :=
  ⟨fun h' => absurd ((hcondRowReset t).mp h') (by omega), (hcondTileReset t).mpr (by omega), fun h' => absurd ((hcondTileDone t).mp h') (by omega), fun h' => absurd ((hcondRowOut t).mp h') (by omega)⟩
theorem condsE (t : Fin cfg1.N) (h : t.val % 16 = 15) : ¬condRowReset (grid1.coords t) ∧ ¬condTileReset (grid1.coords t) ∧ condTileDone (grid1.coords t) ∧ condRowOut (grid1.coords t) :=
  ⟨fun h' => absurd ((hcondRowReset t).mp h') (by omega), fun h' => absurd ((hcondTileReset t).mp h') (by omega), (hcondTileDone t).mpr (by omega), (hcondRowOut t).mpr (by omega)⟩

/-! ## One step per case: (output block, tile accumulator, row accumulator) after the body -/
def stepA (c : Dev nD) (t : Fin cfg1.N) (h : t.val % 16 = 0) : Vec F S1024x1 .f32 × Vec F S1024x1024 .f32 × Vec F S1024x1 .f32 :=
  (VOut.read (Elt F) VOut.junk,
   VTile.read (Elt F) (VTile.writes (Elt F) VTile.junk (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).1),
   VRow.read (Elt F) (VRow.writes (Elt F) VRow.junk (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).2.1))
theorem coverTileA (c : Dev nD) (t : Fin cfg1.N) (h : t.val % 16 = 0) (y : S1024x1024.Idx) :
    ∃ pc ∈ (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).1, y ∈ pc.1.set :=
  View.cover_of_tiledL (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).1 S1024x1024.size (by sl_kernel_rfl) y
theorem coverRowA (c : Dev nD) (t : Fin cfg1.N) (h : t.val % 16 = 0) (y : S1024x1.Idx) :
    ∃ pc ∈ (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).2.1, y ∈ pc.1.set :=
  View.cover_of_tiledL (runA c (grid1.coords t) (msT t) (hsT t) (msP t) (hsP t) (msO t) (hsO t) scTile (Memref.isWhole_whole _) scRow (Memref.isWhole_whole _) (condsA t h).1 (condsA t h).2.1 (condsA t h).2.2.1 (condsA t h).2.2.2 (blk V c 0 t) (blk V c 1 t)).2.1 S1024x1.size (by sl_kernel_rfl) y
def stepB (c : Dev nD) (t : Fin cfg1.N) (h0 : t.val % 8 ≠ 0) (h7 : t.val % 8 ≠ 7) (pM : Vec F S1024x1024 .f32) (pJ : Vec F S1024x1 .f32) : Vec F S1024x1 .f32 × Vec F S1024x1024 .f32 × Vec F S1024x1 .f32 :=
  (VOut.read (Elt F) VOut.junk,
   VTile.read (Elt F) (VTile.writes (Elt F) VTile.junk (runB c (grid1.coords t) (msT t) (hsT t) (msP t) (hsP t) (msO t) (hsO t) scTile (Memref.isWhole_whole _) scRow (Memref.isWhole_whole _) (condsB t h0 h7).1 (condsB t h0 h7).2.1 (condsB t h0 h7).2.2.1 (condsB t h0 h7).2.2.2 (blk V c 0 t) (blk V c 1 t) pM).1),
   pJ)
theorem coverTileB (c : Dev nD) (t : Fin cfg1.N) (h0 : t.val % 8 ≠ 0) (h7 : t.val % 8 ≠ 7) (pM : Vec F S1024x1024 .f32) (y : S1024x1024.Idx) :
    ∃ pc ∈ (runB c (grid1.coords t) (msT t) (hsT t) (msP t) (hsP t) (msO t) (hsO t) scTile (Memref.isWhole_whole _) scRow (Memref.isWhole_whole _) (condsB t h0 h7).1 (condsB t h0 h7).2.1 (condsB t h0 h7).2.2.1 (condsB t h0 h7).2.2.2 (blk V c 0 t) (blk V c 1 t) pM).1, y ∈ pc.1.set :=
  View.cover_of_tiledL (runB c (grid1.coords t) (msT t) (hsT t) (msP t) (hsP t) (msO t) (hsO t) scTile (Memref.isWhole_whole _) scRow (Memref.isWhole_whole _) (condsB t h0 h7).1 (condsB t h0 h7).2.1 (condsB t h0 h7).2.2.1 (condsB t h0 h7).2.2.2 (blk V c 0 t) (blk V c 1 t) pM).1 S1024x1024.size (by sl_kernel_rfl) y
def stepC (c : Dev nD) (t : Fin cfg1.N) (h : t.val % 16 = 7) (pM : Vec F S1024x1024 .f32) (pJ : Vec F S1024x1 .f32) : Vec F S1024x1 .f32 × Vec F S1024x1024 .f32 × Vec F S1024x1 .f32 :=
  (VOut.read (Elt F) VOut.junk,
   VTile.read (Elt F) (VTile.writes (Elt F) VTile.junk (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).1),
   VRow.read (Elt F) (VRow.writes (Elt F) VRow.junk (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).2.1))
theorem coverTileC (c : Dev nD) (t : Fin cfg1.N) (h : t.val % 16 = 7) (pM : Vec F S1024x1024 .f32) (pJ : Vec F S1024x1 .f32) (y : S1024x1024.Idx) :
    ∃ pc ∈ (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).1, y ∈ pc.1.set :=
  View.cover_of_tiledL (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).1 S1024x1024.size (by sl_kernel_rfl) y
theorem coverRowC (c : Dev nD) (t : Fin cfg1.N) (h : t.val % 16 = 7) (pM : Vec F S1024x1024 .f32) (pJ : Vec F S1024x1 .f32) (y : S1024x1.Idx) :
    ∃ pc ∈ (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).2.1, y ∈ pc.1.set :=
  View.cover_of_tiledL (runC c (grid1.coords t) (msT t) (hsT t) (msP t) (hsP t) (msO t) (hsO t) scTile (Memref.isWhole_whole _) scRow (Memref.isWhole_whole _) (condsC t h).1 (condsC t h).2.1 (condsC t h).2.2.1 (condsC t h).2.2.2 (blk V c 0 t) (blk V c 1 t) pM pJ).2.1 S1024x1.size (by sl_kernel_rfl) y
def stepD (c : Dev nD) (t : Fin cfg1.N) (h : t.val % 16 = 8) (pJ : Vec F S1024x1 .f32) : Vec F S1024x1 .f32 × Vec F S1024x1024 .f32 × Vec F S1024x1 .f32 :=
  (VOut.read (Elt F) VOut.junk,
   VTile.read (Elt F) (VTile.writes (Elt F) VTile.junk (runD c (grid1.coords t) (msT t) (hsT t) (msP t) (hsP t) (msO t) (hsO t) scTile (Memref.isWhole_whole _) scRow (Memref.isWhole_whole _) (condsD t h).1 (condsD t h).2.1 (condsD t h).2.2.1 (condsD t h).2.2.2 (blk V c 0 t) (blk V c 1 t)).1),
   pJ)
theorem coverTileD (c : Dev nD) (t : Fin cfg1.N) (h : t.val % 16 = 8) (y : S1024x1024.Idx) :
    ∃ pc ∈ (runD c (grid1.coords t) (msT t) (hsT t) (msP t) (hsP t) (msO t) (hsO t) scTile (Memref.isWhole_whole _) scRow (Memref.isWhole_whole _) (condsD t h).1 (condsD t h).2.1 (condsD t h).2.2.1 (condsD t h).2.2.2 (blk V c 0 t) (blk V c 1 t)).1, y ∈ pc.1.set :=
  View.cover_of_tiledL (runD c (grid1.coords t) (msT t) (hsT t) (msP t) (hsP t) (msO t) (hsO t) scTile (Memref.isWhole_whole _) scRow (Memref.isWhole_whole _) (condsD t h).1 (condsD t h).2.1 (condsD t h).2.2.1 (condsD t h).2.2.2 (blk V c 0 t) (blk V c 1 t)).1 S1024x1024.size (by sl_kernel_rfl) y
def stepE (c : Dev nD) (t : Fin cfg1.N) (h : t.val % 16 = 15) (pM : Vec F S1024x1024 .f32) (pJ : Vec F S1024x1 .f32) : Vec F S1024x1 .f32 × Vec F S1024x1024 .f32 × Vec F S1024x1 .f32 :=
  (VOut.read (Elt F) (VOut.writes (Elt F) VOut.junk (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).1),
   VTile.read (Elt F) (VTile.writes (Elt F) VTile.junk (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.1),
   VRow.read (Elt F) (VRow.writes (Elt F) VRow.junk (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.2.1))
theorem coverTileE (c : Dev nD) (t : Fin cfg1.N) (h : t.val % 16 = 15) (pM : Vec F S1024x1024 .f32) (pJ : Vec F S1024x1 .f32) (y : S1024x1024.Idx) :
    ∃ pc ∈ (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.1, y ∈ pc.1.set :=
  View.cover_of_tiledL (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.1 S1024x1024.size (by sl_kernel_rfl) y
theorem coverRowE (c : Dev nD) (t : Fin cfg1.N) (h : t.val % 16 = 15) (pM : Vec F S1024x1024 .f32) (pJ : Vec F S1024x1 .f32) (y : S1024x1.Idx) :
    ∃ pc ∈ (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.2.1, y ∈ pc.1.set :=
  View.cover_of_tiledL (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).2.2.1 S1024x1.size (by sl_kernel_rfl) y
theorem coverOutE (c : Dev nD) (t : Fin cfg1.N) (h : t.val % 16 = 15) (pM : Vec F S1024x1024 .f32) (pJ : Vec F S1024x1 .f32) (y : S1024x1.Idx) :
    ∃ pc ∈ (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).1, y ∈ pc.1.set :=
  View.cover_of_tiledL (runE c (grid1.coords t) (msT t) (hsT t) (msP t) (hsP t) (msO t) (hsO t) scTile (Memref.isWhole_whole _) scRow (Memref.isWhole_whole _) (condsE t h).1 (condsE t h).2.1 (condsE t h).2.2.1 (condsE t h).2.2.2 (blk V c 0 t) (blk V c 1 t) pM pJ).1 S1024x1.size (by sl_kernel_rfl) y

/-! ## What the three buffers hold after each point -/

/-- By recursion on the point: the step of the case the position selects, over what the point before left. -/
def outsAt (c : Dev nD) : (n : ℕ) → n < cfg1.N → Vec F S1024x1 .f32 × Vec F S1024x1024 .f32 × Vec F S1024x1 .f32
  | 0, hn => stepA V c ⟨0, hn⟩ (Nat.zero_mod _)
  | n + 1, hn =>
    if hA : (n + 1) % 16 = 0 then stepA V c ⟨n + 1, hn⟩ hA
    else if hD : (n + 1) % 16 = 8 then stepD V c ⟨n + 1, hn⟩ hD (outsAt c n (Nat.lt_of_succ_lt hn)).2.2
    else if hC : (n + 1) % 16 = 7 then stepC V c ⟨n + 1, hn⟩ hC (outsAt c n (Nat.lt_of_succ_lt hn)).2.1 (outsAt c n (Nat.lt_of_succ_lt hn)).2.2
    else if hE : (n + 1) % 16 = 15 then stepE V c ⟨n + 1, hn⟩ hE (outsAt c n (Nat.lt_of_succ_lt hn)).2.1 (outsAt c n (Nat.lt_of_succ_lt hn)).2.2
    else stepB V c ⟨n + 1, hn⟩ (by show (n + 1) % 8 ≠ 0; omega) (by show (n + 1) % 8 ≠ 7; omega) (outsAt c n (Nat.lt_of_succ_lt hn)).2.1 (outsAt c n (Nat.lt_of_succ_lt hn)).2.2

theorem outsAt_A (c : Dev nD) (t : Fin cfg1.N) (h : t.val % 16 = 0) : outsAt V c t.val t.isLt = stepA V c t h := by
  obtain ⟨n, hn⟩ := t
  cases n with
  | zero => rfl
  | succ n => exact (dif_pos h).trans rfl
theorem outsAt_B (c : Dev nD) (t : Fin cfg1.N) (h0 : t.val % 8 ≠ 0) (h7 : t.val % 8 ≠ 7) : outsAt V c t.val t.isLt = stepB V c t h0 h7 (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd (Nat.zero_mod 8) h0
  | succ n =>
    have hN : n + 1 < 32 := lt_of_lt_of_eq hn (show cfg1.N = 32 from N_1)
    have h0' : (n + 1) % 8 ≠ 0 := h0
    have h7' : (n + 1) % 8 ≠ 7 := h7
    exact (dif_neg (by omega : ¬ (n + 1) % 16 = 0)).trans ((dif_neg (by omega : ¬ (n + 1) % 16 = 8)).trans ((dif_neg (by omega : ¬ (n + 1) % 16 = 7)).trans ((dif_neg (by omega : ¬ (n + 1) % 16 = 15)).trans rfl)))
theorem outsAt_C (c : Dev nD) (t : Fin cfg1.N) (h : t.val % 16 = 7) : outsAt V c t.val t.isLt = stepC V c t h (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd h (by show ¬ (0 % 16 = 7); decide)
  | succ n =>
    have hN : n + 1 < 32 := lt_of_lt_of_eq hn (show cfg1.N = 32 from N_1)
    have h' : (n + 1) % 16 = 7 := h
    exact (dif_neg (by omega : ¬ (n + 1) % 16 = 0)).trans ((dif_neg (by omega : ¬ (n + 1) % 16 = 8)).trans ((dif_pos h').trans rfl))
theorem outsAt_D (c : Dev nD) (t : Fin cfg1.N) (h : t.val % 16 = 8) : outsAt V c t.val t.isLt = stepD V c t h (outsAt V c (t.val - 1) (Nat.lt_of_le_of_lt (Nat.sub_le _ _) t.isLt)).2.2 := by
  obtain ⟨n, hn⟩ := t
  cases n with
  | zero => exact absurd h (by show ¬ (0 % 16 = 8); decide)
  | succ n =>
    have hN : n + 1 < 32 := lt_of_lt_of_eq hn (show cfg1.N = 32 from N_1)
    have h' : (n + 1) % 16 = 8 := h
    exact (dif_neg (by omega : ¬ (n + 1) % 16 = 0)).trans ((dif_pos h').trans rfl)
theorem outsAt_E (c : Dev nD) (t : Fin cfg1.N) (h : t.val % 16 = 15) : outsAt V c t.val t.isLt = stepE V c t h (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd h (by show ¬ (0 % 16 = 15); decide)
  | succ n =>
    have hN : n + 1 < 32 := lt_of_lt_of_eq hn (show cfg1.N = 32 from N_1)
    have h' : (n + 1) % 16 = 15 := h
    exact (dif_neg (by omega : ¬ (n + 1) % 16 = 0)).trans ((dif_neg (by omega : ¬ (n + 1) % 16 = 8)).trans ((dif_neg (by omega : ¬ (n + 1) % 16 = 7)).trans ((dif_pos h').trans rfl)))

/-! ## The region invariant: the other scoped buffers, the two accumulators, the generator register -/

/-- Before position `n`: at the first point both accumulators at anything; afterwards at what the point before left. -/
def PhiS (c : Dev nD) : (n : ℕ) → n ≤ cfg1.N → sProp 𝕄
  | 0, _ => iprop(iprop(otherScoped c ∗ (∃ d, owns (c : Thread nD τ) scTile fullShare d) ∗ (∃ d, owns (c : Thread nD τ) scRow fullShare d)) ∗ (∃ r, prngReg c r))
  | n + 1, hn => iprop(iprop(otherScoped c ∗ owns (c : Thread nD τ) scTile fullShare ((outsAt V c n hn).2.1) ∗ owns (c : Thread nD τ) scRow fullShare ((outsAt V c n hn).2.2)) ∗ (∃ r, prngReg c r))

theorem PhiS_zero (c : Dev nD) (n : ℕ) (h : n ≤ cfg1.N) (hz : n = 0) :
    PhiS V c n h = iprop(iprop(otherScoped c ∗ (∃ d, owns (c : Thread nD τ) scTile fullShare d) ∗ (∃ d, owns (c : Thread nD τ) scRow fullShare d)) ∗ (∃ r, prngReg c r)) := by
  subst hz; rfl
theorem PhiS_succ (c : Dev nD) (n : ℕ) (hn : n < cfg1.N) :
    PhiS V c (n + 1) hn = iprop(iprop(otherScoped c ∗ owns (c : Thread nD τ) scTile fullShare ((outsAt V c n hn).2.1) ∗ owns (c : Thread nD τ) scRow fullShare ((outsAt V c n hn).2.2)) ∗ (∃ r, prngReg c r)) := rfl
theorem PhiS_pos (c : Dev nD) (n : ℕ) (h : n ≤ cfg1.N) (hz : n ≠ 0) :
    PhiS V c n h = iprop(iprop(otherScoped c ∗ owns (c : Thread nD τ) scTile fullShare ((outsAt V c (n - 1) (by omega)).2.1) ∗ owns (c : Thread nD τ) scRow fullShare ((outsAt V c (n - 1) (by omega)).2.2)) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = (outsAt V c t.val t.isLt).1 := by dsimp only [dat]
theorem before_0 (c : Dev nD) (t : Fin cfg1.N) (d) : (dat V c).before 0 t d = blk V c 0 t :=
  before_in0_of V (dat V c) (A_eq V c 0) (after_0 V c) t d
theorem before_1 (c : Dev nD) (t : Fin cfg1.N) (d) : (dat V c).before 1 t d = blk V c 1 t :=
  before_in1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (msT t) fullShare ((dat V c).before 0 t d))
    ∗ (∃ d, owns (c : Thread nD τ) (msP t) fullShare ((dat V c).before 1 t d))
    ∗ (∃ d, owns (c : Thread nD τ) (msO t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases hA : t.val % 16 = 0
  · have h := hA
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsA t h).2.2.2) (noFlushOut t (condsA t h).2.2.2)]
    rw [outsAt_A V c t h]
    unfold stepA; (try dsimp only)
    by_cases hz : t.val = 0
    · rw [PhiS_castSucc V c t, PhiS_zero V c _ _ hz]
      iintro ⟨⟨⟨Hoth, HS0, HS1⟩, Hg⟩, Ho, ⟨%d0, H0⟩, ⟨%d1, H1⟩, ⟨%d2, H2⟩⟩
      iapply ((runA c (grid1.coords t) _ _ _ _ _ _ _ _ _ _ (condsA t h).1 (condsA t h).2.1 (condsA t h).2.2.1 (condsA t h).2.2.2 (blk V c 0 t) (blk V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hoth HS0 HS1 Hg]
      · isplitl [Hoth HS0 HS1]
        · isplitl [Hoth]; · iexact Hoth
          isplitl [HS0]
          · icases HS0 with ⟨%es0, HS0⟩
            unfold owns; iexists _; isplitr
            swap; · iexact HS0
            ipureintro; exact View.read_writes_of_cover _ _ _ _ _ (coverTileA V c t h)
          icases HS1 with ⟨%es1, HS1⟩
          unfold owns; iexists _; isplitr
          swap; · iexact HS1
          ipureintro; exact View.read_writes_of_cover _ _ _ _ _ (coverRowA V c t h)
        iexact Hg
      isplitl [Ho]; · iexact Ho
      isplitl [H0]; · iexact H0
      isplitl [H1]; · iexact H1
      iexists _; iexact H2
    · rw [PhiS_castSucc V c t, PhiS_pos V c _ _ hz]
      iintro ⟨⟨⟨Hoth, HS0, HS1⟩, Hg⟩, Ho, ⟨%d0, H0⟩, ⟨%d1, H1⟩, ⟨%d2, H2⟩⟩
      iapply ((runA c (grid1.coords t) _ _ _ _ _ _ _ _ _ _ (condsA t h).1 (condsA t h).2.1 (condsA t h).2.2.1 (condsA t h).2.2.2 (blk V c 0 t) (blk V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [Hoth HS0 HS1 Hg]
      · isplitl [Hoth HS0 HS1]
        · isplitl [Hoth]; · iexact Hoth
          isplitl [HS0]
          · icases HS0 with ⟨%es0, HS0⟩
            unfold owns; iexists _; isplitr
            swap; · iexact HS0
            ipureintro; exact View.read_writes_of_cover _ _ _ _ _ (coverTileA V c t h)
          icases HS1 with ⟨%es1, HS1⟩
          unfold owns; iexists _; isplitr
          swap; · iexact HS1
          ipureintro; exact View.read_writes_of_cover _ _ _ _ _ (coverRowA V c t h)
        iexact Hg
      isplitl [Ho]; · iexact Ho
      isplitl [H0]; · iexact H0
      isplitl [H1]; · iexact H1
      iexists _; iexact H2
  by_cases hD : t.val % 16 = 8
  · have h := hD
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsD t h).2.2.2) (noFlushOut t (condsD t h).2.2.2)]
    rw [outsAt_D V c t h]
    unfold stepD; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runD c (grid1.coords t) _ _ _ _ _ _ _ _ _ _ (condsD t h).1 (condsD t h).2.1 (condsD t h).2.2.1 (condsD t h).2.2.2 (blk V c 0 t) (blk V c 1 t)).2 _ _ Set.univ _)
    isplitl [H0]; · iexact H0
    isplitl [H1]; · iexact H1
    isplitl [H2]; · iexact H2
    isplitl [HS0]; · iexists _; iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileD V c t h)
        iexact HS1
      iexact Hg
    isplitl [Ho]; · iexact Ho
    isplitl [H0]; · iexact H0
    isplitl [H1]; · iexact H1
    iexists _; iexact H2
  by_cases hC : t.val % 16 = 7
  · have h := hC
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsC t h).2.2.2) (noFlushOut t (condsC t h).2.2.2)]
    rw [outsAt_C V c t h]
    unfold stepC; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runC c (grid1.coords t) _ _ _ _ _ _ _ _ _ _ (condsC t h).1 (condsC t h).2.1 (condsC t h).2.2.1 (condsC t h).2.2.2 (blk V c 0 t) (blk V c 1 t) _ _).2.2 _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileC V c t h _ _)
        icases HS1 with ⟨%es1, HS1⟩
        unfold owns; iexists _; isplitr
        swap; · iexact HS1
        ipureintro; exact View.read_writes_of_cover _ _ _ _ _ (coverRowC V c t h _ _)
      iexact Hg
    isplitl [Ho]; · iexact Ho
    isplitl [H0]; · iexact H0
    isplitl [H1]; · iexact H1
    iexists _; iexact H2
  by_cases hE : t.val % 16 = 15
  · have h := hE
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [show (dat V c).leavesExact 2 t = owns (c : Thread nD τ) (msO t) fullShare ((dat V c).after 2 t) from by
      unfold Dat.leavesExact; rw [liveOut t (condsE t h).2.2.2], after_2]
    rw [outsAt_E V c t h]
    unfold stepE; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runE c (grid1.coords t) _ _ _ _ _ _ _ _ _ _ (condsE t h).1 (condsE t h).2.1 (condsE t h).2.2.1 (condsE t h).2.2.2 (blk V c 0 t) (blk V c 1 t) _ _).2.2.2  Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileE V c t h _ _)
        icases HS1 with ⟨%es1, HS1⟩
        unfold owns; iexists _; isplitr
        swap; · iexact HS1
        ipureintro; exact View.read_writes_of_cover _ _ _ _ _ (coverRowE V c t h _ _)
      iexact Hg
    isplitl [Ho]; · iexact Ho
    isplitl [H0]; · iexact H0
    isplitl [H1]; · iexact H1
    icases H2 with ⟨%e2, H2⟩
    unfold owns; iexists _; isplitr
    swap; · iexact H2
    ipureintro; exact View.read_writes_of_cover _ _ _ _ _ (coverOutE V c t h _ _)
  · have h0 : t.val % 8 ≠ 0 := by omega
    have h7 : t.val % 8 ≠ 7 := by omega
    rw [show (dat V c).leavesExact 0 t = owns (c : Thread nD τ) (msT t) fullShare ((dat V c).after 0 t) from by
      unfold Dat.leavesExact; rw [liveIn0 t], after_0]
    rw [show (dat V c).leavesExact 1 t = owns (c : Thread nD τ) (msP t) fullShare ((dat V c).after 1 t) from by
      unfold Dat.leavesExact; rw [liveIn1 t], after_1]
    rw [Dat.leavesExact_idle (dat V c) 2 t (idleOut t (condsB t h0 h7).2.2.2) (noFlushOut t (condsB t h0 h7).2.2.2)]
    rw [outsAt_B V c t h0 h7]
    unfold stepB; (try dsimp only)
    rw [PhiS_castSucc V c t, PhiS_pos V c _ _ (by omega)]
    iintro ⟨⟨⟨Hoth, HS0, HS1⟩, Hg⟩, Ho, ⟨%d0, H0⟩, ⟨%d1, H1⟩, ⟨%d2, H2⟩⟩
    iapply ((runB c (grid1.coords t) _ _ _ _ _ _ _ _ _ _ (condsB t h0 h7).1 (condsB t h0 h7).2.1 (condsB t h0 h7).2.2.1 (condsB t h0 h7).2.2.2 (blk V c 0 t) (blk V c 1 t) _).2 _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [Hoth HS0 HS1 Hg]
    · isplitl [Hoth HS0 HS1]
      · isplitl [Hoth]; · iexact Hoth
        isplitl [HS0]
        · icases HS0 with ⟨%es0, HS0⟩
          unfold owns; iexists _; isplitr
          swap; · iexact HS0
          ipureintro; exact View.read_writes_of_cover _ _ _ _ _ (coverTileB V c t h0 h7 _)
        iexact HS1
      iexact Hg
    isplitl [Ho]; · iexact Ho
    isplitl [H0]; · iexact H0
    isplitl [H1]; · iexact H1
    iexists _; iexact H2

theorem body_obligation (c : Dev nD) : BodyObligation (dat (F := F) V c) (defs₀ (F := F)) Variants.none () Set.univ := fun t => by
  rw [bigSep_W1, bigSep_W1]
  exact sound_body V c t

/-! ## Entering and leaving the invariant -/

/-- The scoped buffers no window of this region stages are the first region's staging buffers and the two accumulators. -/
theorem scopedRest_split (c : Dev nD) :
    (Pipeline.scopedRest spec1 c : sProp 𝕄) ⊢ iprop(otherScoped c ∗ (∃ d, owns (c : Thread nD τ) scTile fullShare d) ∗ (∃ d, owns (c : Thread nD τ) scRow fullShare d)) := by
  rw [scopedRest1_eq]; unfold otherScoped; simp only [scTile, scRow, owns_whole]
  iintro ⟨H1, H2, H3, H4, H5, H6, H7, H8, H9, H10, H11, H12, H13, H14, H15, H16⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexact H15
  iexact H16

theorem scopedRest_join (c : Dev nD) :
    iprop(otherScoped c ∗ (∃ d, owns (c : Thread nD τ) scTile fullShare d) ∗ (∃ d, owns (c : Thread nD τ) scRow fullShare d)) ⊢ (Pipeline.scopedRest spec1 c : sProp 𝕄) := by
  rw [scopedRest1_eq]; unfold otherScoped; simp only [scTile, scRow, owns_whole]
  iintro ⟨⟨H1, H2, H3, H4, H5, H6, H7, H8, H9, H10, H11, H12, H13, H14⟩, H15, H16⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- What the launch hands the region (the scoped rest and the generator register) is the invariant before the first point. -/
theorem hin (c : Dev nD) : iprop((Pipeline.scopedRest spec1 c : sProp 𝕄) ∗ (∃ r, prngReg c r)) ⊢ (dat V c).Φ 0 := by
  rw [show (dat V c).Φ 0 = PhiS V c 0 (Nat.zero_le _) from rfl, PhiS_zero V c 0 _ rfl]
  iintro ⟨Hr, Hg⟩
  isplitl [Hr]
  · iapply (scopedRest_split c); iexact Hr
  iexact Hg

/-- After the last point the invariant gives them back, the accumulators' contents forgotten. -/
theorem hout (c : Dev nD) : (dat V c).Φ (Fin.last cfg1.N) ⊢ iprop((Pipeline.scopedRest spec1 c : sProp 𝕄) ∗ (∃ r, prngReg c r)) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨⟨Hoth, HS0, HS1⟩, Hg⟩
  isplitl [Hoth HS0 HS1]
  · iapply (scopedRest_join c)
    isplitl [Hoth]; · iexact Hoth
    isplitl [HS0]; · iexists _; iexact HS0
    iexists _; iexact HS1
  iexact Hg

end Cert.Kernel.Ttp

end
-- ==== Proof.RunBits.lean ====
import proofs.«180214_j58918361366660_2_alg».proof.Proof.FocalRegionBits
import proofs.«180214_j58918361366660_2_alg».proof.Proof.TtpRegionBits
import proofs.«180214_j58918361366660_2_alg».proof.Proof.Gen.Kernel.Launch
import proofs.«180214_j58918361366660_2_alg».proof.Proof.Gen.Kernel.Skeleton
import proofs.«180214_j58918361366660_2_alg».proof.Proof.Gen.Kernel.Points
import proofs.«180214_j58918361366660_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
# @main from the launch to the return

@main is four segments: the focal pass (first pallas_call), a stretch of sixteen host operations, the
transposed-product pass (second pallas_call), and a stretch of seven host operations that writes the result.
This file folds the TensorCore's buffer contents through the four segments, from the launch memory to the
return, shows that every weakly fair execution terminates without fault with every unscoped buffer holding the
folded contents, and reads the two arguments back through the fold: nothing writes them.
-/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch: what the focal pass is entered from. -/
abbrev atLaunch : Dev nD → Valuation τ sig (Elt F) := fun c b => (s₀ m ρ).mem ((c : Dev nD), b)
/-- The same read at the TensorCore's references (what the focal pass's proof data take). -/
abbrev focalEntry : (c : Dev nD) → (b : Ref sig .tc) → Buf (Elt F) ((c : Thread nD τ).loc b) := fun c b => atLaunch m ρ c b
/-- After the focal pass: its arrays at what the pipeline leaves (the inputs as entered, each output's write-backs
    folded), every other buffer as entered. -/
def afterFocal (c : Dev nD) : Valuation τ sig (Elt F) :=
  Pipeline.withArrays spec0 c (atLaunch m ρ c) fun w => (Focal.dat (focalEntry m ρ) c).arrAt w cfg0.N
theorem afterFocal_arr (c : Dev nD) (w : Fin cfg0.W) :
    afterFocal m ρ c (Proc.devRef .tc (Pipeline.arrRef spec0 w)) = (Focal.dat (focalEntry m ρ) c).arrAt w cfg0.N := by
  unfold afterFocal; exact Pipeline.withArrays_arr spec0 launch0.win.arr_inj c _ _ w
theorem afterFocal_of_ne (c : Dev nD) (b : Ref sig .tc) (hb : ∀ w, Pipeline.arrRef spec0 w ≠ b) :
    afterFocal m ρ c (Proc.devRef .tc b) = atLaunch m ρ c (Proc.devRef .tc b) := by
  unfold afterFocal; exact Pipeline.withArrays_of_ne spec0 c _ _ b hb
/-- The same read at the TensorCore's references (the focal pass's exit contents). -/
abbrev focalExit : (c : Dev nD) → (b : Ref sig .tc) → Buf (Elt F) ((c : Thread nD τ).loc b) := fun c b => afterFocal m ρ c b
/-- At the focal pass's exit each of its arrays holds what the pipeline leaves and every other buffer what it held
    at entry. -/
theorem focal_arrays (c : Dev nD) (w : Fin cfg0.W) :
    (Focal.dat (focalEntry m ρ) c).arrAt w cfg0.N = focalExit m ρ c (Pipeline.arrRef spec0 w) :=
  (afterFocal_arr m ρ c w).symm
theorem focal_rest (c : Dev nD) : ∀ b, b ∉ Finset.univ.image (Pipeline.arrRef spec0) → focalExit m ρ c b = focalEntry m ρ c b :=
  fun b hb => afterFocal_of_ne m ρ c b fun w e => hb (Finset.mem_image.mpr ⟨w, Finset.mem_univ _, e⟩)

/-- After the first host stretch: what the transposed-product pass is entered from. -/
abbrev atTtpEntry : Dev nD → Valuation τ sig (Elt F) := fun c => StableHlo.after hostOps1 (afterFocal m ρ c)
/-- The same read at the TensorCore's references (what the second pass's proof data take). -/
abbrev ttpEntry : (c : Dev nD) → (b : Ref sig .tc) → Buf (Elt F) ((c : Thread nD τ).loc b) := fun c b => atTtpEntry m ρ c b
/-- After the transposed-product pass: its arrays at what the pipeline leaves, every other buffer as entered. -/
def afterTtp (c : Dev nD) : Valuation τ sig (Elt F) :=
  Pipeline.withArrays spec1 c (atTtpEntry m ρ c) fun w => (Ttp.dat (ttpEntry m ρ) c).arrAt w cfg1.N
theorem afterTtp_arr (c : Dev nD) (w : Fin cfg1.W) :
    afterTtp m ρ c (Proc.devRef .tc (Pipeline.arrRef spec1 w)) = (Ttp.dat (ttpEntry m ρ) c).arrAt w cfg1.N := by
  unfold afterTtp; exact Pipeline.withArrays_arr spec1 launch1.win.arr_inj c _ _ w
theorem afterTtp_of_ne (c : Dev nD) (b : Ref sig .tc) (hb : ∀ w, Pipeline.arrRef spec1 w ≠ b) :
    afterTtp m ρ c (Proc.devRef .tc b) = atTtpEntry m ρ c (Proc.devRef .tc b) := by
  unfold afterTtp; exact Pipeline.withArrays_of_ne spec1 c _ _ b hb
/-- The same read at the TensorCore's references (the second pass's exit contents). -/
abbrev ttpExit : (c : Dev nD) → (b : Ref sig .tc) → Buf (Elt F) ((c : Thread nD τ).loc b) := fun c b => afterTtp m ρ c b
theorem ttp_arrays (c : Dev nD) (w : Fin cfg1.W) :
    (Ttp.dat (ttpEntry m ρ) c).arrAt w cfg1.N = ttpExit m ρ c (Pipeline.arrRef spec1 w) :=
  (afterTtp_arr m ρ c w).symm
theorem ttp_rest (c : Dev nD) : ∀ b, b ∉ Finset.univ.image (Pipeline.arrRef spec1) → ttpExit m ρ c b = ttpEntry m ρ c b :=
  fun b hb => afterTtp_of_ne m ρ c b fun w e => hb (Finset.mem_image.mpr ⟨w, Finset.mem_univ _, e⟩)

/-- After the second host stretch: the contents at the return (the result is its reading at `main_v16`). -/
abbrev atReturn : Dev nD → Valuation τ sig (Elt F) := fun c => StableHlo.after hostOps2 (afterTtp m ρ c)

/-! ### The arguments end as launched: no host operation writes one and each pass reads it through an input window -/

theorem atReturn_main_arg0 (c : Dev nD) : atReturn m ρ c (Proc.devRef .tc main_arg0) = m ((c : Thread nD τ).loc main_arg0) :=
  calc atReturn m ρ c (Proc.devRef .tc main_arg0)
    _ = afterTtp m ρ c (Proc.devRef .tc main_arg0) := StableHlo.after_of_writes_sub hostOps2 _ hostOps2_writes (by decide)
    _ = atTtpEntry m ρ c (Proc.devRef .tc main_arg0) := afterTtp_of_ne m ρ c main_arg0 (by decide)
    _ = afterFocal m ρ c (Proc.devRef .tc main_arg0) := StableHlo.after_of_writes_sub hostOps1 _ hostOps1_writes (by decide)
    _ = atLaunch m ρ c (Proc.devRef .tc main_arg0) :=
          (afterFocal_arr m ρ c 0).trans (((Focal.dat (focalEntry m ρ) c).arrAt_in 0 rfl _).trans (Focal.A_eq (focalEntry m ρ) c 0))
    _ = m ((c : Thread nD τ).loc main_arg0) := rfl

theorem atReturn_main_arg1 (c : Dev nD) : atReturn m ρ c (Proc.devRef .tc main_arg1) = m ((c : Thread nD τ).loc main_arg1) :=
  calc atReturn m ρ c (Proc.devRef .tc main_arg1)
    _ = afterTtp m ρ c (Proc.devRef .tc main_arg1) := StableHlo.after_of_writes_sub hostOps2 _ hostOps2_writes (by decide)
    _ = atTtpEntry m ρ c (Proc.devRef .tc main_arg1) := afterTtp_of_ne m ρ c main_arg1 (by decide)
    _ = afterFocal m ρ c (Proc.devRef .tc main_arg1) := StableHlo.after_of_writes_sub hostOps1 _ hostOps1_writes (by decide)
    _ = atLaunch m ρ c (Proc.devRef .tc main_arg1) :=
          (afterFocal_arr m ρ c 1).trans (((Focal.dat (focalEntry m ρ) c).arrAt_in 1 rfl _).trans (Focal.A_eq (focalEntry m ρ) c 1))
    _ = m ((c : Thread nD τ).loc main_arg1) := rfl

/-! ## The proof data family and the thread state -/

/-- Every pipeline's proof data, each at its pass's entry contents. -/
def pdats : (p : Fin 2) → (c : Dev nD) → Dat τ (Elt F) Unit ℕ (UR sig nD τ) ℕ (Pipeline.pin (pcfgs (F := F)) adm p) c
  | ⟨0, _⟩ => fun c => Focal.dat (focalEntry m ρ) c
  | ⟨1, _⟩ => fun c => Ttp.dat (ttpEntry m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the return contents, the generator register
    at some state. -/
abbrev Tₙ (c : Dev nD) : sProp 𝕄 := iprop(StableHlo.held (c : Thread nD τ) (Pipeline.ucRefs τ sig) (atReturn m ρ c) ∗ ∃ r, prngReg c r)

/-! ## The passes as segments -/

set_option backward.isDefEq.respectTransparency.types false in
/-- The focal pass over the thread state: entered from every unscoped buffer at the launch contents, left at
    `afterFocal`.  Its arrays split out of the unscoped buffers and put back at the exit contents; the generator
    register into the invariant and out; nothing owed; no semaphore of the kernel's own. -/
def focalSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Focal.body_obligation (focalEntry m ρ) c).loose
  hwaits := Pipeline.hwaits_of_owed_zero _ _ _ _ L lv 0 fun _ _ => rfl
  pre c := iprop(StableHlo.held (c : Thread nD τ) (Pipeline.ucRefs τ sig) (atLaunch m ρ c) ∗ R c)
  post c := iprop(StableHlo.held (c : Thread nD τ) (Pipeline.ucRefs τ sig) (afterFocal m ρ c) ∗ R c)
  X c := iprop(∃ r, prngReg c r)
  Y c := iprop(∃ r, prngReg c r)
  Z c := Pipeline.unscopedRest (Ix := Unit) (Name := ℕ) (U := UR sig nD τ) (Lvl := ℕ) spec0 c (focalEntry m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (focalEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (focalEntry m ρ c) (focalExit m ρ c) ((pdats m ρ 0 c).arrAt · cfg0.N) (focal_arrays m ρ c) (focal_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The transposed-product pass over the thread state: entered from every unscoped buffer at `atTtpEntry`, left
    at `afterTtp`.  Its invariant carries the kernel's two scratch accumulators: it is made from the scoped rest and
    the generator register at the first point and gives them back at the last. -/
def ttpSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Ttp.body_obligation (ttpEntry m ρ) c).loose
  hwaits := Pipeline.hwaits_of_owed_zero _ _ _ _ L lv 1 fun _ _ => rfl
  pre c := iprop(StableHlo.held (c : Thread nD τ) (Pipeline.ucRefs τ sig) (atTtpEntry m ρ c) ∗ R c)
  post c := iprop(StableHlo.held (c : Thread nD τ) (Pipeline.ucRefs τ sig) (afterTtp m ρ c) ∗ R c)
  X c := iprop(∃ r, prngReg c r)
  Y c := iprop(∃ r, prngReg c r)
  Z c := Pipeline.unscopedRest (Ix := Unit) (Name := ℕ) (U := UR sig nD τ) (Lvl := ℕ) spec1 c (ttpEntry m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (ttpEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Ttp.dat (ttpEntry m ρ) c).Φ 0 from rfl]
    iintro ⟨Hp, -, Hr⟩
    iapply (Ttp.hin (ttpEntry m ρ) c)
    isplitl [Hr]; · iexact Hr
    iexact Hp
  hout c := by
    rw [Pipeline.ownSems0_none, show (pdats m ρ 1 c).Φ (Fin.last _) = (Ttp.dat (ttpEntry m ρ) c).Φ (Fin.last cfg1.N) from rfl]
    iintro HΦ
    ihave H := (Ttp.hout (ttpEntry m ρ) c) $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (ttpEntry m ρ c) (ttpExit m ρ c) ((pdats m ρ 1 c).arrAt · cfg1.N) (ttp_arrays m ρ c) (ttp_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev mainSegs : List (Pipeline.Seg (pcfgs (F := F)) adm (pdats m ρ) () defs₀ 𝒱₀ L lv) :=
  [ .region (focalSeg m ρ),
    .host (hseg hostOps1 hostOps1_sub hostOps1_fresh (afterFocal m ρ)),
    .region (ttpSeg m ρ),
    .host (hseg hostOps2 hostOps2_sub hostOps2_fresh (afterTtp m ρ)) ]
/-- @main is the run of the segments. -/
theorem main_run (c : Dev nD) : main (F := F) c = Pipeline.Seg.run (mainSegs m ρ) := (main_chain c).trans (by chain_rfl)

set_option backward.isDefEq.respectTransparency.types false in
/-- From any memory with zero counters, every weakly fair execution of @main on the TensorCores terminates,
    nothing faulting, and every final state holds every unscoped buffer at the return contents `atReturn`. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = atReturn m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl, fun c => show iprop(StableHlo.held (c : Thread nD τ) (Pipeline.ucRefs τ sig) (atReturn m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atReturn m ρ c b)
    (hfin := fun c s' => by
      iintro ⟨⟨Hh, -⟩, HSI⟩
      unfold StableHlo.held
      imodintro
      iapply (pointsTo_read_all (Pipeline.ucRefs τ sig) (fun b => (((c : Thread nD τ)).1, b)) (atReturn m ρ c) s')
      isplitl [Hh] <;> iassumption)
    (hQ := fun _ h => h)

/-- The frame: every weakly fair execution of @main terminates, nothing faulting, and every final state has both
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_vals m ρ).mono fun r h c =>
    ⟨(h c _ (mem_uc main_arg0 (by decide))).trans (atReturn_main_arg0 m ρ c),
     (h c _ (mem_uc main_arg1 (by decide))).trans (atReturn_main_arg1 m ρ c)⟩

end Cert.Kernel.Run

end
-- ==== Proof.Spec.lean ====
import Mathlib

/-! The loss as real-valued formulas of the two input matrices `X` (logits) and `T` (targets), rows indexed by `ι`
    (the batch) and columns by `κ` (the labels): the focal term, and the pairwise contrastive term in its two
    arrangements — the double sum over ordered pairs of distinct rows, and the factorised form through column sums
    and the Gram-type matrix `Tᵀ P`. -/

noncomputable section

namespace Cert.Spec

open scoped BigOperators

/-- The logistic function. -/
def sigm (x : ℝ) : ℝ := 1 / (1 + Real.exp (-x))

/-- Binary cross-entropy with logits, in its stable form. -/
def bce (x t : ℝ) : ℝ := max x 0 - x * t + Real.log (1 + Real.exp (-|x|))

/-- The focal weight `α (1 - p)²` times the cross-entropy, `α = 1/4`. -/
def focal (x t : ℝ) : ℝ := (1 / 4 : ℝ) * ((1 - sigm x) * (1 - sigm x)) * bce x t

variable {ι κ : Type} [Fintype ι] [Fintype κ] [DecidableEq ι]

/-- `∑_{i ≠ j} (1 - ⟨t_i, t_j⟩) ⟨p_i, p_j⟩`, the diagonal removed by the factor `1 - δ_ij`. -/
def contrastPairs (P T : ι → κ → ℝ) : ℝ :=
  ∑ i, ∑ j, ((1 - ∑ l, T i l * T j l) * (∑ l, P i l * P j l)) * (1 - if i = j then 1 else 0)

/-- The same number without any `ι × ι` matrix: `(‖∑_i p_i‖² - ∑_i ‖p_i‖²) - (‖Tᵀ P‖_F² - ∑_i ‖t_i‖² ‖p_i‖²)`. -/
def contrastFactored (P T : ι → κ → ℝ) : ℝ :=
  ((∑ l, (∑ i, P i l) * (∑ i, P i l)) - ∑ i, ∑ l, P i l * P i l)
    - ((∑ a, ∑ b, (∑ k, T k a * P k b) * (∑ k, T k a * P k b)) - ∑ i, (∑ l, T i l * T i l) * (∑ l, P i l * P i l))

/-- The mean focal term over all entries, `n` their number. -/
def focalMean (n : ℝ) (X T : ι → κ → ℝ) : ℝ := (∑ i, ∑ l, focal (X i l) (T i l)) / n

/-- The reference's loss: mean focal term plus the pairwise contrastive sum over `d`. -/
def lossPairs (n d : ℝ) (X T : ι → κ → ℝ) : ℝ :=
  focalMean n X T + contrastPairs (fun i l => sigm (X i l)) T / d

/-- The kernel's loss: the same focal mean plus the factorised contrastive term over `d`. -/
def lossFactored (n d : ℝ) (X T : ι → κ → ℝ) : ℝ :=
  focalMean n X T + contrastFactored (fun i l => sigm (X i l)) T / d

end Cert.Spec

end
-- ==== Proof.RefLoss.lean ====
import proofs.«180214_j58918361366660_2_alg».proof.Proof.Gen.ReferenceIdeal.Read
import proofs.«180214_j58918361366660_2_alg».proof.Proof.Spec

/-! The reference program at the exact instance computes the real number Cert.Spec.lossPairs of its two input
    matrices. Every stage, read at an index, is the coercion of a real formula: the logistic function, the stable
    cross-entropy, the focal weight, the two Gram matrices, the off-diagonal mask, the two total sums and the two
    quotients. -/

noncomputable section

namespace Cert.RefLoss

open Idealize.ShloMosaic Idealize.ShloMosaic.ValueIdx Cert.ReferenceIdeal Cert.ReferenceIdeal.Read
open scoped BigOperators

/-! ## The float literals as real numbers -/

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_quarter : Ideal.ofBits .f32 0x3E800000#32 = ((1 / 4 : ℝ) : EReal) := by
  simp [Ideal.ofBits, Ideal.ieee, -EReal.coe_mul]; norm_num

theorem lit_n : Ideal.ofBits .f32 0x4B000000#32 = ((8388608 : ℝ) : EReal) := by
  simp [Ideal.ofBits, Ideal.ieee, -EReal.coe_mul]

theorem lit_d : Ideal.ofBits .f32 0x4B7FF000#32 = ((16773120 : ℝ) : EReal) := by
  simp [Ideal.ofBits, Ideal.ieee, -EReal.coe_mul]

/-! ## The scalar formulas on coerced reals -/

theorem coe_max (a b : ℝ) : ((max a b : ℝ) : EReal) = max (a : EReal) (b : EReal) :=
  EReal.coe_strictMono.monotone.map_max

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function: one over one plus the exponential of the negated argument. -/
theorem sigm_e (r : ℝ) :
    Ideal.div ((1 : ℝ) : EReal) (((1 : ℝ) : EReal) + Ideal.exp (-(r : EReal))) = ((Spec.sigm r : ℝ) : EReal) := by
  have hpos : (1 + Real.exp (-r)) ≠ 0 := by positivity
  rw [← EReal.coe_neg, Ideal.exp_coe, ← EReal.coe_add, Ideal.div_coe hpos, ← EReal.coe_mul, one_mul]
  rfl

/-- The stable cross-entropy: the positive part minus the product plus the logarithm of one plus a small exponential. -/
theorem bce_e (r s : ℝ) :
    (max (r : EReal) 0 - (r : EReal) * (s : EReal)) + Ideal.log1p (Ideal.exp (-(max (r : EReal) (-(r : EReal)))))
      = ((Spec.bce r s : ℝ) : EReal) := by
  have hpos : ¬ (1 + Real.exp (-|r|) ≤ 0) := by have := Real.exp_pos (-|r|); linarith
  rw [← EReal.coe_zero, ← coe_max, ← EReal.coe_mul, ← EReal.coe_sub, ← EReal.coe_neg, ← coe_max, ← abs_eq_max_neg,
    ← EReal.coe_neg, Ideal.exp_coe, Ideal.log1p, ← EReal.coe_one, ← EReal.coe_add, Ideal.log_coe, if_neg hpos,
    ← EReal.coe_add]
  rfl

/-- The focal term: a quarter of the squared complement of the probability times the cross-entropy. -/
theorem focal_e (r s : ℝ) :
    (((1 / 4 : ℝ) : EReal) * Ideal.pow (((1 : ℝ) : EReal) - ((Spec.sigm r : ℝ) : EReal)) ((2 : ℝ) : EReal))
        * ((Spec.bce r s : ℝ) : EReal)
      = ((Spec.focal r s : ℝ) : EReal) := by
  have h2 : Real.rpow (1 - Spec.sigm r) 2 = (1 - Spec.sigm r) * (1 - Spec.sigm r) := by
    show (1 - Spec.sigm r) ^ (2 : ℝ) = _
    rw [Real.rpow_two, sq]
  rw [← EReal.coe_sub, Ideal.pow_coe_coe, h2, ← EReal.coe_mul, ← EReal.coe_mul]
  rfl

/-- Division by a nonzero real literal. -/
theorem div_e (a n : ℝ) (hn : n ≠ 0) : Ideal.div (a : EReal) (n : EReal) = ((a / n : ℝ) : EReal) := by
  rw [Ideal.div_coe hn, ← EReal.coe_mul, mul_one_div]

/-! ## The elementwise stages at an index -/

/-- The probabilities. -/
theorem v5_at (x : FVec Ideal S4096x2048 .f32) (i : S4096x2048.Idx) (r : ℝ) (h : x i = (r : EReal)) :
    val_main_v5 (F := Ideal) x i = ((Spec.sigm r : ℝ) : EReal) := by
  rw [val_main_v5_apply, val_main_v4_apply, val_main_cst_0_apply, val_main_v3_apply, val_main_v2_apply,
    val_main_cst_apply, val_main_v1_apply, val_main_v0_apply]
  simp only [Ideal.hostDivf_def, Ideal.addf_def, Ideal.hostUnary_exp_def, Ideal.hostNegf_def, Ideal.negf_def,
    Ideal.ofBits_def, lit_one, h]
  exact sigm_e r

/-- The cross-entropy. -/
theorem v14_at (x t : FVec Ideal S4096x2048 .f32) (i : S4096x2048.Idx) (r s : ℝ) (hx : x i = (r : EReal))
    (ht : t i = (s : EReal)) :
    val_main_v14 (F := Ideal) x t i = ((Spec.bce r s : ℝ) : EReal) := by
  rw [val_main_v14_apply, val_main_v9_apply, val_main_v7_apply, val_main_v6_apply, val_main_cst_1_apply,
    val_main_v8_apply, val_main_v13_apply, val_main_v12_apply, val_main_v11_apply, val_main_v10_apply]
  simp only [Ideal.addf_def, Ideal.subf_def, Ideal.mulf_def, Ideal.maximumf_def, Ideal.hostUnary_exp_def,
    Ideal.hostUnary_log1p_def, Ideal.hostNegf_def, Ideal.negf_def, Ideal.hostAbsf_def, Ideal.absf_def,
    Ideal.ofBits_def, Ideal.ofBits_zero_f32, hx, ht]
  exact bce_e r s

/-- The focal term. -/
theorem v21_at (x t : FVec Ideal S4096x2048 .f32) (i : S4096x2048.Idx) (r s : ℝ) (hx : x i = (r : EReal))
    (ht : t i = (s : EReal)) :
    val_main_v21 (F := Ideal) x t i = ((Spec.focal r s : ℝ) : EReal) := by
  rw [val_main_v21_apply, v14_at x t i r s hx ht, val_main_v20_apply, val_main_v19_apply, val_main_cst_4_apply,
    val_main_v18_apply, val_main_v17_apply, val_main_cst_3_apply, val_main_v16_apply, val_main_v15_apply,
    val_main_cst_2_apply, v5_at x i r hx]
  simp only [Ideal.mulf_def, Ideal.subf_def, Ideal.hostPowf_def, Ideal.ofBits_def, lit_one, lit_two, lit_quarter]
  exact focal_e r s

/-! ## The two Gram matrices -/

theorem lidx23 (a b : Fin 4096) (k : Fin 2048) : lidx_main_v23 (ix2 a b) k = ix2 a k := by
  funext c; match c with | ⟨0, _⟩ => rfl | ⟨1, _⟩ => rfl

theorem ridx23 (a b : Fin 4096) (k : Fin 2048) : idx_main_v22 (ridx_main_v23 (ix2 a b) k) = ix2 b k := by
  funext c; match c with | ⟨0, _⟩ => rfl | ⟨1, _⟩ => rfl

theorem lidx25 (a b : Fin 4096) (k : Fin 2048) : lidx_main_v25 (ix2 a b) k = ix2 a k := by
  funext c; match c with | ⟨0, _⟩ => rfl | ⟨1, _⟩ => rfl

theorem ridx25 (a b : Fin 4096) (k : Fin 2048) : idx_main_v24 (ridx_main_v25 (ix2 a b) k) = ix2 b k := by
  funext c; match c with | ⟨0, _⟩ => rfl | ⟨1, _⟩ => rfl

/-- The Gram matrix of the probabilities: entry (a, b) is the inner product of rows a and b. -/
theorem v23_at (x : FVec Ideal S4096x2048 .f32) (X : Fin 4096 → Fin 2048 → ℝ)
    (hx : ∀ (i : Fin 4096) (l : Fin 2048), x (ix2 i l) = ((X i l : ℝ) : EReal)) (a b : Fin 4096) :
    val_main_v23 (F := Ideal) x (ix2 a b) = ((∑ l, Spec.sigm (X a l) * Spec.sigm (X b l) : ℝ) : EReal) := by
  rw [val_main_v23_apply, coe_sum]
  refine Finset.sum_congr rfl fun k _ => ?_
  rw [val_main_v22_apply, lidx23, ridx23, v5_at x _ _ (hx a k), v5_at x _ _ (hx b k), EReal.coe_mul]

/-- The Gram matrix of the targets. -/
theorem v25_at (t : FVec Ideal S4096x2048 .f32) (T : Fin 4096 → Fin 2048 → ℝ)
    (ht : ∀ (i : Fin 4096) (l : Fin 2048), t (ix2 i l) = ((T i l : ℝ) : EReal)) (a b : Fin 4096) :
    val_main_v25 (F := Ideal) t (ix2 a b) = ((∑ l, T a l * T b l : ℝ) : EReal) := by
  rw [val_main_v25_apply, coe_sum]
  refine Finset.sum_congr rfl fun k _ => ?_
  rw [val_main_v24_apply, lidx25, ridx25, ht a k, ht b k, EReal.coe_mul]

/-! ## The off-diagonal mask -/

/-- Two row numbers below 4096, as 32-bit words, are equal exactly when the numbers are. -/
theorem eye_bit (a b : Fin 4096) :
    IntOp.cmpi .eq (IntOp.addi (BitVec.ofNat 32 a.val) 0#32) (BitVec.ofNat 32 b.val) = if a = b then 1#1 else 0#1 := by
  unfold IntOp.cmpi IntOp.addi
  simp only [BitVec.add_zero]
  by_cases h : a = b
  · subst h; simp
  · rw [if_neg h]
    have hne : (BitVec.ofNat 32 a.val == BitVec.ofNat 32 b.val) = false := by
      rw [beq_eq_false_iff_ne]
      intro hh
      apply h; apply Fin.ext
      have h1 := congrArg BitVec.toNat hh
      simp only [BitVec.toNat_ofNat] at h1
      have := a.isLt; have := b.isLt; omega
    rw [hne]; rfl

theorem v30_at (a b : Fin 4096) : val_main_v30 (F := Ideal) (ix2 a b) = if a = b then 1#1 else 0#1 := by
  rw [val_main_v30_apply, val_main_v29_apply, val_main_v26_apply, val_main_v28_apply, val_main_c_apply,
    val_main_v27_apply]
  exact eye_bit a b

/-- One minus the identity matrix. -/
theorem v33_at (a b : Fin 4096) :
    val_main_v33 (F := Ideal) (ix2 a b) = ((1 - (if a = b then 1 else 0) : ℝ) : EReal) := by
  rw [val_main_v33_apply, val_main_v32_apply, val_main_cst_5_apply, val_main_v31_apply, v30_at]
  simp only [Ideal.subf_def, Ideal.ofBits_def, lit_one]
  change ((1 : ℝ) : EReal) - ((((if a = b then 1#1 else 0#1 : BitVec 1).toNat : ℕ) : ℝ) : EReal) = _
  have e : ((1 : EReal) - 1) = 0 := by rw [← EReal.coe_one, ← EReal.coe_sub, sub_self, EReal.coe_zero]
  by_cases h : a = b
  · simp [h, e]
  · simp [h]

/-! ## The summand of the pairwise term, and the two total sums -/

theorem v37_at (x t : FVec Ideal S4096x2048 .f32) (X T : Fin 4096 → Fin 2048 → ℝ)
    (hx : ∀ (i : Fin 4096) (l : Fin 2048), x (ix2 i l) = ((X i l : ℝ) : EReal))
    (ht : ∀ (i : Fin 4096) (l : Fin 2048), t (ix2 i l) = ((T i l : ℝ) : EReal)) (a b : Fin 4096) :
    val_main_v37 (F := Ideal) x t (ix2 a b)
      = ((((1 - ∑ l, T a l * T b l) * (∑ l, Spec.sigm (X a l) * Spec.sigm (X b l)))
          * (1 - if a = b then 1 else 0) : ℝ) : EReal) := by
  rw [val_main_v37_apply, val_main_v36_apply, val_main_v35_apply, val_main_v34_apply, val_main_cst_6_apply,
    v25_at t T ht, v23_at x X hx, v33_at]
  simp only [Ideal.mulf_def, Ideal.subf_def, Ideal.ofBits_def, lit_one]
  rw [← EReal.coe_sub, ← EReal.coe_mul, ← EReal.coe_mul]

theorem v38_at (x t : FVec Ideal S4096x2048 .f32) (X T : Fin 4096 → Fin 2048 → ℝ)
    (hx : ∀ (i : Fin 4096) (l : Fin 2048), x (ix2 i l) = ((X i l : ℝ) : EReal))
    (ht : ∀ (i : Fin 4096) (l : Fin 2048), t (ix2 i l) = ((T i l : ℝ) : EReal)) (i : S_.Idx) :
    val_main_v38 (F := Ideal) x t i
      = ((Spec.contrastPairs (fun i l => Spec.sigm (X i l)) T : ℝ) : EReal) := by
  rw [val_main_v38_apply, val_main_cst_7_apply, sum_idx2]
  simp only [Ideal.ofBits_def, Ideal.ofBits_zero_f32, zero_add]
  unfold Spec.contrastPairs
  rw [coe_sum]; refine Finset.sum_congr rfl fun a _ => ?_
  rw [coe_sum]; refine Finset.sum_congr rfl fun b _ => ?_
  exact v37_at x t X T hx ht a b

theorem v40_at (x t : FVec Ideal S4096x2048 .f32) (X T : Fin 4096 → Fin 2048 → ℝ)
    (hx : ∀ (i : Fin 4096) (l : Fin 2048), x (ix2 i l) = ((X i l : ℝ) : EReal))
    (ht : ∀ (i : Fin 4096) (l : Fin 2048), t (ix2 i l) = ((T i l : ℝ) : EReal)) (i : S_.Idx) :
    val_main_v40 (F := Ideal) x t i = ((∑ a, ∑ l, Spec.focal (X a l) (T a l) : ℝ) : EReal) := by
  rw [val_main_v40_apply, val_main_cst_9_apply, sum_idx2]
  simp only [Ideal.ofBits_def, Ideal.ofBits_zero_f32, zero_add]
  rw [coe_sum]; refine Finset.sum_congr rfl fun a _ => ?_
  rw [coe_sum]; refine Finset.sum_congr rfl fun l _ => ?_
  exact v21_at x t _ _ _ (hx a l) (ht a l)

/-! ## The result -/

/-- The reference's result is the mean focal term plus the pairwise contrastive sum over the number of ordered
    pairs of distinct rows. -/
theorem ref_eq (x t : FVec Ideal Cert.ReferenceIdeal.S4096x2048 .f32) (X T : Fin 4096 → Fin 2048 → ℝ)
    (hx : ∀ (i : Fin 4096) (l : Fin 2048), x (ValueIdx.ix2 i l) = ((X i l : ℝ) : EReal))
    (ht : ∀ (i : Fin 4096) (l : Fin 2048), t (ValueIdx.ix2 i l) = ((T i l : ℝ) : EReal)) :
    Cert.ReferenceIdeal.Read.val_main_v42 (F := Ideal) x t
      = fun _ => ((Cert.Spec.lossPairs 8388608 16773120 X T : ℝ) : EReal) := by
  funext i
  rw [val_main_v42_apply, val_main_v41_apply, val_main_v39_apply, val_main_cst_10_apply, val_main_cst_8_apply,
    v40_at x t X T hx ht, v38_at x t X T hx ht]
  simp only [Ideal.addf_def, Ideal.hostDivf_def, Ideal.ofBits_def, lit_n, lit_d]
  rw [div_e _ _ (by norm_num), div_e _ _ (by norm_num), ← EReal.coe_add]
  rfl

end Cert.RefLoss

end
-- ==== Proof.KernelHost.lean ====
import proofs.«180214_j58918361366660_2_alg».proof.KernelIdeal
import proofs.«180214_j58918361366660_2_alg».proof.Proof.Spec
import proofs.«180214_j58918361366660_2_alg».proof.Proof.RefLoss
import Idealize.ShloMosaic.Lib.ValueIdx
import Idealize.ShloMosaic.Lib.Pipeline.Value
import Idealize.ShloMosaic.PureOps.Ideal.Laws

/-! The host arithmetic of the kernel program, as one function of the arrays its two kernel regions leave: the row
    sums of the focal term, of the squared probabilities and of the squared targets, the probabilities themselves,
    and the row sums of the squared entries of the product of the transposed targets with the probabilities. At the
    exact instance it is the mean focal term plus the factorised pairwise term over the number of ordered pairs of
    distinct rows. -/

noncomputable section

namespace Cert.KernelHost

open Idealize.ShloMosaic Idealize.ShloMosaic.ValueIdx Cert.KernelIdeal
open scoped BigOperators

variable [Cert.KernelIdeal.Facts]
open Cert.KernelIdeal.Facts₀ Cert.KernelIdeal.Facts

/-- The host operations between and after the two kernel regions, in the program's order. -/
def hostLoss (fs pp tt : FVec Ideal S4096x1 .f32) (pb : FVec Ideal S4096x2048 .bf16) (fr : FVec Ideal S2048x1 .f32) :
    FVec Ideal S_ .f32 :=
  let v1 : FVec Ideal S_ .f32 :=
    Host.reduceAdd fs (constant (F := Ideal) S_ .f32 0x00000000#32) reducesTo_S4096x1_S_d0_1 h_S_
  let v2 : FVec Ideal S_ .f32 := Host.divf v1 (constant (F := Ideal) S_ .f32 0x4B000000#32)
  let v3 : FVec Ideal S_ .f32 :=
    Host.reduceAdd pp (constant (F := Ideal) S_ .f32 0x00000000#32) reducesTo_S4096x1_S_d0_1 h_S_
  let v4 : FVec Ideal S4096x1 .f32 := mulf tt pp
  let v5 : FVec Ideal S_ .f32 :=
    Host.reduceAdd v4 (constant (F := Ideal) S_ .f32 0x00000000#32) reducesTo_S4096x1_S_d0_1 h_S_
  let v6 : FVec Ideal S4096x2048 .f32 := extf .f32 pb bitsLt_bf16_f32
  let v7 : FVec Ideal S2048 .f32 :=
    Host.reduceAdd v6 (constant (F := Ideal) S_ .f32 0x00000000#32) reducesTo_S4096x2048_S2048_d0 h_S_
  let v8 : FVec Ideal S2048 .f32 := mulf v7 v7
  let v9 : FVec Ideal S_ .f32 :=
    Host.reduceAdd v8 (constant (F := Ideal) S_ .f32 0x00000000#32) reducesTo_S2048_S_d0 h_S_
  let v10 : FVec Ideal S_ .f32 := subf v9 v3
  let v12 : FVec Ideal S_ .f32 :=
    Host.reduceAdd fr (constant (F := Ideal) S_ .f32 0x00000000#32) reducesTo_S2048x1_S_d0_1 h_S_
  let v13 : FVec Ideal S_ .f32 := subf v12 v5
  let v14 : FVec Ideal S_ .f32 := subf v10 v13
  let v15 : FVec Ideal S_ .f32 := Host.divf v14 (constant (F := Ideal) S_ .f32 0x4B7FF000#32)
  addf v2 v15

/-! ## The float sums as real sums -/

/-- A host quotient at an index is the quotient of the elements. -/
theorem hdivf_apply {s : Shape} (a b : FVec Ideal s .f32) (i : s.Idx) : Host.divf a b i = Ideal.div (a i) (b i) := rfl

/-- The total sum of a one-column array of 4096 rows of real entries. -/
theorem tot4096 (y : FVec Ideal S4096x1 .f32) (Y : Fin 4096 → ℝ)
    (hy : ∀ i : Fin 4096, y (ix2 i (0 : Fin 1)) = ((Y i : ℝ) : EReal))
    (h : S4096x1.ReducesTo [0, 1] S_) (hu : 0 < S_.numel) (j : S_.Idx) :
    Host.reduceAdd y (constant (F := Ideal) S_ .f32 0x00000000#32) h hu j = ((∑ i, Y i : ℝ) : EReal) := by
  simp only [Host.reduceAdd, Ideal.hostReduceAdd_def]
  rw [Ideal.hostReduceAdd_total h (fun b => b.elim0), constant_apply, Ideal.ofBits_zero_f32, zero_add, sum_idx2,
    RefLoss.coe_sum]
  refine Finset.sum_congr rfl fun a _ => ?_
  rw [Fin.sum_univ_one]; exact hy a

/-- The total sum of a one-column array of 2048 rows of real entries. -/
theorem tot2048c (y : FVec Ideal S2048x1 .f32) (Y : Fin 2048 → ℝ)
    (hy : ∀ a : Fin 2048, y (ix2 a (0 : Fin 1)) = ((Y a : ℝ) : EReal))
    (h : S2048x1.ReducesTo [0, 1] S_) (hu : 0 < S_.numel) (j : S_.Idx) :
    Host.reduceAdd y (constant (F := Ideal) S_ .f32 0x00000000#32) h hu j = ((∑ a, Y a : ℝ) : EReal) := by
  simp only [Host.reduceAdd, Ideal.hostReduceAdd_def]
  rw [Ideal.hostReduceAdd_total h (fun b => b.elim0), constant_apply, Ideal.ofBits_zero_f32, zero_add, sum_idx2,
    RefLoss.coe_sum]
  refine Finset.sum_congr rfl fun a _ => ?_
  rw [Fin.sum_univ_one]; exact hy a

/-- A vector of 2048 entries is indexed by its one coordinate. -/
def idxEquiv1 : S2048.Idx ≃ Fin 2048 where
  toFun i := i 0
  invFun a := ix1 a
  left_inv i := (eq_ix1 i).symm
  right_inv _ := rfl

theorem sum_idx1 (f : S2048.Idx → EReal) : ∑ i, f i = ∑ a : Fin 2048, f (ix1 a) := by
  rw [← Equiv.sum_comp idxEquiv1.symm f]; rfl

/-- The total sum of a vector of 2048 real entries. -/
theorem tot2048 (y : FVec Ideal S2048 .f32) (Y : Fin 2048 → ℝ)
    (hy : ∀ l : Fin 2048, y (ix1 l) = ((Y l : ℝ) : EReal))
    (h : S2048.ReducesTo [0] S_) (hu : 0 < S_.numel) (j : S_.Idx) :
    Host.reduceAdd y (constant (F := Ideal) S_ .f32 0x00000000#32) h hu j = ((∑ l, Y l : ℝ) : EReal) := by
  simp only [Host.reduceAdd, Ideal.hostReduceAdd_def]
  rw [Ideal.hostReduceAdd_total h (fun b => b.elim0), constant_apply, Ideal.ofBits_zero_f32, zero_add, sum_idx1,
    RefLoss.coe_sum]
  exact Finset.sum_congr rfl fun l _ => hy l

/-- The column sums of the widened probabilities. -/
theorem colsum (pb : FVec Ideal S4096x2048 .bf16) (P : Fin 4096 → Fin 2048 → ℝ)
    (hpb : ∀ (i : Fin 4096) (l : Fin 2048), pb (ix2 i l) = ((P i l : ℝ) : EReal))
    (hlt : FTy.bits .bf16 < FTy.bits .f32) (h : S4096x2048.ReducesTo [0] S2048) (hu : 0 < S_.numel) (l : Fin 2048) :
    Host.reduceAdd (extf .f32 pb hlt) (constant (F := Ideal) S_ .f32 0x00000000#32) h hu (ix1 l)
      = ((∑ i, P i l : ℝ) : EReal) := by
  have hR : S4096x2048.Reduces [0] S2048 := by decide
  simp only [Host.reduceAdd, Ideal.hostReduceAdd_def]
  rw [Ideal.hostReduceAdd_single h hR, constant_apply, Ideal.ofBits_zero_f32, zero_add]
  show (∑ k : Fin 4096, (extf .f32 pb hlt) (hR.lift (ix1 l) k)) = _
  rw [RefLoss.coe_sum]
  refine Finset.sum_congr rfl fun k _ => ?_
  have e : hR.lift (ix1 l) k = ix2 k l :=
    funext fun c => Fin.ext (by match c with | ⟨0, _⟩ => rfl | ⟨1, _⟩ => rfl)
  rw [e, extf_apply]; exact hpb k l

/-! ## The value -/

/-- On real data the host arithmetic is the real expression it spells. -/
theorem hostLoss_eq (fs pp tt : FVec Ideal S4096x1 .f32) (pb : FVec Ideal S4096x2048 .bf16)
    (fr : FVec Ideal S2048x1 .f32) (FS PP TT : Fin 4096 → ℝ) (P : Fin 4096 → Fin 2048 → ℝ) (FR : Fin 2048 → ℝ)
    (hfs : ∀ i : Fin 4096, fs (ix2 i (0 : Fin 1)) = ((FS i : ℝ) : EReal))
    (hpp : ∀ i : Fin 4096, pp (ix2 i (0 : Fin 1)) = ((PP i : ℝ) : EReal))
    (htt : ∀ i : Fin 4096, tt (ix2 i (0 : Fin 1)) = ((TT i : ℝ) : EReal))
    (hpb : ∀ (i : Fin 4096) (l : Fin 2048), pb (ix2 i l) = ((P i l : ℝ) : EReal))
    (hfr : ∀ a : Fin 2048, fr (ix2 a (0 : Fin 1)) = ((FR a : ℝ) : EReal)) :
    hostLoss fs pp tt pb fr
      = fun _ => (((∑ i, FS i) / 8388608
          + (((∑ l, (∑ i, P i l) * (∑ i, P i l)) - ∑ i, PP i) - ((∑ a, FR a) - ∑ i, TT i * PP i)) / 16773120 : ℝ)
          : EReal) := by
  funext j
  have h1 := tot4096 fs FS hfs reducesTo_S4096x1_S_d0_1 h_S_ j
  have h3 := tot4096 pp PP hpp reducesTo_S4096x1_S_d0_1 h_S_ j
  have h5 := tot4096 (mulf tt pp) (fun i => TT i * PP i)
    (fun i => by rw [mulf_apply, htt i, hpp i, EReal.coe_mul]) reducesTo_S4096x1_S_d0_1 h_S_ j
  have h7 := colsum pb P hpb bitsLt_bf16_f32 reducesTo_S4096x2048_S2048_d0 h_S_
  have h9 := tot2048 (mulf (Host.reduceAdd (extf .f32 pb bitsLt_bf16_f32)
      (constant (F := Ideal) S_ .f32 0x00000000#32) reducesTo_S4096x2048_S2048_d0 h_S_)
      (Host.reduceAdd (extf .f32 pb bitsLt_bf16_f32)
      (constant (F := Ideal) S_ .f32 0x00000000#32) reducesTo_S4096x2048_S2048_d0 h_S_))
    (fun l => (∑ i, P i l) * (∑ i, P i l))
    (fun l => by rw [mulf_apply, h7 l, EReal.coe_mul]) reducesTo_S2048_S_d0 h_S_ j
  have h12 := tot2048c fr FR hfr reducesTo_S2048x1_S_d0_1 h_S_ j
  unfold hostLoss
  dsimp only
  rw [addf_apply, hdivf_apply, hdivf_apply, subf_apply, subf_apply, subf_apply, h1, h3, h5, h9, h12,
    constant_apply, constant_apply, RefLoss.lit_n, RefLoss.lit_d, ← EReal.coe_sub, ← EReal.coe_sub, ← EReal.coe_sub,
    RefLoss.div_e _ _ (by norm_num), RefLoss.div_e _ _ (by norm_num), ← EReal.coe_add]

/-- With the region outputs named by the input matrices, the value is the factorised loss. -/
theorem hostLoss_factored (fs pp tt : FVec Ideal S4096x1 .f32) (pb : FVec Ideal S4096x2048 .bf16)
    (fr : FVec Ideal S2048x1 .f32) (FS PP TT : Fin 4096 → ℝ) (P : Fin 4096 → Fin 2048 → ℝ) (FR : Fin 2048 → ℝ)
    (hfs : ∀ i : Fin 4096, fs (ix2 i (0 : Fin 1)) = ((FS i : ℝ) : EReal))
    (hpp : ∀ i : Fin 4096, pp (ix2 i (0 : Fin 1)) = ((PP i : ℝ) : EReal))
    (htt : ∀ i : Fin 4096, tt (ix2 i (0 : Fin 1)) = ((TT i : ℝ) : EReal))
    (hpb : ∀ (i : Fin 4096) (l : Fin 2048), pb (ix2 i l) = ((P i l : ℝ) : EReal))
    (hfr : ∀ a : Fin 2048, fr (ix2 a (0 : Fin 1)) = ((FR a : ℝ) : EReal))
    (X T : Fin 4096 → Fin 2048 → ℝ)
    (eFS : ∀ i, FS i = ∑ l, Spec.focal (X i l) (T i l))
    (ePP : ∀ i, PP i = ∑ l, Spec.sigm (X i l) * Spec.sigm (X i l))
    (eTT : ∀ i, TT i = ∑ l, T i l * T i l)
    (eP : ∀ i l, P i l = Spec.sigm (X i l))
    (eFR : ∀ a, FR a = ∑ b, (∑ k, T k a * P k b) * (∑ k, T k a * P k b)) :
    hostLoss fs pp tt pb fr = fun _ => ((Spec.lossFactored 8388608 16773120 X T : ℝ) : EReal) := by
  rw [hostLoss_eq fs pp tt pb fr FS PP TT P FR hfs hpp htt hpb hfr]
  obtain rfl : P = fun i l => Spec.sigm (X i l) := funext fun i => funext fun l => eP i l
  obtain rfl : FS = fun i => ∑ l, Spec.focal (X i l) (T i l) := funext eFS
  obtain rfl : PP = fun i => ∑ l, Spec.sigm (X i l) * Spec.sigm (X i l) := funext ePP
  obtain rfl : TT = fun i => ∑ l, T i l * T i l := funext eTT
  obtain rfl : FR = fun a => ∑ b, (∑ k, T k a * Spec.sigm (X k b)) * (∑ k, T k a * Spec.sigm (X k b)) := funext eFR
  rfl

end Cert.KernelHost

end
-- ==== Proof.RunValue.lean ====
import proofs.«180214_j58918361366660_2_alg».proof.Proof.Run
import proofs.«180214_j58918361366660_2_alg».proof.Proof.KernelHost
import Idealize.ShloMosaic.Lib.StableHlo.Run

/-!
# The result of @main, read off the fold of buffer contents

The value left in the result buffer at the return is the host arithmetic applied to the five arrays the two
passes leave: the focal row sums, the squared-probability row sums, the squared-target row sums and the rounded
probabilities (first pass), and the row sums of the squared transposed product (second pass).  The second pass
is entered with exactly the two rounded arrays the first pass left.
-/

set_option maxRecDepth 16384

noncomputable section

namespace Cert.KernelIdeal.RunValue

open Cert.KernelIdeal Cert.KernelIdeal.Gen Cert.KernelIdeal.Run
open Idealize.ShloMosaic Idealize.ShloMosaic.TcCoe
open Idealize.ShloMosaic.StableHlo (after_cons after_nil nullary_result unary_result binary_result nullary_result_ne unary_result_ne binary_result_ne)
open Idealize.SL Idealize.SL.Sem
open Idealize.ShloMosaic.Pipeline (Dat)

variable (m : (ℓ : Loc nD τ sig) → Buf (Elt Ideal) ℓ) (ρ : Dev nD → PrngReg)

/-! ## What the first pass leaves, array by array -/

/-- The focal row sums as the first pass leaves them. -/
abbrev focalSumsOut (c : Dev nD) : FVec Ideal S4096x1 .f32 := (Focal.dat (F := Ideal) (focalEntry m ρ) c).arrAt 2 cfg0.N
/-- The squared-probability row sums as the first pass leaves them. -/
abbrev probSqSumsOut (c : Dev nD) : FVec Ideal S4096x1 .f32 := (Focal.dat (F := Ideal) (focalEntry m ρ) c).arrAt 3 cfg0.N
/-- The squared-target row sums as the first pass leaves them. -/
abbrev targetSqSumsOut (c : Dev nD) : FVec Ideal S4096x1 .f32 := (Focal.dat (F := Ideal) (focalEntry m ρ) c).arrAt 4 cfg0.N
/-- The rounded probabilities as the first pass leaves them. -/
abbrev roundedProbsOut (c : Dev nD) : FVec Ideal S4096x2048 .bf16 := (Focal.dat (F := Ideal) (focalEntry m ρ) c).arrAt 5 cfg0.N
/-- The rounded targets as the first pass leaves them. -/
abbrev roundedTargetsOut (c : Dev nD) : FVec Ideal S4096x2048 .bf16 := (Focal.dat (F := Ideal) (focalEntry m ρ) c).arrAt 6 cfg0.N
/-- The row sums of the squared transposed product as the second pass leaves them. -/
abbrev productSqSumsOut (c : Dev nD) : FVec Ideal S2048x1 .f32 := (Ttp.dat (F := Ideal) (ttpEntry m ρ) c).arrAt 2 cfg1.N

theorem afterFocal_v0_0 (c : Dev nD) : afterFocal m ρ c (Proc.devRef .tc main_v0_0) = focalSumsOut m ρ c := afterFocal_arr m ρ c 2
theorem afterFocal_v0_1 (c : Dev nD) : afterFocal m ρ c (Proc.devRef .tc main_v0_1) = probSqSumsOut m ρ c := afterFocal_arr m ρ c 3
theorem afterFocal_v0_2 (c : Dev nD) : afterFocal m ρ c (Proc.devRef .tc main_v0_2) = targetSqSumsOut m ρ c := afterFocal_arr m ρ c 4
theorem afterFocal_v0_3 (c : Dev nD) : afterFocal m ρ c (Proc.devRef .tc main_v0_3) = roundedProbsOut m ρ c := afterFocal_arr m ρ c 5
theorem afterFocal_v0_4 (c : Dev nD) : afterFocal m ρ c (Proc.devRef .tc main_v0_4) = roundedTargetsOut m ρ c := afterFocal_arr m ρ c 6
theorem afterTtp_v11 (c : Dev nD) : afterTtp m ρ c (Proc.devRef .tc main_v11) = productSqSumsOut m ρ c := afterTtp_arr m ρ c 2

/-! ## The second pass is entered with what the first left: the host stretch between them writes neither array -/

theorem ttpEntry_targets (c : Dev nD) : ttpEntry m ρ c main_v0_4 = (Focal.dat (F := Ideal) (focalEntry m ρ) c).arrAt 6 cfg0.N :=
  (StableHlo.after_of_writes_sub hostOps1 _ hostOps1_writes (by decide)).trans (afterFocal_arr m ρ c 6)
theorem ttpEntry_probs (c : Dev nD) : ttpEntry m ρ c main_v0_3 = (Focal.dat (F := Ideal) (focalEntry m ρ) c).arrAt 5 cfg0.N :=
  (StableHlo.after_of_writes_sub hostOps1 _ hostOps1_writes (by decide)).trans (afterFocal_arr m ρ c 5)

/-! ## The first host stretch, at the four scalars the second stretch reads -/

/-- The mean focal term: the total of the focal row sums over 2^23. -/
theorem entry_v2 (c : Dev nD) :
    (atTtpEntry m ρ c (Proc.devRef .tc main_v2) : FVec Ideal S_ .f32)
      = Host.divf (Host.reduceAdd (focalSumsOut m ρ c) (constant (F := Ideal) S_ .f32 0x00000000#32) reducesTo_S4096x1_S_d0_1 h_S_)
          (constant (F := Ideal) S_ .f32 0x4B000000#32) := by
  show StableHlo.after hostOps1 (afterFocal m ρ c) (Proc.devRef .tc main_v2) = _
  after_results
  rw [afterFocal_v0_0]

/-- The total of the squared-probability row sums. -/
theorem entry_v3 (c : Dev nD) :
    (atTtpEntry m ρ c (Proc.devRef .tc main_v3) : FVec Ideal S_ .f32)
      = Host.reduceAdd (probSqSumsOut m ρ c) (constant (F := Ideal) S_ .f32 0x00000000#32) reducesTo_S4096x1_S_d0_1 h_S_ := by
  show StableHlo.after hostOps1 (afterFocal m ρ c) (Proc.devRef .tc main_v3) = _
  after_results
  rw [afterFocal_v0_1]

/-- The total of the products of the squared-target and squared-probability row sums. -/
theorem entry_v5 (c : Dev nD) :
    (atTtpEntry m ρ c (Proc.devRef .tc main_v5) : FVec Ideal S_ .f32)
      = Host.reduceAdd (mulf (targetSqSumsOut m ρ c) (probSqSumsOut m ρ c)) (constant (F := Ideal) S_ .f32 0x00000000#32)
          reducesTo_S4096x1_S_d0_1 h_S_ := by
  show StableHlo.after hostOps1 (afterFocal m ρ c) (Proc.devRef .tc main_v5) = _
  after_results
  rw [afterFocal_v0_1, afterFocal_v0_2]

/-- The sum over the columns of the squared column totals of the widened probabilities, less the total of the
    squared-probability row sums. -/
theorem entry_v10 (c : Dev nD) :
    (atTtpEntry m ρ c (Proc.devRef .tc main_v10) : FVec Ideal S_ .f32)
      = subf (Host.reduceAdd
            (mulf (Host.reduceAdd (extf .f32 (roundedProbsOut m ρ c) bitsLt_bf16_f32) (constant (F := Ideal) S_ .f32 0x00000000#32) reducesTo_S4096x2048_S2048_d0 h_S_)
                  (Host.reduceAdd (extf .f32 (roundedProbsOut m ρ c) bitsLt_bf16_f32) (constant (F := Ideal) S_ .f32 0x00000000#32) reducesTo_S4096x2048_S2048_d0 h_S_))
            (constant (F := Ideal) S_ .f32 0x00000000#32) reducesTo_S2048_S_d0 h_S_)
          (Host.reduceAdd (probSqSumsOut m ρ c) (constant (F := Ideal) S_ .f32 0x00000000#32) reducesTo_S4096x1_S_d0_1 h_S_) := by
  show StableHlo.after hostOps1 (afterFocal m ρ c) (Proc.devRef .tc main_v10) = _
  after_results
  rw [afterFocal_v0_1, afterFocal_v0_3]

/-! ## The second pass leaves those four scalars alone -/

theorem afterTtp_v2 (c : Dev nD) :
    (afterTtp m ρ c (Proc.devRef .tc main_v2) : FVec Ideal S_ .f32) = atTtpEntry m ρ c (Proc.devRef .tc main_v2) :=
  afterTtp_of_ne m ρ c main_v2 (by decide)
theorem afterTtp_v5 (c : Dev nD) :
    (afterTtp m ρ c (Proc.devRef .tc main_v5) : FVec Ideal S_ .f32) = atTtpEntry m ρ c (Proc.devRef .tc main_v5) :=
  afterTtp_of_ne m ρ c main_v5 (by decide)
theorem afterTtp_v10 (c : Dev nD) :
    (afterTtp m ρ c (Proc.devRef .tc main_v10) : FVec Ideal S_ .f32) = atTtpEntry m ρ c (Proc.devRef .tc main_v10) :=
  afterTtp_of_ne m ρ c main_v10 (by decide)

/-! ## The result -/

/-- The result buffer at the return holds the host arithmetic of the five arrays the passes leave. -/
theorem result_eq (c : Dev nD) :
    (atReturn m ρ c (Proc.devRef .tc main_v16) : FVec Ideal S_ .f32)
      = Cert.KernelHost.hostLoss (focalSumsOut m ρ c) (probSqSumsOut m ρ c) (targetSqSumsOut m ρ c) (roundedProbsOut m ρ c)
          (productSqSumsOut m ρ c) := by
  show StableHlo.after hostOps2 (afterTtp m ρ c) (Proc.devRef .tc main_v16) = _
  after_results
  rw [afterTtp_v2, afterTtp_v5, afterTtp_v10, afterTtp_v11, entry_v2, entry_v5, entry_v10]
  rfl

end Cert.KernelIdeal.RunValue

end
-- ==== Proof.TtpSteps.lean ====
import proofs.«180214_j58918361366660_2_alg».proof.Proof.TtpRegion
import Idealize.ShloMosaic.Lib.Pipeline.Value

/-! The second kernel region's steps in closed form: in each control case, what the tile accumulator, the row accumulator
    and (where it is written) the output block hold after the body, as the kernel's pure payload terms of the point's
    two slabs and of what the point before left. -/

set_option maxRecDepth 16384

noncomputable section

namespace Cert.KernelIdeal.Ttp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := by funext a; fin_cases a <;> rfl

/-- The tile accumulator read back as whole contents. -/
theorem readTile (X : Vec F S1024x1024 .f32) : (View.whole cc1_scratch0).read (Elt F) ((Memref.isWhole_whole cc1_scratch0).unread X) = X :=
  (Memref.isWhole_whole cc1_scratch0).read_unread X
theorem readRow (X : Vec F S1024x1 .f32) : (View.whole cc1_scratch1).read (Elt F) ((Memref.isWhole_whole cc1_scratch1).unread X) = X :=
  (Memref.isWhole_whole cc1_scratch1).read_unread X

/-- Reset tile then one slab product. -/
theorem stepA_tile (c : Dev nD) (t : Fin cfg1.N) (h : t.val % 16 = 0) :
    (stepA V c t h).2.1 = k1_pay3 (blk V c 0 t) (blk V c 1 t) (k1_pay2 (F := F)) := by
  unfold stepA; dsimp only
  rw [View.read_writes_eq_canon _ _ _ (coverTileA V c t h)]
  unfold runA; dsimp only; sl_unfold_words
  rw [View.canon_cons_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]

theorem stepA_row (c : Dev nD) (t : Fin cfg1.N) (h : t.val % 16 = 0) :
    (stepA V c t h).2.2 = (k1_pay1 (F := F)) := by
  unfold stepA; dsimp only
  rw [View.read_writes_eq_canon _ _ _ (coverRowA V c t h)]
  unfold runA; dsimp only; sl_unfold_words
  rw [View.canon_unit_zero hz2]

theorem stepB_tile (c : Dev nD) (t : Fin cfg1.N) (h0 : t.val % 8 ≠ 0) (h7 : t.val % 8 ≠ 7) (pM : Vec F S1024x1024 .f32) (pJ : Vec F S1024x1 .f32) :
    (stepB V c t h0 h7 pM pJ).2.1 = k1_pay3 (blk V c 0 t) (blk V c 1 t) pM := by
  unfold stepB; dsimp only
  rw [View.read_writes_eq_canon _ _ _ (coverTileB V c t h0 h7 pM)]
  unfold runB; dsimp only; sl_unfold_words
  rw [View.canon_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]
  exact congrArg (k1_pay3 (blk V c 0 t) (blk V c 1 t)) (readTile pM)

theorem stepB_row (c : Dev nD) (t : Fin cfg1.N) (h0 : t.val % 8 ≠ 0) (h7 : t.val % 8 ≠ 7) (pM : Vec F S1024x1024 .f32) (pJ : Vec F S1024x1 .f32) :
    (stepB V c t h0 h7 pM pJ).2.2 = pJ := rfl

theorem stepD_tile (c : Dev nD) (t : Fin cfg1.N) (h : t.val % 16 = 8) (pJ : Vec F S1024x1 .f32) :
    (stepD V c t h pJ).2.1 = k1_pay3 (blk V c 0 t) (blk V c 1 t) (k1_pay2 (F := F)) := by
  unfold stepD; dsimp only
  rw [View.read_writes_eq_canon _ _ _ (coverTileD V c t h)]
  unfold runD; dsimp only; sl_unfold_words
  rw [View.canon_cons_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]

theorem stepD_row (c : Dev nD) (t : Fin cfg1.N) (h : t.val % 16 = 8) (pJ : Vec F S1024x1 .f32) :
    (stepD V c t h pJ).2.2 = pJ := rfl

theorem stepC_tile (c : Dev nD) (t : Fin cfg1.N) (h : t.val % 16 = 7) (pM : Vec F S1024x1024 .f32) (pJ : Vec F S1024x1 .f32) :
    (stepC V c t h pM pJ).2.1 = k1_pay3 (blk V c 0 t) (blk V c 1 t) pM := by
  unfold stepC; dsimp only
  rw [View.read_writes_eq_canon _ _ _ (coverTileC V c t h pM pJ)]
  unfold runC; dsimp only; sl_unfold_words
  rw [View.canon_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]
  exact congrArg (k1_pay3 (blk V c 0 t) (blk V c 1 t)) (readTile pM)

theorem stepC_row (c : Dev nD) (t : Fin cfg1.N) (h : t.val % 16 = 7) (pM : Vec F S1024x1024 .f32) (pJ : Vec F S1024x1 .f32) :
    (stepC V c t h pM pJ).2.2 = k1_pay4 (k1_pay3 (blk V c 0 t) (blk V c 1 t) pM) (k1_pay3 (blk V c 0 t) (blk V c 1 t) pM) pJ := by
  unfold stepC; dsimp only
  rw [View.read_writes_eq_canon _ _ _ (coverRowC V c t h pM pJ)]
  unfold runC; dsimp only; sl_unfold_words
  rw [View.canon_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]
  rw [readTile pM, readRow pJ]

theorem stepE_tile (c : Dev nD) (t : Fin cfg1.N) (h : t.val % 16 = 15) (pM : Vec F S1024x1024 .f32) (pJ : Vec F S1024x1 .f32) :
    (stepE V c t h pM pJ).2.1 = k1_pay3 (blk V c 0 t) (blk V c 1 t) pM := by
  unfold stepE; dsimp only
  rw [View.read_writes_eq_canon _ _ _ (coverTileE V c t h pM pJ)]
  unfold runE; dsimp only; sl_unfold_words
  rw [View.canon_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]
  exact congrArg (k1_pay3 (blk V c 0 t) (blk V c 1 t)) (readTile pM)

theorem stepE_row (c : Dev nD) (t : Fin cfg1.N) (h : t.val % 16 = 15) (pM : Vec F S1024x1024 .f32) (pJ : Vec F S1024x1 .f32) :
    (stepE V c t h pM pJ).2.2 = k1_pay4 (k1_pay3 (blk V c 0 t) (blk V c 1 t) pM) (k1_pay3 (blk V c 0 t) (blk V c 1 t) pM) pJ := by
  unfold stepE; dsimp only
  rw [View.read_writes_eq_canon _ _ _ (coverRowE V c t h pM pJ)]
  unfold runE; dsimp only; sl_unfold_words
  rw [View.canon_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]
  rw [readTile pM, readRow pJ]

theorem stepE_out (c : Dev nD) (t : Fin cfg1.N) (h : t.val % 16 = 15) (pM : Vec F S1024x1024 .f32) (pJ : Vec F S1024x1 .f32) :
    (stepE V c t h pM pJ).1 = k1_pay4 (k1_pay3 (blk V c 0 t) (blk V c 1 t) pM) (k1_pay3 (blk V c 0 t) (blk V c 1 t) pM) pJ := by
  unfold stepE; dsimp only
  rw [View.read_writes_eq_canon _ _ _ (coverOutE V c t h pM pJ)]
  unfold runE; dsimp only; sl_unfold_words
  rw [View.canon_unit_zero hz2]
  simp only [View.readAt_eq_ld, Memref.IsWhole.read_unread, View.ld_unit_zero (S := S512x1024) hz2, View.ld_unit_zero (S := S1024x1024) hz2, View.ld_unit_zero (S := S1024x1) hz2, View.readCov_unit_zero (S := S1024x1024) (View.whole cc1_scratch0) hz2, View.readCov_unit_zero (S := S1024x1) (View.whole cc1_scratch1) hz2]
  rw [readTile pM, readRow pJ]

end Cert.KernelIdeal.Ttp

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.TtpPayloads.lean ====
import proofs.«180214_j58918361366660_2_alg».proof.Proof.Gen.KernelIdeal.Skeleton
import proofs.«180214_j58918361366660_2_alg».proof.Proof.LibKeepdims
import Idealize.ShloMosaic.PureOps.Ideal.Laws

/-! The second kernel's stored values read at an entry, over the extended reals with no finiteness assumed: the two
    resets store zero; a step adds to the tile accumulator, at `(a, b)`, the product of column `a` of one slab with
    column `b` of the other (both slabs are contracted along their rows); the fold adds to the row accumulator, at
    row `a`, the sum along the row of the entrywise product of two tiles. -/

noncomputable section

namespace Cert.KernelIdeal.Pay

open Cert.KernelIdeal Cert.KernelIdeal.Gen Idealize.ShloMosaic Idealize.ShloMosaic.ValueIdx
open scoped BigOperators

/-! ## The two resets -/

/-- The row accumulator's reset value is zero at every row. -/
theorem rowReset_apply (a : Fin 1024) : k1_pay1 (F := Ideal) (ix2 a (0 : Fin 1)) = 0 := by
  unfold k1_pay1
  simp only [shapeCast_self]
  exact Ideal.ofBits_zero_f32

/-- The tile accumulator's reset value is zero at every entry. -/
theorem tileReset_apply (a b : Fin 1024) : k1_pay2 (F := Ideal) (ix2 a b) = 0 := by
  unfold k1_pay2
  simp only [shapeCast_self]
  exact Ideal.ofBits_zero_f32

/-! ## One slab's product -/

/-- The operand indices of the contraction at an output index and a contraction index, coordinate by coordinate: both
    operands are contracted along axis 0; axis 1 of the left operand is the output's axis 0, axis 1 of the right its axis 1. -/
theorem slab_lhs_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem slab_lhs_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide),
    dif_pos (show (1 : Fin S512x1024.rank) ∈ dot_S512x1024_S512x1024_S1024x1024_0_0_1_1_n_n.lhsNonContracting by decide)]
  rfl
theorem slab_rhs_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem slab_rhs_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide),
    dif_pos (show (1 : Fin S512x1024.rank) ∈ dot_S512x1024_S512x1024_S1024x1024_0_0_1_1_n_n.rhsNonContracting by decide)]
  rfl

/-- The contraction of two `512 × 1024` slabs along their rows, into the zero splat, at `(a, b)`: the sum over the
    rows `k` of the left slab's entry `(k, a)` times the right slab's entry `(k, b)`. -/
theorem slabProduct_apply (L R : FVec Ideal S512x1024 .bf16) (a b : Fin 1024) :
    FloatOps.matmul dot_S512x1024_S512x1024_S1024x1024_0_0_1_1_n_n none L R
        (constant (F := Ideal) S1024x1024 .f32 0x00000000#32) (ix2 a b)
      = ∑ k : Fin 512, L (ix2 k a) * R (ix2 k b) := by
  rw [Ideal.matmul_constant_zero_apply,
    ← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 a b)
      ((contrEquiv1 dot_S512x1024_S512x1024_S1024x1024_0_0_1_1_n_n 512 rfl rfl).symm k) = ix2 k a :=
    funext fun c => Fin.ext (by
      match c with
      | ⟨0, _⟩ => exact (slab_lhs_0 _ _).trans hk
      | ⟨1, _⟩ => exact slab_lhs_1 _ _)
  have er : dot_S512x1024_S512x1024_S1024x1024_0_0_1_1_n_n.rhsIdx (ix2 a b)
      ((contrEquiv1 dot_S512x1024_S512x1024_S1024x1024_0_0_1_1_n_n 512 rfl rfl).symm k) = ix2 k b :=
    funext fun c => Fin.ext (by
      match c with
      | ⟨0, _⟩ => exact (slab_rhs_0 _ _).trans hk
      | ⟨1, _⟩ => exact slab_rhs_1 _ _)
  rw [el, er]

/-- A step's stored tile: the accumulator's entry plus the slab product's. -/
theorem tileStep_apply (v8 v10 : Vec Ideal S512x1024 .bf16) (v12 : Vec Ideal S1024x1024 .f32) (a b : Fin 1024) :
    k1_pay3 (F := Ideal) v8 v10 v12 (ix2 a b)
      = v12 (ix2 a b) + ∑ k : Fin 512, v8 (ix2 k a) * v10 (ix2 k b) := by
  unfold k1_pay3
  simp only [shapeCast_self]
  exact congrArg (v12 (ix2 a b) + ·) (slabProduct_apply v8 v10 a b)

/-! ## The fold of a finished tile -/

/-- The sum along the lanes of a `1024 × 1024` tile, kept as a `1024 × 1` column, read at row `a`: the sum of the row. -/
theorem tileRowsum_apply (v : FVec Ideal S1024x1024 .f32) (a : Fin 1024) :
    shapeCast S1024x1 (multiReduction .add [1] S1024 v 0x00000000#32 reduces_S1024x1024_S1024 (.inl rfl) rfl)
        shapeCasts_S1024_S1024x1 (ix2 a (0 : Fin 1))
      = ∑ b : Fin 1024, v (ix2 a b) := by
  refine (shapeCast_a_a1_apply _ shapeCasts_S1024_S1024x1 a (0 : Fin 1)).trans ?_
  refine (Ideal.multiReduction_add_single v 0x00000000#32 reduces_S1024x1024_S1024 (.inl rfl) rfl (ix1 a)).trans ?_
  show (∑ b : Fin 1024, v (reduces_S1024x1024_S1024.lift (ix1 a) b)) = _
  refine Finset.sum_congr rfl fun b _ => congrArg v (funext fun c => Fin.ext ?_)
  match c with
  | ⟨0, _⟩ => rfl
  | ⟨1, _⟩ => rfl

/-- The fold's stored column: the row accumulator's entry plus the row's sum of entrywise products. -/
theorem rowFold_apply (v26 v27 : Vec Ideal S1024x1024 .f32) (v31 : Vec Ideal S1024x1 .f32) (a : Fin 1024) :
    k1_pay4 (F := Ideal) v26 v27 v31 (ix2 a (0 : Fin 1))
      = v31 (ix2 a (0 : Fin 1)) + ∑ b : Fin 1024, v26 (ix2 a b) * v27 (ix2 a b) := by
  unfold k1_pay4
  simp only [shapeCast_self]
  exact congrArg (v31 (ix2 a (0 : Fin 1)) + ·) (tileRowsum_apply (mulf v26 v27) a)

end Cert.KernelIdeal.Pay

end
-- ==== Proof.TileSums.lean ====
import Mathlib

/-! Summing a function on `Fin (m * n)` tile by tile: the index `c < m * n` is written uniquely as
    `c = a * n + b` with `a < m` and `b < n`, so the sum over `c` is the iterated sum over `a` and `b`.
    Only commutativity and associativity of `+` are used, so the statement holds in any additive commutative
    monoid (the reals, the extended reals, …). -/

namespace Cert.TileSums

open scoped BigOperators

/-- The flat index of entry `b` of tile `a` is in range. -/
theorem tile_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

variable {M : Type*} [AddCommMonoid M]

/-- The iterated sum over tiles `a < m` and offsets `b < n` equals the flat sum over `Fin (m * n)`. -/
theorem sum_tiles (m n : ℕ) (f : Fin (m * n) → M) :
    (∑ a : Fin m, ∑ b : Fin n, f ⟨a.val * n + b.val, tile_lt a b⟩) = ∑ c : Fin (m * n), f c := by
  rw [← Equiv.sum_comp finProdFinEquiv f, Fintype.sum_prod_type]
  refine Finset.sum_congr rfl (fun a _ => Finset.sum_congr rfl (fun b _ => ?_))
  congr 1
  apply Fin.ext
  show a.val * n + b.val = b.val + n * a.val
  rw [Nat.add_comm, Nat.mul_comm]

/-- The same with the length given as a separate number `N = m * n` (so that it applies when the length is a
    literal such as `2048 = 2 * 1024`) and with an arbitrary proof of the range condition. -/
theorem sum_tiles_of_eq (m n N : ℕ) (hN : m * n = N) (f : Fin N → M)
    (h : ∀ (a : Fin m) (b : Fin n), a.val * n + b.val < N) :
    (∑ a : Fin m, ∑ b : Fin n, f ⟨a.val * n + b.val, h a b⟩) = ∑ c : Fin N, f c := by
  subst hN
  exact sum_tiles m n f

/-- Two tiles of 1024. -/
theorem sum_tiles_2_1024 (f : Fin 2048 → M) (h : ∀ (a : Fin 2) (b : Fin 1024), a.val * 1024 + b.val < 2048) :
    (∑ a : Fin 2, ∑ b : Fin 1024, f ⟨a.val * 1024 + b.val, h a b⟩) = ∑ c : Fin 2048, f c :=
  sum_tiles_of_eq 2 1024 2048 (by norm_num) f h

/-- Eight tiles of 512. -/
theorem sum_tiles_8_512 (f : Fin 4096 → M) (h : ∀ (a : Fin 8) (b : Fin 512), a.val * 512 + b.val < 4096) :
    (∑ a : Fin 8, ∑ b : Fin 512, f ⟨a.val * 512 + b.val, h a b⟩) = ∑ c : Fin 4096, f c :=
  sum_tiles_of_eq 8 512 4096 (by norm_num) f h

end Cert.TileSums
-- ==== Proof.TtpAlgebra.lean ====
import proofs.«180214_j58918361366660_2_alg».proof.Proof.TileSums

/-! The arithmetic of the tiled contraction, over the reals and with the two matrices indexed by natural numbers: one
    slab's product, the tile accumulator after `k + 1` slabs, a finished tile's row sums of squares, the row
    accumulator after `m` finished tiles, and the identity that after both tiles of a block row the row accumulator
    is the row's sum of squares of the full product `Tᵀ P`. -/

noncomputable section

namespace Cert.TtpAlgebra

open scoped BigOperators

/-- A `4096 × 2048` real matrix indexed by natural numbers, zero outside its range. -/
def ext (f : Fin 4096 → Fin 2048 → ℝ) (x y : ℕ) : ℝ :=
  if h : x < 4096 ∧ y < 2048 then f ⟨x, h.1⟩ ⟨y, h.2⟩ else 0

theorem ext_val (f : Fin 4096 → Fin 2048 → ℝ) (x : Fin 4096) (y : Fin 2048) : ext f x.val y.val = f x y := by
  unfold ext; rw [dif_pos ⟨x.isLt, y.isLt⟩]

variable (Tn Pn : ℕ → ℕ → ℝ)

/-- Slab `s` (rows `512 s … 512 s + 511`) of the product of column `i · 1024 + a` of `T` with column `j · 1024 + b` of `P`. -/
def slab (i j s a b : ℕ) : ℝ := ∑ r : Fin 512, Tn (s * 512 + r.val) (i * 1024 + a) * Pn (s * 512 + r.val) (j * 1024 + b)

/-- The tile accumulator of tile `(i, j)` after slabs `0 … k`. -/
def tileAt (i j k a b : ℕ) : ℝ := ∑ s ∈ Finset.range (k + 1), slab Tn Pn i j s a b

/-- The finished tile `(i, j)`: its row `a`'s sum of squares. -/
def tileSq (i j a : ℕ) : ℝ := ∑ b : Fin 1024, tileAt Tn Pn i j 7 a b.val * tileAt Tn Pn i j 7 a b.val

/-- The row accumulator of block row `i` after `m` finished tiles. -/
def rowAt (i m a : ℕ) : ℝ := ∑ j ∈ Finset.range m, tileSq Tn Pn i j a

/-- Row `x` of `Tᵀ P`: its sum of squares. -/
def gram (x : ℕ) : ℝ := ∑ b : Fin 2048, (∑ k : Fin 4096, Tn k.val x * Pn k.val b.val) * (∑ k : Fin 4096, Tn k.val x * Pn k.val b.val)

theorem tileAt_zero (i j a b : ℕ) : tileAt Tn Pn i j 0 a b = slab Tn Pn i j 0 a b := by
  unfold tileAt; rw [Finset.sum_range_one]

theorem tileAt_succ (i j k a b : ℕ) : tileAt Tn Pn i j (k + 1) a b = tileAt Tn Pn i j k a b + slab Tn Pn i j (k + 1) a b := by
  unfold tileAt; rw [Finset.sum_range_succ]

theorem rowAt_zero (i a : ℕ) : rowAt Tn Pn i 0 a = 0 := by
  unfold rowAt; rw [Finset.sum_range_zero]

theorem rowAt_succ (i m a : ℕ) : rowAt Tn Pn i (m + 1) a = rowAt Tn Pn i m a + tileSq Tn Pn i m a := by
  unfold rowAt; rw [Finset.sum_range_succ]

/-- A finished tile's entry is the full contraction over the `4096` rows. -/
theorem tileAt_seven (i j a b : ℕ) :
    tileAt Tn Pn i j 7 a b = ∑ k : Fin 4096, Tn k.val (i * 1024 + a) * Pn k.val (j * 1024 + b) := by
  unfold tileAt slab
  rw [Finset.sum_range]
  exact Cert.TileSums.sum_tiles_8_512
    (fun k : Fin 4096 => Tn k.val (i * 1024 + a) * Pn k.val (j * 1024 + b)) (fun s r => by omega)

/-- After both tiles of block row `i`, the row accumulator at `a` is row `i · 1024 + a` of `Tᵀ P`'s sum of squares. -/
theorem rowAt_two (i a : ℕ) : rowAt Tn Pn i 2 a = gram Tn Pn (i * 1024 + a) := by
  unfold rowAt tileSq gram
  rw [Finset.sum_range]
  simp only [tileAt_seven]
  exact Cert.TileSums.sum_tiles_2_1024
    (fun c : Fin 2048 => (∑ k : Fin 4096, Tn k.val (i * 1024 + a) * Pn k.val c.val)
      * (∑ k : Fin 4096, Tn k.val (i * 1024 + a) * Pn k.val c.val)) (fun j b => by omega)

end Cert.TtpAlgebra

end
-- ==== Proof.TtpValue.lean ====
import proofs.«180214_j58918361366660_2_alg».proof.Proof.TtpRegion
import proofs.«180214_j58918361366660_2_alg».proof.Proof.TtpSteps
import proofs.«180214_j58918361366660_2_alg».proof.Proof.TtpPayloads
import proofs.«180214_j58918361366660_2_alg».proof.Proof.TtpAlgebra

/-! The second region's result in closed form, for finite operands: after the region, row `a` of the result array is
    the sum over `b` of the squares of `(Tᵀ P)(a, b)`.  The blocks a point reads are slabs of the two operands; on
    real data the tile accumulator after each point is a partial contraction and the row accumulator a partial sum of
    finished tiles' row sums of squares (an induction over the points); the block written back at the last point of a
    block row is the row accumulator after both tiles, which is the full sum; the written blocks cover the array. -/

set_option maxRecDepth 16384

noncomputable section

namespace Cert.KernelIdeal.TtpValue

open Cert.KernelIdeal Cert.KernelIdeal.Gen Cert.KernelIdeal.Pay Cert.TtpAlgebra
open Idealize.ShloMosaic Idealize.ShloMosaic.TcCoe Idealize.ShloMosaic.ValueIdx
open Idealize.SL.Sem
open Idealize.ShloMosaic.Pipeline (Dat)
open scoped BigOperators

/-- The coercion of the reals into the extended reals commutes with finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The two accumulating payloads on real data -/

section Payloads
variable (Tn Pn : ℕ → ℕ → ℝ)

/-- A step of the tile accumulator: a real entry plus slab `s` of the product of two real columns. -/
theorem tileStep_real (B0 B1 : Vec Ideal S512x1024 .bf16) (pM : Vec Ideal S1024x1024 .f32) (i j s : ℕ) (x : ℝ)
    (a b : Fin 1024)
    (hB0 : ∀ r : Fin 512, B0 (ix2 r a) = ((Tn (s * 512 + r.val) (i * 1024 + a.val) : ℝ) : EReal))
    (hB1 : ∀ r : Fin 512, B1 (ix2 r b) = ((Pn (s * 512 + r.val) (j * 1024 + b.val) : ℝ) : EReal))
    (hM : pM (ix2 a b) = ((x : ℝ) : EReal)) :
    k1_pay3 (F := Ideal) B0 B1 pM (ix2 a b) = ((x + slab Tn Pn i j s a.val b.val : ℝ) : EReal) := by
  rw [tileStep_apply, hM, EReal.coe_add]
  congr 1
  unfold slab
  rw [← coe_sum]
  refine Finset.sum_congr rfl fun r _ => ?_
  rw [hB0 r, hB1 r, EReal.coe_mul]

/-- The fold of a real tile's row into a real row accumulator. -/
theorem rowFold_real (M : Vec Ideal S1024x1024 .f32) (pJ : Vec Ideal S1024x1 .f32) (a : Fin 1024) (m : Fin 1024 → ℝ)
    (y : ℝ) (hM : ∀ b : Fin 1024, M (ix2 a b) = ((m b : ℝ) : EReal))
    (hJ : pJ (ix2 a (0 : Fin 1)) = ((y : ℝ) : EReal)) :
    k1_pay4 (F := Ideal) M M pJ (ix2 a (0 : Fin 1)) = ((y + ∑ b : Fin 1024, m b * m b : ℝ) : EReal) := by
  rw [rowFold_apply, hJ, EReal.coe_add]
  congr 1
  rw [← coe_sum]
  refine Finset.sum_congr rfl fun b _ => ?_
  rw [hM b, EReal.coe_mul]

end Payloads

/-! ## The blocks a point reads -/

variable (V : (c : Dev nD) → (b : Ref sig .tc) → Buf (Elt Ideal) ((c : Thread nD τ).loc b)) (c : Dev nD)

/-- The two operand arrays as the region finds them. -/
abbrev Tt : S4096x2048.Idx → EReal := V c (Pipeline.arrRef spec1 0)
abbrev Pb : S4096x2048.Idx → EReal := V c (Pipeline.arrRef spec1 1)

/-- The printed index maps over the grid: point `t = 16 i + 8 j + k` reads slab `k` of column block `i` of the first
    operand and of column block `j` of the second, and owns row block `i` of the result. -/
theorem idx_facts : ∀ t : Fin cfg1.N,
    win1_0.index t (0 : Fin 2) = t.val % 8 ∧ win1_0.index t (1 : Fin 2) = t.val / 16
    ∧ win1_1.index t (0 : Fin 2) = t.val % 8 ∧ win1_1.index t (1 : Fin 2) = t.val / 8 % 2
    ∧ win1_2.index t (0 : Fin 2) = t.val / 16 ∧ win1_2.index t (1 : Fin 2) = 0 :=
  (by decide +kernel : ∀ t : Fin grid1.N, _)

/-- The first operand's block at point `t`, entry `(r, a)`: the operand's entry `(512 k + r, 1024 i + a)`. -/
theorem blk0_apply (t : Fin cfg1.N) (r : Fin 512) (a : Fin 1024) (x : Fin 4096) (y : Fin 2048)
    (hx : x.val = t.val % 8 * 512 + r.val) (hy : y.val = t.val / 16 * 1024 + a.val) :
    (Ttp.blk V c 0 t : Vec Ideal S512x1024 .bf16) (ix2 r a) = Tt V c (ix2 x y) := by
  obtain ⟨e0, e1, -⟩ := idx_facts t
  unfold Ttp.blk
  rw [View.read_apply]
  show V c (Pipeline.arrRef spec1 0) _ = V c (Pipeline.arrRef spec1 0) _
  congr 1
  funext d
  apply Fin.ext
  match d with
  | ⟨0, _⟩ => show win1_0.index t (0 : Fin 2) * 512 + 1 * r.val = x.val; rw [e0, hx]; omega
  | ⟨1, _⟩ => show win1_0.index t (1 : Fin 2) * 1024 + 1 * a.val = y.val; rw [e1, hy]; omega

/-- The second operand's block at point `t`, entry `(r, b)`: the operand's entry `(512 k + r, 1024 j + b)`. -/
theorem blk1_apply (t : Fin cfg1.N) (r : Fin 512) (b : Fin 1024) (x : Fin 4096) (y : Fin 2048)
    (hx : x.val = t.val % 8 * 512 + r.val) (hy : y.val = t.val / 8 % 2 * 1024 + b.val) :
    (Ttp.blk V c 1 t : Vec Ideal S512x1024 .bf16) (ix2 r b) = Pb V c (ix2 x y) := by
  obtain ⟨-, -, e0, e1, -⟩ := idx_facts t
  unfold Ttp.blk
  rw [View.read_apply]
  show V c (Pipeline.arrRef spec1 1) _ = V c (Pipeline.arrRef spec1 1) _
  congr 1
  funext d
  apply Fin.ext
  match d with
  | ⟨0, _⟩ => show win1_1.index t (0 : Fin 2) * 512 + 1 * r.val = x.val; rw [e0, hx]; omega
  | ⟨1, _⟩ => show win1_1.index t (1 : Fin 2) * 1024 + 1 * b.val = y.val; rw [e1, hy]; omega

/-! ## On real data -/

section Real
variable (T' P' : Fin 4096 → Fin 2048 → ℝ)
  (hT : ∀ (k : Fin 4096) (a : Fin 2048), Tt V c (ix2 k a) = ((T' k a : ℝ) : EReal))
  (hP : ∀ (k : Fin 4096) (b : Fin 2048), Pb V c (ix2 k b) = ((P' k b : ℝ) : EReal))
include hT hP

theorem blk0_real (t : Fin cfg1.N) (r : Fin 512) (a : Fin 1024) :
    (Ttp.blk V c 0 t : Vec Ideal S512x1024 .bf16) (ix2 r a)
      = ((ext T' (t.val % 8 * 512 + r.val) (t.val / 16 * 1024 + a.val) : ℝ) : EReal) := by
  have hN : t.val < 32 := lt_of_lt_of_eq t.isLt N_1
  rw [blk0_apply V c t r a ⟨t.val % 8 * 512 + r.val, by omega⟩ ⟨t.val / 16 * 1024 + a.val, by omega⟩ rfl rfl, hT,
    ← ext_val T']

theorem blk1_real (t : Fin cfg1.N) (r : Fin 512) (b : Fin 1024) :
    (Ttp.blk V c 1 t : Vec Ideal S512x1024 .bf16) (ix2 r b)
      = ((ext P' (t.val % 8 * 512 + r.val) (t.val / 8 % 2 * 1024 + b.val) : ℝ) : EReal) := by
  have hN : t.val < 32 := lt_of_lt_of_eq t.isLt N_1
  rw [blk1_apply V c t r b ⟨t.val % 8 * 512 + r.val, by omega⟩ ⟨t.val / 8 % 2 * 1024 + b.val, by omega⟩ rfl rfl, hP,
    ← ext_val P']

end Real

/-! ## The three buffers after a point, from the point before -/

/-- The point before `t` is in the grid. -/
theorem pred_lt (t : Fin cfg1.N) : t.val - 1 < cfg1.N := Nat.lt_of_le_of_lt (Nat.sub_le _ _) t.isLt

/-- The tile accumulator after point `t`: a slab product added to zero at the first slab, to the accumulator else. -/
theorem tile_eq (t : Fin cfg1.N) :
    (Ttp.outsAt V c t.val t.isLt).2.1 = k1_pay3 (F := Ideal) (Ttp.blk V c 0 t) (Ttp.blk V c 1 t)
      (if t.val % 8 = 0 then k1_pay2 (F := Ideal) else (Ttp.outsAt V c (t.val - 1) (pred_lt t)).2.1) := by
  have hN : t.val < 32 := lt_of_lt_of_eq t.isLt N_1
  by_cases hA : t.val % 16 = 0
  · rw [Ttp.outsAt_A V c t hA, Ttp.stepA_tile, if_pos (by omega)]
  by_cases hD : t.val % 16 = 8
  · rw [Ttp.outsAt_D V c t hD, Ttp.stepD_tile, if_pos (by omega)]
  by_cases hC : t.val % 16 = 7
  · rw [Ttp.outsAt_C V c t hC, Ttp.stepC_tile, if_neg (by omega)]
  by_cases hE : t.val % 16 = 15
  · rw [Ttp.outsAt_E V c t hE, Ttp.stepE_tile, if_neg (by omega)]
  · rw [Ttp.outsAt_B V c t (by omega) (by omega), Ttp.stepB_tile, if_neg (by omega)]

/-- The row accumulator after point `t`: zero at a block row's first point, the finished tile folded in at a tile's
    last point, unchanged else. -/
theorem row_eq (t : Fin cfg1.N) :
    (Ttp.outsAt V c t.val t.isLt).2.2
      = if t.val % 16 = 0 then k1_pay1 (F := Ideal)
        else if t.val % 8 = 7 then
          k1_pay4 (F := Ideal) (Ttp.outsAt V c t.val t.isLt).2.1 (Ttp.outsAt V c t.val t.isLt).2.1
            (Ttp.outsAt V c (t.val - 1) (pred_lt t)).2.2
        else (Ttp.outsAt V c (t.val - 1) (pred_lt t)).2.2 := by
  have hN : t.val < 32 := lt_of_lt_of_eq t.isLt N_1
  by_cases hA : t.val % 16 = 0
  · rw [if_pos hA, Ttp.outsAt_A V c t hA, Ttp.stepA_row]
  by_cases hD : t.val % 16 = 8
  · rw [if_neg hA, if_neg (by omega), Ttp.outsAt_D V c t hD, Ttp.stepD_row]
  by_cases hC : t.val % 16 = 7
  · rw [if_neg hA, if_pos (by omega), Ttp.outsAt_C V c t hC, Ttp.stepC_row, Ttp.stepC_tile]
  by_cases hE : t.val % 16 = 15
  · rw [if_neg hA, if_pos (by omega), Ttp.outsAt_E V c t hE, Ttp.stepE_row, Ttp.stepE_tile]
  · rw [if_neg hA, if_neg (by omega), Ttp.outsAt_B V c t (by omega) (by omega), Ttp.stepB_row]

/-- The output block after a block row's last point is the row accumulator. -/
theorem out_eq (t : Fin cfg1.N) (hE : t.val % 16 = 15) :
    (Ttp.outsAt V c t.val t.isLt).1 = (Ttp.outsAt V c t.val t.isLt).2.2 := by
  rw [Ttp.outsAt_E V c t hE, Ttp.stepE_out, Ttp.stepE_row]

/-! ## The accumulators after every point, on real data -/

section Real
variable (T' P' : Fin 4096 → Fin 2048 → ℝ)
  (hT : ∀ (k : Fin 4096) (a : Fin 2048), Tt V c (ix2 k a) = ((T' k a : ℝ) : EReal))
  (hP : ∀ (k : Fin 4096) (b : Fin 2048), Pb V c (ix2 k b) = ((P' k b : ℝ) : EReal))
include hT hP

/-- At a tile's first slab the tile accumulator is that slab's product. -/
theorem tile_first (t : Fin cfg1.N) (h8 : t.val % 8 = 0) (a b : Fin 1024) :
    (Ttp.outsAt V c t.val t.isLt).2.1 (ix2 a b)
      = ((tileAt (ext T') (ext P') (t.val / 16) (t.val / 8 % 2) (t.val % 8) a.val b.val : ℝ) : EReal) := by
  rw [tile_eq V c t, if_pos h8]
  refine (tileStep_real (ext T') (ext P') _ _ _ (t.val / 16) (t.val / 8 % 2) (t.val % 8) 0 a b
    (fun r => blk0_real V c T' P' hT hP t r a) (fun r => blk1_real V c T' P' hT hP t r b)
    ((tileReset_apply a b).trans EReal.coe_zero.symm)).trans ?_
  rw [zero_add, h8, tileAt_zero]

/-- At a later slab it is the accumulator before plus that slab's product. -/
theorem tile_next (t : Fin cfg1.N) (h8 : t.val % 8 ≠ 0) (a b : Fin 1024)
    (hprev : (Ttp.outsAt V c (t.val - 1) (pred_lt t)).2.1 (ix2 a b)
      = ((tileAt (ext T') (ext P') ((t.val - 1) / 16) ((t.val - 1) / 8 % 2) ((t.val - 1) % 8) a.val b.val : ℝ) : EReal)) :
    (Ttp.outsAt V c t.val t.isLt).2.1 (ix2 a b)
      = ((tileAt (ext T') (ext P') (t.val / 16) (t.val / 8 % 2) (t.val % 8) a.val b.val : ℝ) : EReal) := by
  have e1 : (t.val - 1) / 16 = t.val / 16 := by omega
  have e2 : (t.val - 1) / 8 % 2 = t.val / 8 % 2 := by omega
  have e3 : t.val % 8 = (t.val - 1) % 8 + 1 := by omega
  rw [e1, e2] at hprev
  rw [tile_eq V c t, if_neg h8]
  refine (tileStep_real (ext T') (ext P') _ _ _ (t.val / 16) (t.val / 8 % 2) (t.val % 8) _ a b
    (fun r => blk0_real V c T' P' hT hP t r a) (fun r => blk1_real V c T' P' hT hP t r b) hprev).trans ?_
  rw [e3, tileAt_succ]

/-- The tile accumulator after point `n = 16 i + 8 j + k`: tile `(i, j)` after slabs `0 … k`. -/
theorem tile_inv (n : ℕ) : ∀ (hn : n < cfg1.N) (a b : Fin 1024),
    (Ttp.outsAt V c n hn).2.1 (ix2 a b)
      = ((tileAt (ext T') (ext P') (n / 16) (n / 8 % 2) (n % 8) a.val b.val : ℝ) : EReal) := by
  induction n with
  | zero => intro hn a b; exact tile_first V c T' P' hT hP ⟨0, hn⟩ rfl a b
  | succ m ih =>
    intro hn a b
    by_cases h8 : (m + 1) % 8 = 0
    · exact tile_first V c T' P' hT hP ⟨m + 1, hn⟩ h8 a b
    · exact tile_next V c T' P' hT hP ⟨m + 1, hn⟩ h8 a b (ih (Nat.lt_of_succ_lt hn) a b)

/-- At a block row's first point the row accumulator is zero. -/
theorem row_first (t : Fin cfg1.N) (h16 : t.val % 16 = 0) (a : Fin 1024) :
    (Ttp.outsAt V c t.val t.isLt).2.2 (ix2 a (0 : Fin 1))
      = ((rowAt (ext T') (ext P') (t.val / 16) ((t.val % 16 + 1) / 8) a.val : ℝ) : EReal) := by
  rw [row_eq V c t, if_pos h16, rowReset_apply, show (t.val % 16 + 1) / 8 = 0 by omega, rowAt_zero, EReal.coe_zero]

/-- At a tile's last point the finished tile's row sums of squares are added. -/
theorem row_fold (t : Fin cfg1.N) (h7 : t.val % 8 = 7) (a : Fin 1024)
    (hprev : (Ttp.outsAt V c (t.val - 1) (pred_lt t)).2.2 (ix2 a (0 : Fin 1))
      = ((rowAt (ext T') (ext P') ((t.val - 1) / 16) (((t.val - 1) % 16 + 1) / 8) a.val : ℝ) : EReal))
    (htile : ∀ b : Fin 1024, (Ttp.outsAt V c t.val t.isLt).2.1 (ix2 a b)
      = ((tileAt (ext T') (ext P') (t.val / 16) (t.val / 8 % 2) (t.val % 8) a.val b.val : ℝ) : EReal)) :
    (Ttp.outsAt V c t.val t.isLt).2.2 (ix2 a (0 : Fin 1))
      = ((rowAt (ext T') (ext P') (t.val / 16) ((t.val % 16 + 1) / 8) a.val : ℝ) : EReal) := by
  have hN : t.val < 32 := lt_of_lt_of_eq t.isLt N_1
  have e1 : (t.val - 1) / 16 = t.val / 16 := by omega
  have e2 : ((t.val - 1) % 16 + 1) / 8 = t.val / 8 % 2 := by omega
  have e3 : (t.val % 16 + 1) / 8 = t.val / 8 % 2 + 1 := by omega
  rw [e1, e2] at hprev
  rw [row_eq V c t, if_neg (by omega), if_pos h7]
  refine (rowFold_real _ _ a _ _ htile hprev).trans ?_
  rw [e3, rowAt_succ, h7, tileSq]

/-- At any other point it is unchanged. -/
theorem row_keep (t : Fin cfg1.N) (h16 : t.val % 16 ≠ 0) (h7 : t.val % 8 ≠ 7) (a : Fin 1024)
    (hprev : (Ttp.outsAt V c (t.val - 1) (pred_lt t)).2.2 (ix2 a (0 : Fin 1))
      = ((rowAt (ext T') (ext P') ((t.val - 1) / 16) (((t.val - 1) % 16 + 1) / 8) a.val : ℝ) : EReal)) :
    (Ttp.outsAt V c t.val t.isLt).2.2 (ix2 a (0 : Fin 1))
      = ((rowAt (ext T') (ext P') (t.val / 16) ((t.val % 16 + 1) / 8) a.val : ℝ) : EReal) := by
  have e1 : (t.val - 1) / 16 = t.val / 16 := by omega
  have e2 : ((t.val - 1) % 16 + 1) / 8 = (t.val % 16 + 1) / 8 := by omega
  rw [e1, e2] at hprev
  rw [row_eq V c t, if_neg h16, if_neg h7]
  exact hprev

/-- The row accumulator after point `n = 16 i + 8 j + k`: block row `i` after its finished tiles. -/
theorem row_inv (n : ℕ) : ∀ (hn : n < cfg1.N) (a : Fin 1024),
    (Ttp.outsAt V c n hn).2.2 (ix2 a (0 : Fin 1))
      = ((rowAt (ext T') (ext P') (n / 16) ((n % 16 + 1) / 8) a.val : ℝ) : EReal) := by
  induction n with
  | zero => intro hn a; exact row_first V c T' P' hT hP ⟨0, hn⟩ rfl a
  | succ m ih =>
    intro hn a
    by_cases h16 : (m + 1) % 16 = 0
    · exact row_first V c T' P' hT hP ⟨m + 1, hn⟩ h16 a
    by_cases h7 : (m + 1) % 8 = 7
    · exact row_fold V c T' P' hT hP ⟨m + 1, hn⟩ h7 a (ih (Nat.lt_of_succ_lt hn) a)
        (fun b => tile_inv V c T' P' hT hP (m + 1) hn a b)
    · exact row_keep V c T' P' hT hP ⟨m + 1, hn⟩ h16 h7 a (ih (Nat.lt_of_succ_lt hn) a)

/-- The output block after a block row's last point: the rows' sums of squares of `Tᵀ P`. -/
theorem out_real (t : Fin cfg1.N) (hE : t.val % 16 = 15) (a : Fin 1024) :
    (Ttp.outsAt V c t.val t.isLt).1 (ix2 a (0 : Fin 1))
      = ((gram (ext T') (ext P') (t.val / 16 * 1024 + a.val) : ℝ) : EReal) := by
  rw [out_eq V c t hE, row_inv V c T' P' hT hP t.val t.isLt a, show (t.val % 16 + 1) / 8 = 2 by omega, rowAt_two]

end Real

/-! ## From the written blocks to the array -/

/-- What the result array ends holding: at row `x`, row `x` of `Tᵀ P`'s sum of squares. -/
def G (T' P' : Fin 4096 → Fin 2048 → ℝ) : S2048x1.Idx → EReal :=
  fun i => ((gram (ext T') (ext P') (i 0).val : ℝ) : EReal)

section Real
variable (T' P' : Fin 4096 → Fin 2048 → ℝ)
  (hT : ∀ (k : Fin 4096) (a : Fin 2048), Tt V c (ix2 k a) = ((T' k a : ℝ) : EReal))
  (hP : ∀ (k : Fin 4096) (b : Fin 2048), Pb V c (ix2 k b) = ((P' k b : ℝ) : EReal))
include hT hP

/-- What a writing point writes back is its block of `G`. -/
theorem flushed_eq (t : Fin cfg1.N) (hf : (cfg1.win 2).flush t = true) :
    (Ttp.dat V c).flushed 2 t = ((cfg1.win 2).blk t).view.read (Elt Ideal) (G T' P') := by
  have hE : t.val % 16 = 15 := (flush1_2 t).mp hf
  obtain ⟨-, -, -, -, e0, e1⟩ := idx_facts t
  show (cfg1.win 2).cut (grid1.coords t) ((Ttp.dat V c).after 2 t) = _
  rw [Ttp.after_2]
  funext j
  obtain ⟨a, u, rfl⟩ : ∃ (a : Fin 1024) (u : Fin 1), j = ix2 a u := ⟨j 0, j 1, eq_ix2 j⟩
  obtain rfl : u = 0 := Subsingleton.elim _ _
  rw [View.read_apply]
  show (Ttp.outsAt V c t.val t.isLt).1 (ix2 a (0 : Fin 1)) = G T' P' (((cfg1.win 2).blk t).view.emb (ix2 a (0 : Fin 1)))
  rw [out_real V c T' P' hT hP t hE a]
  unfold G
  have hx : ((((cfg1.win 2).blk t).view.emb (ix2 a (0 : Fin 1))) 0).val = t.val / 16 * 1024 + a.val := by
    show win1_2.index t (0 : Fin 2) * 1024 + 1 * a.val = _
    rw [e0]; omega
  rw [hx]

end Real

/-- An index of the result array is in point `t`'s block iff each coordinate is in the block's range on its axis. -/
theorem mem_blk (t : Fin cfg1.N) (i : S2048x1.Idx) :
    i ∈ ((cfg1.win 2).blk t).view.set
      ↔ ∀ a : Fin 2, win1_2.index t a * S1024x1.size a ≤ (i a).val ∧ (i a).val < win1_2.index t a * S1024x1.size a + S1024x1.size a := by
  show i ∈ ((View.whole main_v11).slice (win1_2.rect t)).set ↔ _
  rw [View.set_slice_whole, Rect.mem_set_unit]
  exact Iff.rfl

/-- Every row of the result is in the block of the last point of its block row, which writes back. -/
theorem cover (i : S2048x1.Idx) :
    ∃ t : Fin cfg1.N, (cfg1.win 2).flush t = true ∧ i ∈ ((cfg1.win 2).blk t).view.set := by
  have h0 : (i 0).val < 2048 := (i 0).isLt
  have h1 : (i 1).val < 1 := (i 1).isLt
  have hN : cfg1.N = 32 := N_1
  have ht : 16 * ((i 0).val / 1024) + 15 < cfg1.N := by omega
  obtain ⟨-, -, -, -, e0, e1⟩ := idx_facts ⟨16 * ((i 0).val / 1024) + 15, ht⟩
  refine ⟨⟨16 * ((i 0).val / 1024) + 15, ht⟩, (flush1_2 _).mpr (by show (16 * ((i 0).val / 1024) + 15) % 16 = 15; omega), ?_⟩
  rw [mem_blk]
  intro a
  match a with
  | ⟨0, _⟩ =>
    show win1_2.index ⟨16 * ((i 0).val / 1024) + 15, ht⟩ (0 : Fin 2) * 1024 ≤ (i 0).val
      ∧ (i 0).val < win1_2.index ⟨16 * ((i 0).val / 1024) + 15, ht⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win1_2.index ⟨16 * ((i 0).val / 1024) + 15, ht⟩ (1 : Fin 2) * 1 ≤ (i 1).val
      ∧ (i 1).val < win1_2.index ⟨16 * ((i 0).val / 1024) + 15, ht⟩ (1 : Fin 2) * 1 + 1
    rw [e1]
    omega

section Real
variable (T' P' : Fin 4096 → Fin 2048 → ℝ)
  (hT : ∀ (k : Fin 4096) (a : Fin 2048), Tt V c (ix2 k a) = ((T' k a : ℝ) : EReal))
  (hP : ∀ (k : Fin 4096) (b : Fin 2048), Pb V c (ix2 k b) = ((P' k b : ℝ) : EReal))
include hT hP

/-- The result array after the region. -/
theorem final : (Ttp.dat V c).arrAt 2 cfg1.N = G T' P' :=
  (Ttp.dat V c).arrAt_eq_of_cover 2 (G T' P') (flushed_eq V c T' P' hT hP) cover

/-- Row `a` of the result after the region: the sum over `b` of the squares of `(Tᵀ P)(a, b)`. -/
theorem ttp_out (a : Fin 2048) :
    (Ttp.dat V c).arrAt 2 cfg1.N (ix2 a (0 : Fin 1))
      = ((∑ b : Fin 2048, (∑ k : Fin 4096, T' k a * P' k b) * (∑ k : Fin 4096, T' k a * P' k b) : ℝ) : EReal) := by
  rw [final V c T' P' hT hP]
  show ((gram (ext T') (ext P') a.val : ℝ) : EReal) = _
  unfold gram
  simp only [ext_val]

end Real

end Cert.KernelIdeal.TtpValue

end
-- ==== Proof.FocalPayloads.lean ====
import proofs.«180214_j58918361366660_2_alg».proof.Proof.Gen.KernelIdeal.Skeleton
import proofs.«180214_j58918361366660_2_alg».proof.Proof.Spec
import proofs.«180214_j58918361366660_2_alg».proof.Proof.LibKeepdims
import Idealize.ShloMosaic.Lib.IdealHost

/-! The first kernel's stored values read at an entry of a block, for a block row whose logits and targets are finite:
    the stored probabilities are the logistic function of the logits, the stored targets are the targets, and the three
    stored columns are the row sums of the focal term, of the squared probabilities and of the squared targets. -/

noncomputable section

namespace Cert.KernelIdeal.Pay

open Cert.KernelIdeal Cert.KernelIdeal.Gen Idealize.ShloMosaic Idealize.ShloMosaic.ValueIdx
open scoped BigOperators

/-! ## Words and coercions -/

/-- The f32 pattern `0x3E800000` is the real one quarter. -/
theorem ofBits_quarter_f32 : Ideal.ofBits .f32 0x3E800000#32 = (((1 : ℝ) / 4 : ℝ) : EReal) := by
  simp [Ideal.ofBits, Ideal.ieee, -EReal.coe_mul]; norm_num

/-- The coercion of the reals into the extended reals commutes with finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- … and with the maximum of two reals. -/
theorem coe_max (x y : ℝ) : ((max x y : ℝ) : EReal) = max (x : EReal) (y : EReal) :=
  EReal.coe_strictMono.monotone.map_max

/-! ## A row sum kept as a column -/

/-- The sum along the lanes of a `512 × 2048` block, kept as a `512 × 1` column, read at row `r`: the sum of the row. -/
theorem rowsum_apply (v : FVec Ideal S512x2048 .f32) (r : Fin 512) :
    shapeCast S512x1 (multiReduction .add [1] S512 v 0x00000000#32 reduces_S512x2048_S512 (.inl rfl) rfl)
        shapeCasts_S512_S512x1 (ix2 r (0 : Fin 1))
      = ∑ l : Fin 2048, v (ix2 r l) := by
  refine (shapeCast_a_a1_apply _ shapeCasts_S512_S512x1 r (0 : Fin 1)).trans ?_
  refine (Ideal.multiReduction_add_single v 0x00000000#32 reduces_S512x2048_S512 (.inl rfl) rfl (ix1 r)).trans ?_
  show (∑ l : Fin 2048, v (reduces_S512x2048_S512.lift (ix1 r) l)) = _
  refine Finset.sum_congr rfl fun l _ => congrArg v (funext fun a => Fin.ext ?_)
  match a with
  | ⟨0, _⟩ => rfl
  | ⟨1, _⟩ => rfl

/-! ## The focal term at one entry -/

/-- The kernel's focal term at finite logit `x` and target `t`, as the extended reals compute it, is the real focal
    term: every intermediate value is finite, and `1 + e^{-|x|}` is positive. -/
theorem focal_point (x t : ℝ) :
    (Ideal.ofBits .f32 0x3E800000#32
        * ((Ideal.ofBits .f32 0x3F800000#32 - Ideal.logistic (x : EReal))
            * (Ideal.ofBits .f32 0x3F800000#32 - Ideal.logistic (x : EReal))))
      * ((max (x : EReal) (Ideal.ofBits .f32 0x00000000#32) - (x : EReal) * (t : EReal))
          + Ideal.log1p (Ideal.exp (Ideal.ofBits .f32 0x00000000#32 - max (x : EReal) (-(x : EReal)))))
      = ((Cert.Spec.focal x t : ℝ) : EReal) := by
  have hpos : ¬ (1 + Real.exp (0 - max x (-x)) ≤ 0) := not_le.mpr (by positivity)
  rw [ofBits_quarter_f32, Ideal.ofBits_one_f32, Ideal.ofBits_zero_f32, Ideal.logistic_coe, Ideal.log1p]
  rw [← EReal.coe_one, ← EReal.coe_zero]
  simp only [← EReal.coe_sub, ← EReal.coe_mul, ← EReal.coe_neg, ← coe_max, ← EReal.coe_add, Ideal.exp_coe,
    Ideal.log_coe, if_neg hpos]
  unfold Cert.Spec.focal Cert.Spec.sigm Cert.Spec.bce
  simp only [one_div, abs_eq_max_neg, zero_sub]

/-! ## The stored values at an entry -/

section
variable (x0 x1 : Vec Ideal S512x2048 .f32) (r : Fin 512) (X T : Fin 2048 → ℝ)

/-- The stored probabilities: the logistic function of the logit (the narrowing to bf16 is the identity here). -/
theorem probs_apply (hx : ∀ l, x0 (ix2 r l) = ((X l : ℝ) : EReal)) (l : Fin 2048) :
    k0_pay3 (F := Ideal) x0 (ix2 r l) = ((Cert.Spec.sigm (X l) : ℝ) : EReal) := by
  show Ideal.logistic (x0 (ix2 r l)) = _
  rw [hx l, Ideal.logistic_coe, Cert.Spec.sigm, one_div]

/-- The stored targets: the targets. -/
theorem targets_apply (ht : ∀ l, x1 (ix2 r l) = ((T l : ℝ) : EReal)) (l : Fin 2048) :
    k0_pay4 (F := Ideal) x1 (ix2 r l) = ((T l : ℝ) : EReal) := ht l

/-- The focal column: the row's sum of focal terms. -/
theorem focalSum_apply (hx : ∀ l, x0 (ix2 r l) = ((X l : ℝ) : EReal)) (ht : ∀ l, x1 (ix2 r l) = ((T l : ℝ) : EReal)) :
    k0_pay2 (F := Ideal) x0 x1 (ix2 r (0 : Fin 1)) = ((∑ l, Cert.Spec.focal (X l) (T l) : ℝ) : EReal) := by
  refine (rowsum_apply _ r).trans ?_
  refine Eq.trans (Finset.sum_congr rfl fun l _ => ?_) (coe_sum Finset.univ fun l => Cert.Spec.focal (X l) (T l))
  refine Eq.trans ?_ (focal_point (X l) (T l))
  rw [← hx l, ← ht l]
  rfl

/-- The squared-probability column: the row's sum of squared probabilities. -/
theorem probSqSum_apply (hx : ∀ l, x0 (ix2 r l) = ((X l : ℝ) : EReal)) :
    k0_pay5 (F := Ideal) x0 (ix2 r (0 : Fin 1))
      = ((∑ l, Cert.Spec.sigm (X l) * Cert.Spec.sigm (X l) : ℝ) : EReal) := by
  refine (rowsum_apply _ r).trans ?_
  refine Eq.trans (Finset.sum_congr rfl fun l _ => ?_)
    (coe_sum Finset.univ fun l => Cert.Spec.sigm (X l) * Cert.Spec.sigm (X l))
  show Ideal.logistic (x0 (ix2 r l)) * Ideal.logistic (x0 (ix2 r l)) = _
  rw [hx l, Ideal.logistic_coe, ← EReal.coe_mul, Cert.Spec.sigm, one_div]

/-- The squared-target column: the row's sum of squared targets. -/
theorem targetSqSum_apply (ht : ∀ l, x1 (ix2 r l) = ((T l : ℝ) : EReal)) :
    k0_pay6 (F := Ideal) x1 (ix2 r (0 : Fin 1)) = ((∑ l, T l * T l : ℝ) : EReal) := by
  refine (rowsum_apply _ r).trans ?_
  refine Eq.trans (Finset.sum_congr rfl fun l _ => ?_) (coe_sum Finset.univ fun l => T l * T l)
  show x1 (ix2 r l) * x1 (ix2 r l) = _
  rw [ht l, ← EReal.coe_mul]

end

end Cert.KernelIdeal.Pay

end
-- ==== Proof.FocalValue.lean ====
import proofs.«180214_j58918361366660_2_alg».proof.Proof.FocalRegion
import proofs.«180214_j58918361366660_2_alg».proof.Proof.FocalPayloads
import proofs.«180214_j58918361366660_2_alg».proof.Proof.Spec
import Idealize.ShloMosaic.Lib.Pipeline.Value
import Idealize.ShloMosaic.Lib.ValueIdx

/-! What the five output arrays of the first kernel region hold after the region, each as one function of the two
    argument arrays: the region walks eight blocks of 512 rows, the block at point t holding rows 512 t to 512 t + 511,
    every output block is a function of the two input blocks of the same rows, and the eight blocks tile each array. -/

set_option maxRecDepth 16384

noncomputable section

namespace Cert.KernelIdeal.FocalValue

open Cert.KernelIdeal Cert.KernelIdeal.Gen Cert.KernelIdeal.Focal
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The grid has eight points. -/
theorem pt_lt (t : Fin cfg0.N) : t.val < 8 := lt_of_lt_of_eq t.isLt N_0

/-- The index maps of the seven windows: at each of the eight grid points t, every window's block is row block t
    and column block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row r of block t is row 512 t + r of the array. -/
def row (t : Fin cfg0.N) (r : Fin 512) : Fin 4096 := ⟨512 * t.val + r.val, by have := pt_lt t; have := r.isLt; omega⟩

/-- The logits block at point t, entry (r, l): the logits array at row 512 t + r. -/
theorem blk0_apply (c : Dev nD) (t : Fin cfg0.N) (r : Fin 512) (l : Fin 2048) :
    (blk V c 0 t : Vec Ideal S512x2048 .f32) (ix2 r l)
      = (V c main_arg0 : S4096x2048.Idx → EReal) (ix2 (row t r) l) := by
  obtain ⟨e0, e1, -⟩ := idx_facts t
  unfold blk
  rw [View.read_apply]
  show V c main_arg0 _ = V c main_arg0 _
  congr 1
  funext a
  apply Fin.ext
  match a with
  | ⟨0, _⟩ => show win0_0.index t (0 : Fin 2) * 512 + 1 * r.val = 512 * t.val + r.val; omega
  | ⟨1, _⟩ => show win0_0.index t (1 : Fin 2) * 2048 + 1 * l.val = l.val; omega

/-- The targets block at point t, entry (r, l): the targets array at row 512 t + r. -/
theorem blk1_apply (c : Dev nD) (t : Fin cfg0.N) (r : Fin 512) (l : Fin 2048) :
    (blk V c 1 t : Vec Ideal S512x2048 .f32) (ix2 r l)
      = (V c main_arg1 : S4096x2048.Idx → EReal) (ix2 (row t r) l) := by
  obtain ⟨-, -, e0, e1, -⟩ := idx_facts t
  unfold blk
  rw [View.read_apply]
  show V c main_arg1 _ = V c main_arg1 _
  congr 1
  funext a
  apply Fin.ext
  match a with
  | ⟨0, _⟩ => show win0_1.index t (0 : Fin 2) * 512 + 1 * r.val = 512 * t.val + r.val; omega
  | ⟨1, _⟩ => show win0_1.index t (1 : Fin 2) * 2048 + 1 * l.val = l.val; omega

/-! ## The focal row sums (output window 2) -/

/-- The whole column, row by row. -/
def focalArr (X T : Fin 4096 → Fin 2048 → ℝ) : S4096x1.Idx → Elt Ideal .f32 :=
  fun i => ((∑ l, Spec.focal (X (i 0) l) (T (i 0) l) : ℝ) : EReal)

/-- What point t writes back is block t of that column. -/
theorem flushed2_eq (c : Dev nD) (X T : Fin 4096 → Fin 2048 → ℝ)
    (hX : ∀ (i : Fin 4096) (l : Fin 2048), (V c main_arg0 : S4096x2048.Idx → EReal) (ix2 i l) = ((X i l : ℝ) : EReal))
    (hT : ∀ (i : Fin 4096) (l : Fin 2048), (V c main_arg1 : S4096x2048.Idx → EReal) (ix2 i l) = ((T i l : ℝ) : EReal))
    (t : Fin cfg0.N) :
    (dat V c).flushed 2 t = ((cfg0.win 2).blk t).view.read (Elt Ideal) (focalArr X T) := by
  show (cfg0.win 2).cut (grid0.coords t) ((dat V c).after 2 t) = _
  rw [after_2]
  unfold focalSums
  rw [View.canon_unit_zero hz]
  simp only [View.ld_unit_zero (S := S512x2048) hz]
  funext j
  obtain ⟨r, z, rfl⟩ : ∃ (r : Fin 512) (z : Fin 1), j = ix2 r z := ⟨j 0, j 1, eq_ix2 j⟩
  obtain rfl : z = 0 := Subsingleton.elim _ _
  show k0_pay2 (F := Ideal) (blk V c 0 t) (blk V c 1 t) (ix2 r (0 : Fin 1))
    = focalArr X T (((cfg0.win 2).blk t).view.emb (ix2 r (0 : Fin 1)))
  have he : ((cfg0.win 2).blk t).view.emb (ix2 r (0 : Fin 1)) = (ix2 (row t r) (0 : Fin 1) : S4096x1.Idx) := by
    obtain ⟨-, -, -, -, e0, e1, -⟩ := idx_facts t
    funext a
    apply Fin.ext
    match a with
    | ⟨0, _⟩ => show win0_2.index t (0 : Fin 2) * 512 + 1 * r.val = 512 * t.val + r.val; omega
    | ⟨1, _⟩ => show win0_2.index t (1 : Fin 2) * 1 + 1 * 0 = 0; omega
  rw [he]
  exact Pay.focalSum_apply (blk V c 0 t) (blk V c 1 t) r (fun l => X (row t r) l) (fun l => T (row t r) l)
    (fun l => by rw [blk0_apply]; exact hX _ _) (fun l => by rw [blk1_apply]; exact hT _ _)

/-- An index of the column is in point t's block iff each coordinate is in the block's range on its axis. -/
theorem mem_blk2 (t : Fin cfg0.N) (i : S4096x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v0_0).slice (win0_2.rect t)).set ↔ _
  rw [View.set_slice_whole, Rect.mem_set_unit]
  exact Iff.rfl

/-- Row i lies in the block of point i / 512. -/
theorem cover2 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 8 := N_0
  have hlt : (i 0).val / 512 < cfg0.N := by rw [hN]; omega
  obtain ⟨-, -, -, -, e0, e1, -⟩ := idx_facts ⟨(i 0).val / 512, hlt⟩
  refine ⟨⟨(i 0).val / 512, hlt⟩, flush0_2 _, ?_⟩
  rw [mem_blk2]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, hlt⟩ (1 : Fin 2) * 1 ≤ (i 1).val
      ∧ (i 1).val < win0_2.index ⟨(i 0).val / 512, hlt⟩ (1 : Fin 2) * 1 + 1
    rw [e1]; omega

/-- After the region the array holds that column. -/
theorem final2 (c : Dev nD) (X T : Fin 4096 → Fin 2048 → ℝ)
    (hX : ∀ (i : Fin 4096) (l : Fin 2048), (V c main_arg0 : S4096x2048.Idx → EReal) (ix2 i l) = ((X i l : ℝ) : EReal))
    (hT : ∀ (i : Fin 4096) (l : Fin 2048), (V c main_arg1 : S4096x2048.Idx → EReal) (ix2 i l) = ((T i l : ℝ) : EReal)) :
    (dat V c).arrAt 2 cfg0.N = focalArr X T :=
  (dat V c).arrAt_eq_of_cover 2 (focalArr X T) (fun t _ => flushed2_eq V c X T hX hT t) cover2

theorem focal_final (c : Dev nD) (X T : Fin 4096 → Fin 2048 → ℝ)
    (hX : ∀ (i : Fin 4096) (l : Fin 2048), (V c main_arg0 : S4096x2048.Idx → EReal) (ix2 i l) = ((X i l : ℝ) : EReal))
    (hT : ∀ (i : Fin 4096) (l : Fin 2048), (V c main_arg1 : S4096x2048.Idx → EReal) (ix2 i l) = ((T i l : ℝ) : EReal))
    (i : Fin 4096) :
    ((dat V c).arrAt 2 cfg0.N : S4096x1.Idx → EReal) (ix2 i (0 : Fin 1)) = ((∑ l, Spec.focal (X i l) (T i l) : ℝ) : EReal) := by
  rw [final2 V c X T hX hT]; rfl

/-! ## The squared-probability row sums (output window 3) -/

/-- The whole column, row by row. -/
def probSqArr (X : Fin 4096 → Fin 2048 → ℝ) : S4096x1.Idx → Elt Ideal .f32 :=
  fun i => ((∑ l, Spec.sigm (X (i 0) l) * Spec.sigm (X (i 0) l) : ℝ) : EReal)

/-- What point t writes back is block t of that column. -/
theorem flushed3_eq (c : Dev nD) (X : Fin 4096 → Fin 2048 → ℝ)
    (hX : ∀ (i : Fin 4096) (l : Fin 2048), (V c main_arg0 : S4096x2048.Idx → EReal) (ix2 i l) = ((X i l : ℝ) : EReal))
    (t : Fin cfg0.N) :
    (dat V c).flushed 3 t = ((cfg0.win 3).blk t).view.read (Elt Ideal) (probSqArr X) := by
  show (cfg0.win 3).cut (grid0.coords t) ((dat V c).after 3 t) = _
  rw [after_3]
  unfold probSqSums
  rw [View.canon_unit_zero hz]
  simp only [View.ld_unit_zero (S := S512x2048) hz]
  funext j
  obtain ⟨r, z, rfl⟩ : ∃ (r : Fin 512) (z : Fin 1), j = ix2 r z := ⟨j 0, j 1, eq_ix2 j⟩
  obtain rfl : z = 0 := Subsingleton.elim _ _
  show k0_pay5 (F := Ideal) (blk V c 0 t) (ix2 r (0 : Fin 1))
    = probSqArr X (((cfg0.win 3).blk t).view.emb (ix2 r (0 : Fin 1)))
  have he : ((cfg0.win 3).blk t).view.emb (ix2 r (0 : Fin 1)) = (ix2 (row t r) (0 : Fin 1) : S4096x1.Idx) := by
    obtain ⟨-, -, -, -, -, -, e0, e1, -⟩ := idx_facts t
    funext a
    apply Fin.ext
    match a with
    | ⟨0, _⟩ => show win0_3.index t (0 : Fin 2) * 512 + 1 * r.val = 512 * t.val + r.val; omega
    | ⟨1, _⟩ => show win0_3.index t (1 : Fin 2) * 1 + 1 * 0 = 0; omega
  rw [he]
  exact Pay.probSqSum_apply (blk V c 0 t) r (fun l => X (row t r) l) (fun l => by rw [blk0_apply]; exact hX _ _)

/-- An index of the column is in point t's block iff each coordinate is in the block's range on its axis. -/
theorem mem_blk3 (t : Fin cfg0.N) (i : S4096x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v0_1).slice (win0_3.rect t)).set ↔ _
  rw [View.set_slice_whole, Rect.mem_set_unit]
  exact Iff.rfl

/-- Row i lies in the block of point i / 512. -/
theorem cover3 (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 8 := N_0
  have hlt : (i 0).val / 512 < cfg0.N := by rw [hN]; omega
  obtain ⟨-, -, -, -, -, -, e0, e1, -⟩ := idx_facts ⟨(i 0).val / 512, hlt⟩
  refine ⟨⟨(i 0).val / 512, hlt⟩, flush0_3 _, ?_⟩
  rw [mem_blk3]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hlt⟩ (1 : Fin 2) * 1 ≤ (i 1).val
      ∧ (i 1).val < win0_3.index ⟨(i 0).val / 512, hlt⟩ (1 : Fin 2) * 1 + 1
    rw [e1]; omega

/-- After the region the array holds that column. -/
theorem final3 (c : Dev nD) (X : Fin 4096 → Fin 2048 → ℝ)
    (hX : ∀ (i : Fin 4096) (l : Fin 2048), (V c main_arg0 : S4096x2048.Idx → EReal) (ix2 i l) = ((X i l : ℝ) : EReal)) :
    (dat V c).arrAt 3 cfg0.N = probSqArr X :=
  (dat V c).arrAt_eq_of_cover 3 (probSqArr X) (fun t _ => flushed3_eq V c X hX t) cover3

theorem probSq_final (c : Dev nD) (X : Fin 4096 → Fin 2048 → ℝ)
    (hX : ∀ (i : Fin 4096) (l : Fin 2048), (V c main_arg0 : S4096x2048.Idx → EReal) (ix2 i l) = ((X i l : ℝ) : EReal))
    (i : Fin 4096) :
    ((dat V c).arrAt 3 cfg0.N : S4096x1.Idx → EReal) (ix2 i (0 : Fin 1)) = ((∑ l, Spec.sigm (X i l) * Spec.sigm (X i l) : ℝ) : EReal) := by
  rw [final3 V c X hX]; rfl

/-! ## The squared-target row sums (output window 4) -/

/-- The whole column, row by row. -/
def targetSqArr (T : Fin 4096 → Fin 2048 → ℝ) : S4096x1.Idx → Elt Ideal .f32 :=
  fun i => ((∑ l, T (i 0) l * T (i 0) l : ℝ) : EReal)

/-- What point t writes back is block t of that column. -/
theorem flushed4_eq (c : Dev nD) (T : Fin 4096 → Fin 2048 → ℝ)
    (hT : ∀ (i : Fin 4096) (l : Fin 2048), (V c main_arg1 : S4096x2048.Idx → EReal) (ix2 i l) = ((T i l : ℝ) : EReal))
    (t : Fin cfg0.N) :
    (dat V c).flushed 4 t = ((cfg0.win 4).blk t).view.read (Elt Ideal) (targetSqArr T) := by
  show (cfg0.win 4).cut (grid0.coords t) ((dat V c).after 4 t) = _
  rw [after_4]
  unfold targetSqSums
  rw [View.canon_unit_zero hz]
  simp only [View.ld_unit_zero (S := S512x2048) hz]
  funext j
  obtain ⟨r, z, rfl⟩ : ∃ (r : Fin 512) (z : Fin 1), j = ix2 r z := ⟨j 0, j 1, eq_ix2 j⟩
  obtain rfl : z = 0 := Subsingleton.elim _ _
  show k0_pay6 (F := Ideal) (blk V c 1 t) (ix2 r (0 : Fin 1))
    = targetSqArr T (((cfg0.win 4).blk t).view.emb (ix2 r (0 : Fin 1)))
  have he : ((cfg0.win 4).blk t).view.emb (ix2 r (0 : Fin 1)) = (ix2 (row t r) (0 : Fin 1) : S4096x1.Idx) := by
    obtain ⟨-, -, -, -, -, -, -, -, e0, e1, -⟩ := idx_facts t
    funext a
    apply Fin.ext
    match a with
    | ⟨0, _⟩ => show win0_4.index t (0 : Fin 2) * 512 + 1 * r.val = 512 * t.val + r.val; omega
    | ⟨1, _⟩ => show win0_4.index t (1 : Fin 2) * 1 + 1 * 0 = 0; omega
  rw [he]
  exact Pay.targetSqSum_apply (blk V c 1 t) r (fun l => T (row t r) l) (fun l => by rw [blk1_apply]; exact hT _ _)

/-- An index of the column is in point t's block iff each coordinate is in the block's range on its axis. -/
theorem mem_blk4 (t : Fin cfg0.N) (i : S4096x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v0_2).slice (win0_4.rect t)).set ↔ _
  rw [View.set_slice_whole, Rect.mem_set_unit]
  exact Iff.rfl

/-- Row i lies in the block of point i / 512. -/
theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 8 := N_0
  have hlt : (i 0).val / 512 < cfg0.N := by rw [hN]; omega
  obtain ⟨-, -, -, -, -, -, -, -, e0, e1, -⟩ := idx_facts ⟨(i 0).val / 512, hlt⟩
  refine ⟨⟨(i 0).val / 512, hlt⟩, flush0_4 _, ?_⟩
  rw [mem_blk4]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_4.index ⟨(i 0).val / 512, hlt⟩ (1 : Fin 2) * 1 ≤ (i 1).val
      ∧ (i 1).val < win0_4.index ⟨(i 0).val / 512, hlt⟩ (1 : Fin 2) * 1 + 1
    rw [e1]; omega

/-- After the region the array holds that column. -/
theorem final4 (c : Dev nD) (T : Fin 4096 → Fin 2048 → ℝ)
    (hT : ∀ (i : Fin 4096) (l : Fin 2048), (V c main_arg1 : S4096x2048.Idx → EReal) (ix2 i l) = ((T i l : ℝ) : EReal)) :
    (dat V c).arrAt 4 cfg0.N = targetSqArr T :=
  (dat V c).arrAt_eq_of_cover 4 (targetSqArr T) (fun t _ => flushed4_eq V c T hT t) cover4

theorem targetSq_final (c : Dev nD) (T : Fin 4096 → Fin 2048 → ℝ)
    (hT : ∀ (i : Fin 4096) (l : Fin 2048), (V c main_arg1 : S4096x2048.Idx → EReal) (ix2 i l) = ((T i l : ℝ) : EReal))
    (i : Fin 4096) :
    ((dat V c).arrAt 4 cfg0.N : S4096x1.Idx → EReal) (ix2 i (0 : Fin 1)) = ((∑ l, T i l * T i l : ℝ) : EReal) := by
  rw [final4 V c T hT]; rfl

/-! ## The rounded probabilities (output window 5) -/

/-- The whole array of probabilities: the logistic function of the logits, entry by entry. -/
def probsArr (X : Fin 4096 → Fin 2048 → ℝ) : S4096x2048.Idx → Elt Ideal .bf16 :=
  fun i => ((Spec.sigm (X (i 0) (i 1)) : ℝ) : EReal)

/-- What point t writes back is block t of the array of probabilities. -/
theorem flushed5_eq (c : Dev nD) (X : Fin 4096 → Fin 2048 → ℝ)
    (hX : ∀ (i : Fin 4096) (l : Fin 2048), (V c main_arg0 : S4096x2048.Idx → EReal) (ix2 i l) = ((X i l : ℝ) : EReal))
    (t : Fin cfg0.N) :
    (dat V c).flushed 5 t = ((cfg0.win 5).blk t).view.read (Elt Ideal) (probsArr X) := by
  show (cfg0.win 5).cut (grid0.coords t) ((dat V c).after 5 t) = _
  rw [after_5]
  unfold roundedProbs
  rw [View.canon_unit_zero hz]
  simp only [View.ld_unit_zero (S := S512x2048) hz]
  funext j
  obtain ⟨r, l, rfl⟩ : ∃ (r : Fin 512) (l : Fin 2048), j = ix2 r l := ⟨j 0, j 1, eq_ix2 j⟩
  show k0_pay3 (F := Ideal) (blk V c 0 t) (ix2 r l) = probsArr X (((cfg0.win 5).blk t).view.emb (ix2 r l))
  have he : ((cfg0.win 5).blk t).view.emb (ix2 r l) = (ix2 (row t r) l : S4096x2048.Idx) := by
    obtain ⟨-, -, -, -, -, -, -, -, -, -, e0, e1, -⟩ := idx_facts t
    funext a
    apply Fin.ext
    match a with
    | ⟨0, _⟩ => show win0_5.index t (0 : Fin 2) * 512 + 1 * r.val = 512 * t.val + r.val; omega
    | ⟨1, _⟩ => show win0_5.index t (1 : Fin 2) * 2048 + 1 * l.val = l.val; omega
  rw [he]
  exact Pay.probs_apply (blk V c 0 t) r (fun l => X (row t r) l) (fun l => by rw [blk0_apply]; exact hX _ _) l

/-- An index of the array is in point t's block iff each coordinate is in the block's range on its axis. -/
theorem mem_blk5 (t : Fin cfg0.N) (i : S4096x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v0_3).slice (win0_5.rect t)).set ↔ _
  rw [View.set_slice_whole, Rect.mem_set_unit]
  exact Iff.rfl

/-- Row i lies in the block of point i / 512. -/
theorem cover5 (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  have hN : cfg0.N = 8 := N_0
  have hlt : (i 0).val / 512 < cfg0.N := by rw [hN]; omega
  obtain ⟨-, -, -, -, -, -, -, -, -, -, e0, e1, -⟩ := idx_facts ⟨(i 0).val / 512, hlt⟩
  refine ⟨⟨(i 0).val / 512, hlt⟩, flush0_5 _, ?_⟩
  rw [mem_blk5]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hlt⟩ (1 : Fin 2) * 2048 ≤ (i 1).val
      ∧ (i 1).val < win0_5.index ⟨(i 0).val / 512, hlt⟩ (1 : Fin 2) * 2048 + 2048
    rw [e1]; omega

/-- After the region the array holds the probabilities. -/
theorem final5 (c : Dev nD) (X : Fin 4096 → Fin 2048 → ℝ)
    (hX : ∀ (i : Fin 4096) (l : Fin 2048), (V c main_arg0 : S4096x2048.Idx → EReal) (ix2 i l) = ((X i l : ℝ) : EReal)) :
    (dat V c).arrAt 5 cfg0.N = probsArr X :=
  (dat V c).arrAt_eq_of_cover 5 (probsArr X) (fun t _ => flushed5_eq V c X hX t) cover5

theorem probs_final (c : Dev nD) (X : Fin 4096 → Fin 2048 → ℝ)
    (hX : ∀ (i : Fin 4096) (l : Fin 2048), (V c main_arg0 : S4096x2048.Idx → EReal) (ix2 i l) = ((X i l : ℝ) : EReal))
    (i : Fin 4096) (l : Fin 2048) :
    ((dat V c).arrAt 5 cfg0.N : S4096x2048.Idx → EReal) (ix2 i l) = ((Spec.sigm (X i l) : ℝ) : EReal) := by
  rw [final5 V c X hX]; rfl

/-! ## The rounded targets (output window 6) -/

/-- The whole array of targets, entry by entry. -/
def targetsArr (T : Fin 4096 → Fin 2048 → ℝ) : S4096x2048.Idx → Elt Ideal .bf16 :=
  fun i => ((T (i 0) (i 1) : ℝ) : EReal)

/-- What point t writes back is block t of the array of targets. -/
theorem flushed6_eq (c : Dev nD) (T : Fin 4096 → Fin 2048 → ℝ)
    (hT : ∀ (i : Fin 4096) (l : Fin 2048), (V c main_arg1 : S4096x2048.Idx → EReal) (ix2 i l) = ((T i l : ℝ) : EReal))
    (t : Fin cfg0.N) :
    (dat V c).flushed 6 t = ((cfg0.win 6).blk t).view.read (Elt Ideal) (targetsArr T) := by
  show (cfg0.win 6).cut (grid0.coords t) ((dat V c).after 6 t) = _
  rw [after_6]
  unfold roundedTargets
  rw [View.canon_unit_zero hz]
  simp only [View.ld_unit_zero (S := S512x2048) hz]
  funext j
  obtain ⟨r, l, rfl⟩ : ∃ (r : Fin 512) (l : Fin 2048), j = ix2 r l := ⟨j 0, j 1, eq_ix2 j⟩
  show k0_pay4 (F := Ideal) (blk V c 1 t) (ix2 r l) = targetsArr T (((cfg0.win 6).blk t).view.emb (ix2 r l))
  have he : ((cfg0.win 6).blk t).view.emb (ix2 r l) = (ix2 (row t r) l : S4096x2048.Idx) := by
    obtain ⟨-, -, -, -, -, -, -, -, -, -, -, -, e0, e1⟩ := idx_facts t
    funext a
    apply Fin.ext
    match a with
    | ⟨0, _⟩ => show win0_6.index t (0 : Fin 2) * 512 + 1 * r.val = 512 * t.val + r.val; omega
    | ⟨1, _⟩ => show win0_6.index t (1 : Fin 2) * 2048 + 1 * l.val = l.val; omega
  rw [he]
  exact Pay.targets_apply (blk V c 1 t) r (fun l => T (row t r) l) (fun l => by rw [blk1_apply]; exact hT _ _) l

/-- An index of the array is in point t's block iff each coordinate is in the block's range on its axis. -/
theorem mem_blk6 (t : Fin cfg0.N) (i : S4096x2048.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v0_4).slice (win0_6.rect t)).set ↔ _
  rw [View.set_slice_whole, Rect.mem_set_unit]
  exact Iff.rfl

/-- Row i lies in the block of point i / 512. -/
theorem cover6 (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  have hN : cfg0.N = 8 := N_0
  have hlt : (i 0).val / 512 < cfg0.N := by rw [hN]; omega
  obtain ⟨-, -, -, -, -, -, -, -, -, -, -, -, e0, e1⟩ := idx_facts ⟨(i 0).val / 512, hlt⟩
  refine ⟨⟨(i 0).val / 512, hlt⟩, flush0_6 _, ?_⟩
  rw [mem_blk6]
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hlt⟩ (1 : Fin 2) * 2048 ≤ (i 1).val
      ∧ (i 1).val < win0_6.index ⟨(i 0).val / 512, hlt⟩ (1 : Fin 2) * 2048 + 2048
    rw [e1]; omega

/-- After the region the array holds the targets. -/
theorem final6 (c : Dev nD) (T : Fin 4096 → Fin 2048 → ℝ)
    (hT : ∀ (i : Fin 4096) (l : Fin 2048), (V c main_arg1 : S4096x2048.Idx → EReal) (ix2 i l) = ((T i l : ℝ) : EReal)) :
    (dat V c).arrAt 6 cfg0.N = targetsArr T :=
  (dat V c).arrAt_eq_of_cover 6 (targetsArr T) (fun t _ => flushed6_eq V c T hT t) cover6

theorem targets_final (c : Dev nD) (T : Fin 4096 → Fin 2048 → ℝ)
    (hT : ∀ (i : Fin 4096) (l : Fin 2048), (V c main_arg1 : S4096x2048.Idx → EReal) (ix2 i l) = ((T i l : ℝ) : EReal))
    (i : Fin 4096) (l : Fin 2048) :
    ((dat V c).arrAt 6 cfg0.N : S4096x2048.Idx → EReal) (ix2 i l) = ((T i l : ℝ) : EReal) := by
  rw [final6 V c T hT]; rfl

end Cert.KernelIdeal.FocalValue

end
-- ==== Proof.KernelValue.lean ====
import proofs.«180214_j58918361366660_2_alg».proof.Proof.RunValue
import proofs.«180214_j58918361366660_2_alg».proof.Proof.TtpValue
import proofs.«180214_j58918361366660_2_alg».proof.Proof.FocalValue
import proofs.«180214_j58918361366660_2_alg».proof.Proof.KernelHost

/-! The idealized kernel program's result on real inputs: the loss in its factorised form. -/

noncomputable section

namespace Cert.KernelValue

open Idealize.ShloMosaic Idealize.ShloMosaic.TcCoe Idealize.SL.Sem
open Cert.KernelIdeal Cert.KernelIdeal.Gen

section KernelValue

variable (m : (ℓ : Loc nD τ sig) → Buf (Elt Ideal) ℓ) (ρ : Dev nD → PrngReg) (c : Dev nD)
variable (X T : Fin 4096 → Fin 2048 → ℝ)

/-- The first region is entered with the two inputs as launched. -/
theorem entry_arg0 : Cert.KernelIdeal.Run.focalEntry m ρ c main_arg0 = m ((c.tc : Thread nD τ).loc main_arg0) := rfl
theorem entry_arg1 : Cert.KernelIdeal.Run.focalEntry m ρ c main_arg1 = m ((c.tc : Thread nD τ).loc main_arg1) := rfl

set_option maxHeartbeats 1600000 in
/-- With real inputs `X`, `T` the kernel program's result is the loss in its factorised form: the first region leaves the
    focal row sums, the squared-probability and squared-target row sums and the two matrices `P = σ(X)` and `T`; the
    second leaves the row sums of squares of `Tᵀ P`; the host arithmetic combines them. -/
theorem kernel_value
    (hX : ∀ (i : Fin 4096) (l : Fin 2048), (Cert.KernelIdeal.Run.focalEntry m ρ c main_arg0 : S4096x2048.Idx → EReal) (ValueIdx.ix2 i l) = ((X i l : ℝ) : EReal))
    (hT : ∀ (i : Fin 4096) (l : Fin 2048), (Cert.KernelIdeal.Run.focalEntry m ρ c main_arg1 : S4096x2048.Idx → EReal) (ValueIdx.ix2 i l) = ((T i l : ℝ) : EReal)) :
    (Cert.KernelIdeal.Run.atReturn m ρ c (Proc.devRef .tc main_v16) : FVec Ideal S_ .f32)
      = fun _ => ((Cert.Spec.lossFactored 8388608 16773120 X T : ℝ) : EReal) := by
  have hTt : ∀ (k : Fin 4096) (a : Fin 2048), Cert.KernelIdeal.TtpValue.Tt (Cert.KernelIdeal.Run.ttpEntry m ρ) c (ValueIdx.ix2 k a) = ((T k a : ℝ) : EReal) :=
    fun k a => (congrFun (Cert.KernelIdeal.RunValue.ttpEntry_targets m ρ c) (ValueIdx.ix2 k a)).trans
      (Cert.KernelIdeal.FocalValue.targets_final (Cert.KernelIdeal.Run.focalEntry m ρ) c T hT k a)
  have hPb : ∀ (k : Fin 4096) (b : Fin 2048), Cert.KernelIdeal.TtpValue.Pb (Cert.KernelIdeal.Run.ttpEntry m ρ) c (ValueIdx.ix2 k b) = ((Cert.Spec.sigm (X k b) : ℝ) : EReal) :=
    fun k b => (congrFun (Cert.KernelIdeal.RunValue.ttpEntry_probs m ρ c) (ValueIdx.ix2 k b)).trans
      (Cert.KernelIdeal.FocalValue.probs_final (Cert.KernelIdeal.Run.focalEntry m ρ) c X hX k b)
  have hOut := Cert.KernelIdeal.TtpValue.ttp_out (Cert.KernelIdeal.Run.ttpEntry m ρ) c T (fun i l => Cert.Spec.sigm (X i l)) hTt hPb
  rw [Cert.KernelIdeal.RunValue.result_eq m ρ c]
  exact Cert.KernelHost.hostLoss_factored
    (Cert.KernelIdeal.RunValue.focalSumsOut m ρ c) (Cert.KernelIdeal.RunValue.probSqSumsOut m ρ c) (Cert.KernelIdeal.RunValue.targetSqSumsOut m ρ c)
    (Cert.KernelIdeal.RunValue.roundedProbsOut m ρ c) (Cert.KernelIdeal.RunValue.productSqSumsOut m ρ c)
    (fun i => ∑ l, Cert.Spec.focal (X i l) (T i l)) (fun i => ∑ l, Cert.Spec.sigm (X i l) * Cert.Spec.sigm (X i l)) (fun i => ∑ l, T i l * T i l)
    (fun i l => Cert.Spec.sigm (X i l))
    (fun a => ∑ b : Fin 2048, (∑ k : Fin 4096, T k a * Cert.Spec.sigm (X k b)) * (∑ k : Fin 4096, T k a * Cert.Spec.sigm (X k b)))
    (Cert.KernelIdeal.FocalValue.focal_final (Cert.KernelIdeal.Run.focalEntry m ρ) c X T hX hT)
    (Cert.KernelIdeal.FocalValue.probSq_final (Cert.KernelIdeal.Run.focalEntry m ρ) c X hX)
    (Cert.KernelIdeal.FocalValue.targetSq_final (Cert.KernelIdeal.Run.focalEntry m ρ) c T hT)
    (Cert.KernelIdeal.FocalValue.probs_final (Cert.KernelIdeal.Run.focalEntry m ρ) c X hX)
    hOut
    X T (fun _ => rfl) (fun _ => rfl) (fun _ => rfl) (fun _ _ => rfl) (fun _ => rfl)

end KernelValue

end Cert.KernelValue

end
-- ==== Proof.ContrastIdentity.lean ====
import proofs.«180214_j58918361366660_2_alg».proof.Proof.Spec

/-! The pairwise contrastive sum equals its factorised form.

    Write `A i j = ⟨t_i, t_j⟩` and `B i j = ⟨p_i, p_j⟩`.  The factor `1 - δ_ij` turns a double sum into
    "all ordered pairs minus the diagonal"; `(1 - A) B = B - A B` splits the summand; and the two full double sums
    collapse by exchanging the order of summation:
    `∑_{i,j} ⟨p_i, p_j⟩ = ∑_l (∑_i p_il)²` and `∑_{i,j} ⟨t_i, t_j⟩ ⟨p_i, p_j⟩ = ∑_{a,b} (∑_k t_ka p_kb)²`. -/

noncomputable section

namespace Cert.Spec

open scoped BigOperators

variable {ι κ : Type} [Fintype ι] [Fintype κ] [DecidableEq ι]

/-- Multiplying by `1 - δ_ij` removes the diagonal from a double sum. -/
theorem sum_mul_one_sub_delta (F : ι → ι → ℝ) :
    (∑ i, ∑ j, F i j * (1 - if i = j then 1 else 0)) = (∑ i, ∑ j, F i j) - ∑ i, F i i := by
  simp only [mul_sub, mul_one, mul_ite, mul_zero, Finset.sum_sub_distrib, Finset.sum_ite_eq,
    Finset.mem_univ, if_true]

/-- `∑_{i,j} ⟨p_i, p_j⟩ = ∑_l (∑_i p_il)²`. -/
theorem sum_inner_eq_sq_colsum (P : ι → κ → ℝ) :
    (∑ i, ∑ j, ∑ l, P i l * P j l) = ∑ l, (∑ i, P i l) * (∑ i, P i l) := by
  have h : ∀ l, (∑ i, P i l) * (∑ i, P i l) = ∑ i, ∑ j, P i l * P j l := fun l => Finset.sum_mul_sum _ _ _ _
  simp only [h]
  calc (∑ i, ∑ j, ∑ l, P i l * P j l)
      = ∑ i, ∑ l, ∑ j, P i l * P j l := Finset.sum_congr rfl (fun i _ => Finset.sum_comm)
    _ = ∑ l, ∑ i, ∑ j, P i l * P j l := Finset.sum_comm

/-- Exchange of a fourfold sum: the two outer indices move inside. -/
theorem sum4_comm (f : ι → ι → κ → κ → ℝ) :
    (∑ i, ∑ j, ∑ a, ∑ b, f i j a b) = ∑ a, ∑ b, ∑ i, ∑ j, f i j a b := by
  calc (∑ i, ∑ j, ∑ a, ∑ b, f i j a b)
      = ∑ i, ∑ a, ∑ j, ∑ b, f i j a b := Finset.sum_congr rfl (fun i _ => Finset.sum_comm)
    _ = ∑ a, ∑ i, ∑ j, ∑ b, f i j a b := Finset.sum_comm
    _ = ∑ a, ∑ i, ∑ b, ∑ j, f i j a b :=
        Finset.sum_congr rfl (fun a _ => Finset.sum_congr rfl (fun i _ => Finset.sum_comm))
    _ = ∑ a, ∑ b, ∑ i, ∑ j, f i j a b := Finset.sum_congr rfl (fun a _ => Finset.sum_comm)

/-- `∑_{i,j} ⟨t_i, t_j⟩ ⟨p_i, p_j⟩ = ∑_{a,b} (∑_k t_ka p_kb)²`. -/
theorem sum_inner_mul_inner_eq_sq_gram (P T : ι → κ → ℝ) :
    (∑ i, ∑ j, (∑ l, T i l * T j l) * (∑ l, P i l * P j l))
      = ∑ a, ∑ b, (∑ k, T k a * P k b) * (∑ k, T k a * P k b) := by
  have hL : ∀ i j, (∑ l, T i l * T j l) * (∑ l, P i l * P j l)
      = ∑ a, ∑ b, (T i a * P i b) * (T j a * P j b) := by
    intro i j
    rw [Finset.sum_mul_sum]
    exact Finset.sum_congr rfl (fun a _ => Finset.sum_congr rfl (fun b _ => by ring))
  have hR : ∀ a b, (∑ k, T k a * P k b) * (∑ k, T k a * P k b)
      = ∑ i, ∑ j, (T i a * P i b) * (T j a * P j b) := fun a b => Finset.sum_mul_sum _ _ _ _
  simp only [hL, hR]
  exact sum4_comm (fun i j a b => (T i a * P i b) * (T j a * P j b))

/-- The double sum over ordered pairs of distinct rows equals the factorised form. -/
theorem contrastPairs_eq_factored (P T : ι → κ → ℝ) : contrastPairs P T = contrastFactored P T := by
  unfold contrastPairs contrastFactored
  rw [sum_mul_one_sub_delta (fun i j => (1 - ∑ l, T i l * T j l) * (∑ l, P i l * P j l))]
  have h1 : (∑ i, ∑ j, (1 - ∑ l, T i l * T j l) * (∑ l, P i l * P j l))
      = (∑ i, ∑ j, ∑ l, P i l * P j l)
        - ∑ i, ∑ j, (∑ l, T i l * T j l) * (∑ l, P i l * P j l) := by
    simp only [sub_mul, one_mul, Finset.sum_sub_distrib]
  have h2 : (∑ i, (1 - ∑ l, T i l * T i l) * (∑ l, P i l * P i l))
      = (∑ i, ∑ l, P i l * P i l) - ∑ i, (∑ l, T i l * T i l) * (∑ l, P i l * P i l) := by
    simp only [sub_mul, one_mul, Finset.sum_sub_distrib]
  rw [h1, h2, sum_inner_eq_sq_colsum, sum_inner_mul_inner_eq_sq_gram]
  ring

/-- The loss with the pairwise term equals the loss with the factorised term. -/
theorem lossPairs_eq_lossFactored (n d : ℝ) (X T : ι → κ → ℝ) :
    lossPairs n d X T = lossFactored n d X T := by
  unfold lossPairs lossFactored
  rw [contrastPairs_eq_factored]

end Cert.Spec

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.Finite.lean ====
import proofs.«180214_j58918361366660_2_alg».proof.Pre_finite_inputs
import proofs.«180214_j58918361366660_2_alg».proof.Proof.LibFiniteEntries

/-! The precondition "every float input is finite", read on the extended reals: both input matrices have real entries,
    so each is the coercion of a real matrix. -/

noncomputable section

namespace Cert.Finite

open Idealize.ShloMosaic Cert.Pre_finite_inputs

variable [Cert.Pre_finite_inputs.Facts]
open Cert.Pre_finite_inputs.Facts

/-- Under the precondition no entry of either input is infinite. -/
theorem entries_real (x t : FVec Ideal S4096x2048 .f32)
    (h : Cert.Pre_finite_inputs.fn (F := Ideal) x t = fun _ => 1#1) :
    (∀ i, x i ≠ ⊥ ∧ x i ≠ ⊤) ∧ (∀ i, t i ≠ ⊥ ∧ t i ≠ ⊤) := by
  have h0 := congrFun h ValueIdx.ix0
  dsimp only [Cert.Pre_finite_inputs.fn] at h0
  obtain ⟨h1, h2⟩ := IntOp.andi_eq_one.mp h0
  exact ⟨fun i => Cert.FiniteEntries.arr_real x _ _ _ h1 i, fun i => Cert.FiniteEntries.arr_real t _ _ _ h2 i⟩

/-- A real-valued matrix whose coercion is the given array of extended reals without infinite entries. -/
def toReal (x : FVec Ideal S4096x2048 .f32) : Fin 4096 → Fin 2048 → ℝ := fun i l => (x (ValueIdx.ix2 i l)).toReal

theorem coe_toReal (x : FVec Ideal S4096x2048 .f32) (hx : ∀ i, x i ≠ ⊥ ∧ x i ≠ ⊤) (i : Fin 4096) (l : Fin 2048) :
    x (ValueIdx.ix2 i l) = ((toReal x i l : ℝ) : EReal) :=
  (EReal.coe_toReal (hx _).2 (hx _).1).symm

end Cert.Finite

end
-- ==== Proof.lean ====
import proofs.«180214_j58918361366660_2_alg».proof.Defs
import proofs.«180214_j58918361366660_2_alg».proof.Proof.Gen.Kernel
import proofs.«180214_j58918361366660_2_alg».proof.Proof.Gen.KernelIdeal
import proofs.«180214_j58918361366660_2_alg».proof.Proof.Gen.ReferenceIdeal
import proofs.«180214_j58918361366660_2_alg».proof.Proof.Gen.Pre_finite_inputs
import proofs.«180214_j58918361366660_2_alg».proof.Proof.Gen.ReferenceIdeal.Run
import proofs.«180214_j58918361366660_2_alg».proof.Proof.Gen.ReferenceIdeal.Read
import proofs.«180214_j58918361366660_2_alg».proof.Proof.Run
import proofs.«180214_j58918361366660_2_alg».proof.Proof.RunBits
import proofs.«180214_j58918361366660_2_alg».proof.Proof.KernelValue
import proofs.«180214_j58918361366660_2_alg».proof.Proof.RefLoss
import proofs.«180214_j58918361366660_2_alg».proof.Proof.ContrastIdentity
import proofs.«180214_j58918361366660_2_alg».proof.Proof.Finite
import Idealize.ShloMosaic.Adequacy
import Idealize.ShloMosaic.Init

/-! A multi-label focal loss with a pairwise contrastive term, computed two ways. The reference forms the `B × B` matrices
    `P Pᵀ` and `T Tᵀ` and sums `(1 − ⟨tᵢ, tⱼ⟩) ⟨pᵢ, pⱼ⟩` over ordered pairs of distinct rows. The kernel program never
    forms them: one pass over the inputs leaves, per row, the focal sum, `‖pᵢ‖²`, `‖tᵢ‖²`, and the matrices `P = σ(X)`
    and `T`; a second, tiled pass leaves the row sums of squares of `Tᵀ P`; a few scalar operations finish. On the
    extended reals, with finite inputs, the two results are the same real number (`Cert.Spec.contrastPairs_eq_factored`). -/

noncomputable section

namespace Cert.Proof

open Idealize.ShloMosaic Idealize.ShloMosaic.TcCoe Idealize.SL.Sem

/-- The word-level kernel program runs to the end, faults nowhere and leaves both inputs unchanged. -/
theorem frame_p : Cert.frame_Kernel := fun m ρ _ => Cert.Kernel.Run.frame m ρ
/-- So does the idealized kernel program. -/
theorem frame_pi : Cert.frame_KernelIdeal := fun m ρ _ => Cert.KernelIdeal.Run.frame m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization replaced two round trips through bf16 by the identity: exact on the extended reals. -/
theorem preserves : Cert.preserves_Kernel_KernelIdeal :=
  ⟨IdealRules.truncf_extf.statement Cert.KernelIdeal.S512x2048 .f32 .bf16, IdealRules.truncf_extf.statement Cert.KernelIdeal.S512x2048 .f32 .bf16⟩

open Cert.KernelIdeal in
/-- On the extended reals, with finite inputs `X` (logits) and `T` (targets), both programs end at the same loss: the
    mean focal term plus the pairwise contrastive term over `B (B - 1)`. The kernel computes the contrastive term in its
    factorised form `(‖∑ᵢ pᵢ‖² − ∑ᵢ ‖pᵢ‖²) − (‖Tᵀ P‖_F² − ∑ᵢ ‖tᵢ‖² ‖pᵢ‖²)`, the reference as the double sum over ordered
    pairs of distinct rows of `(1 − ⟨tᵢ, tⱼ⟩) ⟨pᵢ, pⱼ⟩`; the two are equal for real matrices, by exchanging finite sums. -/
theorem algebraic : Cert.algebraic_KernelIdeal_ReferenceIdeal := by
  intro m ρ m' ρ' hpre hagree
  have hre := fun c : Dev Cert.KernelIdeal.nD => Cert.Finite.entries_real (m ((c.tc : Thread nD τ).loc main_arg0)) (m ((c.tc : Thread nD τ).loc main_arg1)) (hpre c)
  let X : Dev Cert.KernelIdeal.nD → Fin 4096 → Fin 2048 → ℝ := fun c => Cert.Finite.toReal (m ((c.tc : Thread nD τ).loc main_arg0))
  let T : Dev Cert.KernelIdeal.nD → Fin 4096 → Fin 2048 → ℝ := fun c => Cert.Finite.toReal (m ((c.tc : Thread nD τ).loc main_arg1))
  have hX : ∀ (c : Dev Cert.KernelIdeal.nD) (i : Fin 4096) (l : Fin 2048), (m ((c.tc : Thread nD τ).loc main_arg0) : S4096x2048.Idx → EReal) (ValueIdx.ix2 i l) = ((X c i l : ℝ) : EReal) :=
    fun c i l => Cert.Finite.coe_toReal _ (hre c).1 i l
  have hT : ∀ (c : Dev Cert.KernelIdeal.nD) (i : Fin 4096) (l : Fin 2048), (m ((c.tc : Thread nD τ).loc main_arg1) : S4096x2048.Idx → EReal) (ValueIdx.ix2 i l) = ((T c i l : ℝ) : EReal) :=
    fun c i l => Cert.Finite.coe_toReal _ (hre c).2 i l
  refine ⟨fun c => fun _ => ((Cert.Spec.lossFactored 8388608 16773120 (X c) (T c) : ℝ) : EReal), ?_, ?_⟩
  · refine (Cert.KernelIdeal.Run.run_vals (F := Ideal) m ρ).mono fun r h c => ⟨?_, ?_, ?_⟩
    · exact (h c _ (Cert.KernelIdeal.Run.mem_uc main_v16 (by decide))).trans
        (Cert.KernelValue.kernel_value m ρ c (X c) (T c) (hX c) (hT c))
    · exact (h c _ (Cert.KernelIdeal.Run.mem_uc main_arg0 (by decide))).trans (Cert.KernelIdeal.Run.atReturn_main_arg0 m ρ c)
    · exact (h c _ (Cert.KernelIdeal.Run.mem_uc main_arg1 (by decide))).trans (Cert.KernelIdeal.Run.atReturn_main_arg1 m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, (hagree c).1, (hagree c).2,
      Cert.RefLoss.ref_eq _ _ (X c) (T c) (hX c) (hT c), Cert.Spec.lossPairs_eq_lossFactored]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
